-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S3200000x6 : Shape := ⟨2, ![3200000, 6]⟩
abbrev S6 : Shape := ⟨1, ![6]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3200000x6 : S_.BroadcastsInDim S3200000x6 (![] : Fin 0 → Fin S3200000x6.rank)
  reducesTo_S3200000x6_S_d0_1 : S3200000x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S64 .f32) (main_arg6 : FVec F S3200000x6 .f32) (main_arg7 : FVec F S6 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3200000x6 .f32 := Host.absf main_arg6
  let main_cst_8 : FVec F S_ .f32 := constant S_ .f32 0x7F800000#32
  let main_v25 : FVec F S3200000x6 .f32 := broadcastInDim S3200000x6 ![] bcast_S_S3200000x6 main_cst_8
  let main_v26 : IVec S3200000x6 1 := cmpf .olt main_v24 main_v25
  let main_c_9 : IVec S_ 1 := constantI S_ 1 1#1
  let main_v27 : IVec S_ 1 := (fun x v => Host.reduce IntOp.andi x v reducesTo_S3200000x6_S_d0_1 h_S_) main_v26 main_c_9
  let main_v28 : IVec S_ 1 := andi main_v23 main_v27
  let main_v29 : FVec F S6 .f32 := Host.absf main_arg7
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S3200000x6 .f32) (main_arg7 : FVec F S6 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S3200000x6 : Shape := ⟨2, ![3200000, 6]⟩
abbrev S6 : Shape := ⟨1, ![6]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S1x3200000 : Shape := ⟨2, ![1, 3200000]⟩
abbrev S1x6 : Shape := ⟨2, ![1, 6]⟩
abbrev S1x12800 : Shape := ⟨2, ![1, 12800]⟩
abbrev S12800x6 : Shape := ⟨2, ![12800, 6]⟩
abbrev S1 : Shape := ⟨1, ![1]⟩
abbrev S1x1 : Shape := ⟨2, ![1, 1]⟩

abbrev nBuf : Space → Nat
  | .hbm => 96
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S3200000x6, .f32⟩
  | .hbm, ⟨7, _⟩ => ⟨S6, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S850000x1, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000x64, .f32⟩
  | .hbm, ⟨92, _⟩ => ⟨S50000x64, .f32⟩
  | .hbm, ⟨93, _⟩ => ⟨S1x3200000, .f32⟩
  | .hbm, ⟨94, _⟩ => ⟨S1x6, .f32⟩
  | .hbm, ⟨95, _⟩ => ⟨S1x6, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S1x12800, .f32⟩
  | .local _ .vmem, ⟨11, _⟩ => ⟨S1x12800, .f32⟩
  | .local _ .vmem, ⟨12, _⟩ => ⟨S12800x6, .f32⟩
  | .local _ .vmem, ⟨13, _⟩ => ⟨S12800x6, .f32⟩
  | .local _ .vmem, ⟨14, _⟩ => ⟨S1x6, .f32⟩
  | .local _ .vmem, ⟨15, _⟩ => ⟨S1x6, .f32⟩
  | .local _ .vmem, ⟨16, _⟩ => ⟨S1x6, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![250], ![false]⟩

def k2_cond2 (i : grid2.Coords) : BitVec 1 :=
  let arg0 : BitVec 32 := BitVec.ofNat 32 (i 0).val
  let c249_i32 : BitVec 32 := 249#32
  let v14 : BitVec 1 := Scalar.cmpi .eq arg0 c249_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x12800 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12800x6 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S50000x64_S1x3200000 : S50000x64.ShapeCasts S1x3200000
  shapeCasts_S6_S1x6 : S6.ShapeCasts S1x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  inb_S12800x6_S12800x6_0_0 : ∀ a, (![0, 0] : Fin 2 → Nat) a + S12800x6.size a ≤ S12800x6.size a
  h_S12800x6 : 0 < S12800x6.numel
  reduces_S1x6_S1 : S1x6.Reduces [1] S1
  shapeCasts_S1_S1x1 : S1.ShapeCasts S1x1
  broadcasts_S1x1_S1x6 : S1x1.Broadcasts S1x6
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S1x12800_S12800x6_S1x6_1_0_0_1_n_n_wf : DotDims.WF S1x12800 S12800x6 S1x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x12800.size a ≤ S1x3200000.size a
  hwx2_0 : ∀ i : grid2.Coords, EltTy.bits .f32 = 32 ∨ (Rect.block (s := S1x3200000) S1x12800.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12800x6.size a ≤ S3200000x6.size a
  hwx2_1 : ∀ i : grid2.Coords, EltTy.bits .f32 = 32 ∨ (Rect.block (s := S3200000x6) S12800x6.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x6.size a ≤ S1x6.size a
  hwx2_2 : ∀ i : grid2.Coords, EltTy.bits .f32 = 32 ∨ (Rect.block (s := S1x6) S1x6.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x6.size a ≤ S1x6.size a
  hwx2_3 : ∀ i : grid2.Coords, EltTy.bits .f32 = 32 ∨ (Rect.block (s := S1x6) S1x6.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x12800_S12800x6_S1x6_1_0_0_1_n_n : DotDims S1x12800 S12800x6 S1x6 where
  lhsContracting := [1]
  rhsContracting := [0]
  lhsNonContracting := [0]
  rhsNonContracting := [1]
  lhsBatch := []
  rhsBatch := []
  wf := dot_S1x12800_S12800x6_S1x6_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S1x12800.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S12800x6.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x6.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x6.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S3200000x6 : Shape := ⟨2, ![3200000, 6]⟩
abbrev S6 : Shape := ⟨1, ![6]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S1x3200000 : Shape := ⟨2, ![1, 3200000]⟩
abbrev S1x6 : Shape := ⟨2, ![1, 6]⟩
abbrev S1 : Shape := ⟨1, ![1]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S3200000x6, .f32⟩
  | 7 => ⟨S6, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S50000x64, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S_, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S_, .f32⟩
  | 78 => ⟨S50000, .f32⟩
  | 79 => ⟨S50000, .i1⟩
  | 80 => ⟨S50000, .f32⟩
  | 81 => ⟨S_, .f32⟩
  | 82 => ⟨S_, .f32⟩
  | 83 => ⟨S50000, .f32⟩
  | 84 => ⟨S50000, .f32⟩
  | 85 => ⟨S50000x64, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x64, .f32⟩
  | 114 => ⟨S850000x1, .f32⟩
  | 115 => ⟨S850000x64, .f32⟩
  | 116 => ⟨S850000x64, .f32⟩
  | 117 => ⟨S_, .f32⟩
  | 118 => ⟨S50000x64, .f32⟩
  | 119 => ⟨S850000x1, .i32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S1x3200000, .f32⟩
  | _ => ⟨S50000x128, .f32⟩

abbrev hbmTy0_1 (i : Nat) : BufTy := match i % 128 with
  | 0 => ⟨S1x6, .f32⟩
  | 1 => ⟨S1x6, .f32⟩
  | 2 => ⟨S1x6, .f32⟩
  | 3 => ⟨S_, .f32⟩
  | 4 => ⟨S1, .f32⟩
  | 5 => ⟨S_, .f32⟩
  | 6 => ⟨S1, .f32⟩
  | 7 => ⟨S1, .f32⟩
  | 8 => ⟨S1x1, .f32⟩
  | 9 => ⟨S1x6, .f32⟩
  | 10 => ⟨S1x6, .f32⟩
  | 11 => ⟨S1x6, .f32⟩
  | 12 => ⟨S_, .f32⟩
  | 13 => ⟨S1, .f32⟩
  | 14 => ⟨S1x1, .f32⟩
  | 15 => ⟨S1x6, .f32⟩
  | 16 => ⟨S1x6, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v55 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S50000x64_S1x3200000 : S50000x64.ShapeCasts S1x3200000
  bcast_S6_S1x6_1 : S6.BroadcastsInDim S1x6 (![1] : Fin 1 → Fin S1x6.rank)
  reducesTo_S1x6_S1_d1 : S1x6.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x6_0_1 : S1x1.BroadcastsInDim S1x6 (![0, 1] : Fin 2 → Fin S1x6.rank)
  scatter_S50000_S850000x1_S850000_n_0_0_1_wf : ScatterDims.WF S50000 S850000x1 S850000 [] [0] [0] 1
  dot_S50000x128_S128x64_S50000x64_1_0_0_1_n_n_wf : DotDims.WF S50000x128 S128x64 S50000x64 [1] [0] [0] [1] [] []
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S1x3200000_S3200000x6_S1x6_1_0_0_1_n_n_wf : DotDims.WF S1x3200000 S3200000x6 S1x6 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1x3200000_S3200000x6_S1x6_1_0_0_1_n_n : DotDims S1x3200000 S3200000x6 S1x6 where
  lhsContracting := [1]
  rhsContracting := [0]
  lhsNonContracting := [0]
  rhsNonContracting := [1]
  lhsBatch := []
  rhsBatch := []
  wf := dot_S1x3200000_S3200000x6_S1x6_1_0_0_1_n_n_wf

class Facts : Prop extends Facts₀ where

variable [Facts]
-- ==== Proof.K.R0.lean ====
import proofs.«127401_j75110388072633_2_alg».proof.Proof.Gen.Kernel.Launch
import proofs.«127401_j75110388072633_2_alg».proof.Proof.Gen.Kernel.Skeleton
import proofs.«127401_j75110388072633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: the dense transform `cc0__dense_matmul_kernel` (pipeline 0)

The region's proof data and body obligation at a parameter `V`, the TensorCore's buffer contents when the
region is entered. The grid has 10 points; at point `t` window 0 is row block `t` of the left operand,
window 1 is the whole right operand, and window 2 is row block `t` of the result. The body reads both
input blocks, multiplies them into a zero accumulator and stores the product over the whole output block. -/

-- membership in a rectangle of these extents (`View.cover_of_tiled`) recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 is fetched at the first point only; at a later point its block index has not moved, so its
    staging buffer still holds the block: the same statement, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole left-operand block, -/
abbrev r0_x : Rect S5000x128 := Rect.unit (s := S5000x128) ![0, 0] S5000x128.size inb_S5000x128_S5000x128_0_0
/-- the whole right operand, -/
abbrev r0_w : Rect S128x64 := Rect.unit (s := S128x64) ![0, 0] S128x64.size inb_S128x64_S128x64_0_0
/-- and the whole output block. -/
abbrev r0_out : Rect S5000x64 := Rect.unit (s := S5000x64) ![0, 0] S5000x64.size inb_S5000x64_S5000x64_0_0

/-! ## What the body leaves in the output window's buffer -/

/-- Window 2's staging buffer after the body, from the input windows' blocks: its one store, of the
    product payload over the two blocks read whole. -/
def out0_2 (x0 : Vec F S5000x128 .f32) (x1 : Vec F S128x64 .f32) : Vec F S5000x64 .f32 :=
  View.canon [⟨r0_out, k0_pay1 (View.ld x0 r0_x) (View.ld x1 r0_w)⟩]

/-- The one store is over the whole block, so it covers it. -/
theorem cover0_2 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

/-! ## The body's triple -/

set_option maxHeartbeats 1000000 in
/-- The kernel body on whole staging memrefs, the inputs' at contents `x0`, `x1` and the output's at anything,
    runs to the continuation holding the inputs' as they were and the output's at `out0_2 x0 x1`: the body is
    its skeleton, two loads of the inputs, a load of the output block whose value is not used, and the store. -/
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies;
    the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«127401_j75110388072633_2_alg».proof.Proof.Gen.Kernel.Launch
import proofs.«127401_j75110388072633_2_alg».proof.Proof.Gen.Kernel.Skeleton
import proofs.«127401_j75110388072633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main: the dense transform `cc1__dense_matmul_kernel` (pipeline 1)

The region's proof data and body obligation at a parameter `V`, the TensorCore's buffer contents when the
region is entered. The grid has 10 points; at point `t` window 0 is row block `t` of the left operand,
window 1 is the whole right operand, and window 2 is row block `t` of the result. The body reads both
input blocks, multiplies them into a zero accumulator and stores the product over the whole output block. -/

-- membership in a rectangle of these extents (`View.cover_of_tiled`) recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 is fetched at the first point only; at a later point its block index has not moved, so its
    staging buffer still holds the block: the same statement, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole left-operand block, -/
abbrev r1_x : Rect S5000x64 := Rect.unit (s := S5000x64) ![0, 0] S5000x64.size inb_S5000x64_S5000x64_0_0
/-- the whole right operand, -/
abbrev r1_w : Rect S64x64 := Rect.unit (s := S64x64) ![0, 0] S64x64.size inb_S64x64_S64x64_0_0
/-- and the whole output block. -/
abbrev r1_out : Rect S5000x64 := Rect.unit (s := S5000x64) ![0, 0] S5000x64.size inb_S5000x64_S5000x64_0_0

/-! ## What the body leaves in the output window's buffer -/

/-- Window 2's staging buffer after the body, from the input windows' blocks: its one store, of the
    product payload over the two blocks read whole. -/
def out1_2 (x0 : Vec F S5000x64 .f32) (x1 : Vec F S64x64 .f32) : Vec F S5000x64 .f32 :=
  View.canon [⟨r1_out, k1_pay1 (View.ld x0 r1_x) (View.ld x1 r1_w)⟩]

/-- The one store is over the whole block, so it covers it. -/
theorem cover1_2 (p0 : Vec F S5000x64 .f32) (y : S5000x64.Idx) :
    ∃ pc ∈ ([⟨r1_out, p0⟩] : List (View.Piece (Elt F) S5000x64 .f32)), y ∈ pc.1.set :=
  View.cover_of_tiled [⟨r1_out, p0⟩] S5000x64.size (by rfl) y

/-! ## The body's triple -/

set_option maxHeartbeats 1000000 in
/-- The kernel body on whole staging memrefs, the inputs' at contents `x0`, `x1` and the output's at anything,
    runs to the continuation holding the inputs' as they were and the output's at `out1_2 x0 x1`: the body is
    its skeleton, two loads of the inputs, a load of the output block whose value is not used, and the store. -/
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies;
    the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Runs.lean ====
/- Region 2 (the classifier): what its three control cases share — the windows' blocks at the
   region-entry contents, the branch conditions in closed form over the grid, where the output
   window is idle, the staging and scratch memrefs, the region invariant with the scratch
   accumulator singled out — and the body's run in the first case. -/
import proofs.«127401_j75110388072633_2_alg».proof.Proof.Gen.Kernel.Launch
import proofs.«127401_j75110388072633_2_alg».proof.Proof.Gen.Kernel.Skeleton
import proofs.«127401_j75110388072633_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not
    (unfetched, the block index has not moved), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first `scf.if` (the reset of the accumulator), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-- The condition of the body's second `scf.if` (the epilogue: bias, softmax, the output's store). -/
abbrev cond2_1 (i : grid2.Coords) : Prop := k2_cond2 i = 1#1
/-- It holds at the last point only — decided over the grid. -/
theorem hcond2_1 : ∀ t : Fin cfg2.N, cond2_1 (grid2.coords t) ↔ t.val = 249 :=
  (by decide +kernel : ∀ t : Fin grid2.N, cond2_1 (grid2.coords t) ↔ t.val = 249)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the epilogue does not run the output window is idle, and the pipeline does not write its block back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last point it is live. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2_3 : View sig .tc .vmem S1x6 .f32 := (Memref.whole cc2_stg3_0 : Memref sig .tc .vmem S1x6 .f32).view
abbrev ms2_0 (t : Fin cfg2.N) : Memref sig .tc .vmem S1x12800 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S12800x6 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x6 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x6 .f32 := win2_3.stage (cfg2.slots t 3)
abbrev hs2_3 (t : Fin cfg2.N) : (ms2_3 t).IsWhole := hstage2_3 ((cfg2.slots t 3).cast nbuf2_3)
/-- The scratch accumulator: a whole scoped buffer of the kernel's own, carried between points. -/
abbrev scM2_0 : Memref sig .tc .vmem S1x6 .f32 := Memref.whole cc2_scratch0
abbrev VS2_0 : View sig .tc .vmem S1x6 .f32 := scM2_0.view

/-! ## The region invariant with the accumulator singled out -/

/-- The core's scoped buffers that are no staging buffer of this region — the other two regions'
    staging buffers, each at some contents — around a statement `X` of the accumulator. -/
def scoped2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ X)

/-- The accumulator's statement taken out of the scoped rest, and any other put back in its place. -/
theorem scoped2_swap (c : Dev nD) (X Y : sProp 𝕄) : scoped2 (F := F) c X ⊢ iprop(X ∗ (Y -∗ scoped2 (F := F) c Y)) := by
  unfold scoped2
  iintro ⟨R1, R2, R3, R4, R5, R6, R7, R8, R9, R10, HX⟩
  isplitl [HX]; · iexact HX
  iintro HY
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HY

/-- The class's invariant is the scoped rest with the accumulator at some contents, and the generator register at some state. -/
theorem PhiA2_eq (c : Dev nD) :
    (Pipeline.ΦA spec2 c : sProp 𝕄)
      = iprop(scoped2 (F := F) c iprop(∃ d, owns (c : Thread nD τ) scM2_0 fullShare d) ∗ (∃ r, prngReg c r)) := by
  unfold Pipeline.ΦA scoped2; rw [scopedRest2_eq]; simp only [scM2_0, owns_whole]; try rfl

/-! ## The body on any staging memrefs, case A (the first point) -/

set_option maxHeartbeats 1000000 in
/-- CASE A (the reset taken, the epilogue not): on whole memrefs — the inputs' at their contents, the idle
    output's at contents handed back untouched, the accumulator's at anything — the body runs to the
    continuation holding the inputs' as they were and the accumulator's with its pieces written (last first). -/
noncomputable def kernelRun2_A (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) :
    Σ' (L3 : List (View.Piece (Elt F) S1x6 .f32)), { LS0 : List (View.Piece (Elt F) S1x6 .f32) //
      ∀ (xi3 : Vec F S1x6 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__classifier_kernel i arg1 harg1 arg2 harg2 arg3 harg3 arg4 harg4 arg5 harg5) K } := by
  refine ⟨[], ?_, fun xi3 E K => ?run⟩
  case run =>
    simp only [cc2__classifier_kernel_eq_skeleton]; unfold cc2__classifier_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.R2RunB.lean ====
/- Region 2 (the classifier): the body's run in case B. -/
import proofs.«127401_j75110388072633_2_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (neither the reset nor the epilogue): on whole memrefs — the inputs' at their contents, the idle output's at contents handed back untouched, the accumulator's at what the point before left — the body runs to the continuation holding the inputs' as they were and the accumulator's with its pieces written (last first). -/
noncomputable def kernelRun2_B (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) :
    Σ' (L3 : List (View.Piece (Elt F) S1x6 .f32)), { LS0 : List (View.Piece (Elt F) S1x6 .f32) //
      ∀ (xi3 : Vec F S1x6 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__classifier_kernel i arg1 harg1 arg2 harg2 arg3 harg3 arg4 harg4 arg5 harg5) K } := by
  refine ⟨[], ?_, fun xi3 E K => ?run⟩
  case run =>
    simp only [cc2__classifier_kernel_eq_skeleton]; unfold cc2__classifier_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.R2RunC.lean ====
/- Region 2 (the classifier): the body's run in case C. -/
import proofs.«127401_j75110388072633_2_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (the epilogue taken, the reset not): on whole memrefs — the inputs' at their contents, the output's at anything, the accumulator's at what the point before left — the body runs to the continuation holding the inputs' as they were, the output's and the accumulator's with their pieces written (last first). -/
noncomputable def kernelRun2_C (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) :
    Σ' (L3 : List (View.Piece (Elt F) S1x6 .f32)), { LS0 : List (View.Piece (Elt F) S1x6 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2__classifier_kernel i arg1 harg1 arg2 harg2 arg3 harg3 arg4 harg4 arg5 harg5) K } := by
  refine ⟨?_, ?_, fun E K => ?run⟩
  case run =>
    simp only [cc2__classifier_kernel_eq_skeleton]; unfold cc2__classifier_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.R2.lean ====
/- Region 2 (the classifier): what the output's staging buffer and the accumulator hold after each
   point, the region invariant carrying the accumulator, the pipeline's proof data and the body
   obligation at every point. -/
import proofs.«127401_j75110388072633_2_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## What each case leaves -/

/-- Case A stores nothing into the output (the window is idle at its points and not written back there):
    a placeholder that nothing consults. -/
def out2_A_3 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) : Vec F S1x6 .f32 :=
  VO2_3.read (Elt F) (VO2_3.writes (Elt F) VO2_3.junk (kernelRun2_A c i arg1 harg1 arg2 harg2 arg3 harg3 arg4 harg4 arg5 harg5 hc0 hc1 x0 x1 x2).1)

/-- Case A's stores into the accumulator cover it. -/
theorem scover2_A_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) (y : S1x6.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1x6.size (by sl_kernel_rfl) y

/-- What case A leaves in the accumulator: its pieces read back over junk. -/
def sout2_A_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) : Vec F S1x6 .f32 :=
  VS2_0.read (Elt F) (VS2_0.writes (Elt F) VS2_0.junk (kernelRun2_A c i arg1 harg1 arg2 harg2 arg3 harg3 arg4 harg4 arg5 harg5 hc0 hc1 x0 x1 x2).2.1)

/-- Case B stores nothing into the output (the window is idle at its points and not written back there):
    a placeholder that nothing consults. -/
def out2_B_3 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) : Vec F S1x6 .f32 :=
  VO2_3.read (Elt F) (VO2_3.writes (Elt F) VO2_3.junk (kernelRun2_B c i arg1 harg1 arg2 harg2 arg3 harg3 arg4 harg4 arg5 harg5 hc0 hc1 x0 x1 x2 xs0).1)

/-- Case B's stores into the accumulator cover it. -/
theorem scover2_B_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) (y : S1x6.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1x6.size (by sl_kernel_rfl) y

/-- What case B leaves in the accumulator: its pieces read back over junk. -/
def sout2_B_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) : Vec F S1x6 .f32 :=
  VS2_0.read (Elt F) (VS2_0.writes (Elt F) VS2_0.junk (kernelRun2_B c i arg1 harg1 arg2 harg2 arg3 harg3 arg4 harg4 arg5 harg5 hc0 hc1 x0 x1 x2 xs0).2.1)

/-- Case C's one store into the output covers its block. -/
theorem cover2_C_3 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) (y : S1x6.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1x6.size (by sl_kernel_rfl) y

/-- What case C leaves in the output's staging buffer: its pieces read back over junk. -/
def out2_C_3 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) : Vec F S1x6 .f32 :=
  VO2_3.read (Elt F) (VO2_3.writes (Elt F) VO2_3.junk (kernelRun2_C c i arg1 harg1 arg2 harg2 arg3 harg3 arg4 harg4 arg5 harg5 hc0 hc1 x0 x1 x2 xs0).1)

/-- Case C's stores into the accumulator cover it. -/
theorem scover2_C_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) (y : S1x6.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1x6.size (by sl_kernel_rfl) y

/-- What case C leaves in the accumulator: its pieces read back over junk. -/
def sout2_C_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) : Vec F S1x6 .f32 :=
  VS2_0.read (Elt F) (VS2_0.writes (Elt F) VS2_0.junk (kernelRun2_C c i arg1 harg1 arg2 harg2 arg3 harg3 arg4 harg4 arg5 harg5 hc0 hc1 x0 x1 x2 xs0).2.1)

/-! ## What the buffers hold after each point -/

/-- THE ACCUMULATION. What the output's staging buffer and the accumulator hold after the body at position `n`:
    the case the closed forms select at `n`, run at the point's memrefs and input blocks, over what the point
    before left in the accumulator. -/
def outsAt2 (c : Dev nD) : (n : ℕ) → n < cfg2.N → Vec F S1x6 .f32 × Vec F S1x6 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr rfl) (fun h => absurd ((hcond2_1 ⟨0, hn⟩).mp h) (by decide : ¬ (0 : ℕ) = 249)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr rfl) (fun h => absurd ((hcond2_1 ⟨0, hn⟩).mp h) (by decide : ¬ (0 : ℕ) = 249)) (iblk2 V c 0 ⟨0, hn⟩) (iblk2 V c 1 ⟨0, hn⟩) (iblk2 V c 2 ⟨0, hn⟩))
  | n + 1, hn =>
    if h1 : n + 1 = 249 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at the first point: case A's contents. -/
theorem outsAt2_A (c : Dev nD) (t : Fin cfg2.N) (h0 : t.val = 0) (h1 : ¬t.val = 249) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact absurd h0 (Nat.succ_ne_zero n)

/-- `outsAt2` at a point of case B: that case's contents, over what the point before left. -/
theorem outsAt2_B (c : Dev nD) (t : Fin cfg2.N) (h0 : ¬t.val = 0) (h1 : ¬t.val = 249) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- `outsAt2` at the last point: case C's contents, over what the point before left. -/
theorem outsAt2_C (c : Dev nD) (t : Fin cfg2.N) (h0 : ¬t.val = 0) (h1 : t.val = 249) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- The region invariant before position `n`: before the first point the class's (every scratch at anything);
    afterwards the scoped rest with the accumulator at what the point before left in it, and the generator
    register at some state. -/
def PhiS2 (c : Dev nD) : (n : ℕ) → n ≤ cfg2.N → sProp 𝕄
  | 0, _ => Pipeline.ΦA spec2 c
  | n + 1, hn => iprop(scoped2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scoped2 (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(scoped2 (F := F) c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`'s first component; the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulator at what the point before left (at anything at the first point) and
    takes it back at this point's contents; the other scoped buffers and the generator register ride along; the
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 250 := lt_of_lt_of_eq t.isLt (show cfg2.N = 250 from N_2)
  by_cases h0 : t.val = 0
  · have h1 : ¬t.val = 249 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [Dat.leavesExact_idle (dat2 V c) 3 t (idleAt2_3 t (fun h => h1 ((hcond2_1 t).mp h))) (noFlush2_3 t (fun h => h1 ((hcond2_1 t).mp h)))]
    rw [PhiS2_castSucc V c t, PhiS2_zero V c _ _ h0, PhiA2_eq]
    iintro ⟨⟨HS, Hg⟩, Ho, ⟨%d0, H0⟩, ⟨%d1, H1⟩, ⟨%d2, H2⟩, ⟨%d3, H3⟩⟩
    icases (scoped2_swap (F := F) c _ (owns (c : Thread nD τ) scM2_0 fullShare ((outsAt2 V c t.val t.isLt).2))) $$ HS with ⟨HS0, Hback⟩
    iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hback Hg]
    · isplitl [HS0 Hback]
      · iapply Hback
        unfold owns; iexists _; isplitr
        swap; · iexact HS0
        ipureintro
        rw [outsAt2_A V c t h0 h1]
        dsimp only
        unfold sout2_A_0
        exact View.read_writes_of_cover _ _ _ _ _ (scover2_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val = 249
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [PhiS2_castSucc V c t, PhiS2_pos V c _ _ h0]
      iintro ⟨⟨HS, Hg⟩, Ho, ⟨%d0, H0⟩, ⟨%d1, H1⟩, ⟨%d2, H2⟩, ⟨%d3, H3⟩⟩
      icases (scoped2_swap (F := F) c _ (owns (c : Thread nD τ) scM2_0 fullShare ((outsAt2 V c t.val t.isLt).2))) $$ HS with ⟨HS0, Hback⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hback Hg]
      · isplitl [HS0 Hback]
        · iapply Hback
          unfold owns; iexists _; isplitr
          swap; · iexact HS0
          ipureintro
          rw [outsAt2_C V c t h0 h1]
          dsimp only
          unfold sout2_C_0
          exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro
      rw [outsAt2_C V c t h0 h1]
      dsimp only
      unfold out2_C_3
      exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [PhiS2_castSucc V c t, PhiS2_pos V c _ _ h0]
      iintro ⟨⟨HS, Hg⟩, Ho, ⟨%d0, H0⟩, ⟨%d1, H1⟩, ⟨%d2, H2⟩, ⟨%d3, H3⟩⟩
      icases (scoped2_swap (F := F) c _ (owns (c : Thread nD τ) scM2_0 fullShare ((outsAt2 V c t.val t.isLt).2))) $$ HS with ⟨HS0, Hback⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hback Hg]
      · isplitl [HS0 Hback]
        · iapply Hback
          unfold owns; iexists _; isplitr
          swap; · iexact HS0
          ipureintro
          rw [outsAt2_B V c t h0 h1]
          dsimp only
          unfold sout2_B_0
          exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, Hg⟩
  isplitl [HS]
  · icases (scoped2_swap (F := F) c _ iprop(∃ d, owns (c : Thread nD τ) scM2_0 fullShare d)) $$ HS with ⟨HS0, Hback⟩
    iapply Hback
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 250 := N_2; omega)

end Region2

end Cert.Kernel.Hand

end
-- ==== Proof.K.Data.lean ====
/-
  The buffers' contents at every boundary of the program's eleven items (three stretches of host operations, the first
  dense transform, two stretches, the second dense transform, three stretches, the classifier), as a fold from the launch
  memory: a stretch applies its operations; a kernel region leaves its input arrays as entered and its output array at
  what its write-backs leave. Every argument array reaches the end as launched. Then the three regions' proof data, each
  at its region's entry contents.
-/
import proofs.«127401_j75110388072633_2_alg».proof.Proof.K.R0
import proofs.«127401_j75110388072633_2_alg».proof.Proof.K.R1
import proofs.«127401_j75110388072633_2_alg».proof.Proof.K.R2
import proofs.«127401_j75110388072633_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev B0 : Dev nD → Valuation τ sig (Elt F) := fun c b => m ((c : Dev nD), b)
abbrev B1 : Dev nD → Valuation τ sig (Elt F) := fun c => StableHlo.after hostOps0 (B0 m c)
abbrev B2 : Dev nD → Valuation τ sig (Elt F) := fun c => StableHlo.after hostOps0_1 (B1 m c)
/-- What the first dense transform is entered from. -/
abbrev B3 : Dev nD → Valuation τ sig (Elt F) := fun c => StableHlo.after hostOps0_2 (B2 m c)
abbrev T3 : (c : Dev nD) → (b : Ref sig .tc) → Buf (Elt F) ((c : Thread nD τ).loc b) := fun c b => B3 m c b
/-- After the first dense transform: its arrays at what the pipeline leaves, every other buffer as entered. -/
def B4 (c : Dev nD) : Valuation τ sig (Elt F) :=
  Pipeline.withArrays spec0 c (B3 m c) fun w => (dat0 (T3 m) c).arrAt w cfg0.N
abbrev T4 : (c : Dev nD) → (b : Ref sig .tc) → Buf (Elt F) ((c : Thread nD τ).loc b) := fun c b => B4 m c b
abbrev B5 : Dev nD → Valuation τ sig (Elt F) := fun c => StableHlo.after hostOps1 (B4 m c)
/-- What the second dense transform is entered from. -/
abbrev B6 : Dev nD → Valuation τ sig (Elt F) := fun c => StableHlo.after hostOps1_1 (B5 m c)
abbrev T6 : (c : Dev nD) → (b : Ref sig .tc) → Buf (Elt F) ((c : Thread nD τ).loc b) := fun c b => B6 m c b
def B7 (c : Dev nD) : Valuation τ sig (Elt F) :=
  Pipeline.withArrays spec1 c (B6 m c) fun w => (dat1 (T6 m) c).arrAt w cfg1.N
abbrev T7 : (c : Dev nD) → (b : Ref sig .tc) → Buf (Elt F) ((c : Thread nD τ).loc b) := fun c b => B7 m c b
abbrev B8 : Dev nD → Valuation τ sig (Elt F) := fun c => StableHlo.after hostOps2 (B7 m c)
abbrev B9 : Dev nD → Valuation τ sig (Elt F) := fun c => StableHlo.after hostOps2_1 (B8 m c)
/-- What the classifier is entered from. -/
abbrev B10 : Dev nD → Valuation τ sig (Elt F) := fun c => StableHlo.after hostOps2_2 (B9 m c)
abbrev T10 : (c : Dev nD) → (b : Ref sig .tc) → Buf (Elt F) ((c : Thread nD τ).loc b) := fun c b => B10 m c b
/-- At the return. -/
def B11 (c : Dev nD) : Valuation τ sig (Elt F) :=
  Pipeline.withArrays spec2 c (B10 m c) fun w => (dat2 (T10 m) c).arrAt w cfg2.N
abbrev T11 : (c : Dev nD) → (b : Ref sig .tc) → Buf (Elt F) ((c : Thread nD τ).loc b) := fun c b => B11 m c b

/-! ## A region's arrays at its exit, and everything else as entered -/

theorem B4_arr (c : Dev nD) (w : Fin cfg0.W) :
    B4 m c (Proc.devRef .tc (Pipeline.arrRef spec0 w)) = (dat0 (T3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem hF0 (c : Dev nD) (w : Fin cfg0.W) : (dat0 (T3 m) c).arrAt w cfg0.N = T4 m c (Pipeline.arrRef spec0 w) :=
  (B4_arr m c w).symm
theorem hrest0 (c : Dev nD) : ∀ b, b ∉ Finset.univ.image (Pipeline.arrRef spec0) → T4 m c b = T3 m c b :=
  fun b hb => B4_of_ne m c b fun w e => hb (Finset.mem_image.mpr ⟨w, Finset.mem_univ _, e⟩)

theorem B7_arr (c : Dev nD) (w : Fin cfg1.W) :
    B7 m c (Proc.devRef .tc (Pipeline.arrRef spec1 w)) = (dat1 (T6 m) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m c (Proc.devRef .tc b) = B6 m c (Proc.devRef .tc b) := by
  unfold B7; exact Pipeline.withArrays_of_ne spec1 c _ _ b hb
theorem hF1 (c : Dev nD) (w : Fin cfg1.W) : (dat1 (T6 m) c).arrAt w cfg1.N = T7 m c (Pipeline.arrRef spec1 w) :=
  (B7_arr m c w).symm
theorem hrest1 (c : Dev nD) : ∀ b, b ∉ Finset.univ.image (Pipeline.arrRef spec1) → T7 m c b = T6 m c b :=
  fun b hb => B7_of_ne m c b fun w e => hb (Finset.mem_image.mpr ⟨w, Finset.mem_univ _, e⟩)

theorem B11_arr (c : Dev nD) (w : Fin cfg2.W) :
    B11 m c (Proc.devRef .tc (Pipeline.arrRef spec2 w)) = (dat2 (T10 m) c).arrAt w cfg2.N := by
  unfold B11; exact Pipeline.withArrays_arr spec2 launch2.win.arr_inj c _ _ w
theorem B11_of_ne (c : Dev nD) (b : Ref sig .tc) (hb : ∀ w, Pipeline.arrRef spec2 w ≠ b) :
    B11 m c (Proc.devRef .tc b) = B10 m c (Proc.devRef .tc b) := by
  unfold B11; exact Pipeline.withArrays_of_ne spec2 c _ _ b hb
theorem hF2 (c : Dev nD) (w : Fin cfg2.W) : (dat2 (T10 m) c).arrAt w cfg2.N = T11 m c (Pipeline.arrRef spec2 w) :=
  (B11_arr m c w).symm
theorem hrest2 (c : Dev nD) : ∀ b, b ∉ Finset.univ.image (Pipeline.arrRef spec2) → T11 m c b = T10 m c b :=
  fun b hb => B11_of_ne m c b fun w e => hb (Finset.mem_image.mpr ⟨w, Finset.mem_univ _, e⟩)

/-! ## A region changes only its output array -/

/-- The first dense transform changes only its result's array: an input window's array ends as entered. -/
theorem B4_keep (c : Dev nD) (b : Ref sig .tc) (hb : b ≠ main_v31) :
    B4 m c (Proc.devRef .tc b) = B3 m c (Proc.devRef .tc b) := by
  by_cases h : ∃ w, Pipeline.arrRef spec0 w = b
  · obtain ⟨w, rfl⟩ := h
    rw [B4_arr]
    match w with
    | ⟨0, _⟩ => exact ((dat0 (T3 m) c).arrAt_in 0 rfl _).trans (A_eq0 (T3 m) c 0)
    | ⟨1, _⟩ => exact ((dat0 (T3 m) c).arrAt_in 1 rfl _).trans (A_eq0 (T3 m) c 1)
    | ⟨2, _⟩ => exact absurd rfl hb
  · exact B4_of_ne m c b fun w e => h ⟨w, e⟩
theorem B7_keep (c : Dev nD) (b : Ref sig .tc) (hb : b ≠ main_v48) :
    B7 m c (Proc.devRef .tc b) = B6 m c (Proc.devRef .tc b) := by
  by_cases h : ∃ w, Pipeline.arrRef spec1 w = b
  · obtain ⟨w, rfl⟩ := h
    rw [B7_arr]
    match w with
    | ⟨0, _⟩ => exact ((dat1 (T6 m) c).arrAt_in 0 rfl _).trans (A_eq1 (T6 m) c 0)
    | ⟨1, _⟩ => exact ((dat1 (T6 m) c).arrAt_in 1 rfl _).trans (A_eq1 (T6 m) c 1)
    | ⟨2, _⟩ => exact absurd rfl hb
  · exact B7_of_ne m c b fun w e => h ⟨w, e⟩
theorem B11_keep (c : Dev nD) (b : Ref sig .tc) (hb : b ≠ main_v67) :
    B11 m c (Proc.devRef .tc b) = B10 m c (Proc.devRef .tc b) := by
  by_cases h : ∃ w, Pipeline.arrRef spec2 w = b
  · obtain ⟨w, rfl⟩ := h
    rw [B11_arr]
    match w with
    | ⟨0, _⟩ => exact ((dat2 (T10 m) c).arrAt_in 0 rfl _).trans (A_eq2 (T10 m) c 0)
    | ⟨1, _⟩ => exact ((dat2 (T10 m) c).arrAt_in 1 rfl _).trans (A_eq2 (T10 m) c 1)
    | ⟨2, _⟩ => exact ((dat2 (T10 m) c).arrAt_in 2 rfl _).trans (A_eq2 (T10 m) c 2)
    | ⟨3, _⟩ => exact absurd rfl hb
  · exact B11_of_ne m c b fun w e => h ⟨w, e⟩

/-! ## What no item writes ends as launched -/

/-- A buffer that no host operation writes and that is no region's result holds at the return what it held at launch. -/
theorem B11_launch (c : Dev nD) (b : Ref sig .tc)
    (h0 : b ∉ hostOps0_W) (h1 : b ∉ hostOps0_1_W) (h2 : b ∉ hostOps0_2_W) (h4 : b ∉ hostOps1_W) (h5 : b ∉ hostOps1_1_W)
    (h7 : b ∉ hostOps2_W) (h8 : b ∉ hostOps2_1_W) (h9 : b ∉ hostOps2_2_W)
    (hr0 : b ≠ main_v31) (hr1 : b ≠ main_v48) (hr2 : b ≠ main_v67) :
    B11 m c (Proc.devRef .tc b) = m ((c : Thread nD τ).loc b) :=
  (B11_keep m c b hr2).trans <| (StableHlo.after_of_writes_sub hostOps2_2 _ hostOps2_2_writes h9).trans <|
  (StableHlo.after_of_writes_sub hostOps2_1 _ hostOps2_1_writes h8).trans <|
  (StableHlo.after_of_writes_sub hostOps2 _ hostOps2_writes h7).trans <| (B7_keep m c b hr1).trans <|
  (StableHlo.after_of_writes_sub hostOps1_1 _ hostOps1_1_writes h5).trans <|
  (StableHlo.after_of_writes_sub hostOps1 _ hostOps1_writes h4).trans <| (B4_keep m c b hr0).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-! ## The proof data family -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T6 m) c
  | ⟨2, _⟩ => fun c => dat2 (T10 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

end Cert.Kernel.Hand

end
-- ==== Proof.K.Reg0.lean ====
/-
  The first dense transform (pipeline 0) as a segment of the program's run: entered from the contents after the third
  stretch of host operations, left with its result's array at what the ten write-backs leave.
-/
import proofs.«127401_j75110388072633_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region over the thread state "every unscoped buffer whole at the boundary's contents, the generator register at
    some state, nothing owed": its arrays are split out of the unscoped buffers at the entry and put back at the exit
    contents; the generator register goes into the kernel's invariant and comes back; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  The second dense transform (pipeline 1) as a segment of the program's run: entered from the contents after the first
  layer's host operations, left with its result's array at what the ten write-backs leave.
-/
import proofs.«127401_j75110388072633_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region over the thread state "every unscoped buffer whole at the boundary's contents, the generator register at
    some state, nothing owed": its arrays are split out of the unscoped buffers at the entry and put back at the exit
    contents; the generator register goes into the kernel's invariant and comes back; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T6 m) c).loose
  hwaits := Pipeline.hwaits_of_owed_zero _ _ _ _ L lv 1 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec1 c (T6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T6 m c) (T7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  The classifier (pipeline 2) as a segment of the program's run: entered from the contents after the second layer's host
  operations, left with the result's array at what the one write-back, at the last grid point, leaves. Its invariant
  carries the accumulator between grid points; at the region's ends it is the plain one (the scoped buffers and the
  generator register).
-/
import proofs.«127401_j75110388072633_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region over the thread state "every unscoped buffer whole at the boundary's contents, the generator register at
    some state, nothing owed": its arrays are split out of the unscoped buffers at the entry and put back at the exit
    contents; the generator register goes into the kernel's invariant and comes back; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T10 m) c).loose
  hwaits := Pipeline.hwaits_of_owed_zero _ _ _ _ L lv 2 fun _ _ => rfl
  pre c := iprop(StableHlo.held (c : Thread nD τ) (Pipeline.ucRefs τ sig) (B10 m c) ∗ R c)
  post c := iprop(StableHlo.held (c : Thread nD τ) (Pipeline.ucRefs τ sig) (B11 m c) ∗ R c)
  X c := iprop(∃ r, prngReg c r)
  Y c := iprop(∃ r, prngReg c r)
  Z c := Pipeline.unscopedRest (Ix := Unit) (Name := ℕ) (U := UR sig nD τ) (Lvl := ℕ) spec2 c (T10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (T10 m) c)
    unfold Pipeline.ΦA
    iintro ⟨Hp, -, Hr⟩
    isplitl [Hr]; · iexact Hr
    iexact Hp
  hout c := by
    rw [Pipeline.ownSems0_none]
    refine (hout2 (T10 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T10 m c) (T11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The run of the whole program: its eleven items as segments — a stretch of host operations applies its operations to
  the unscoped buffers, a kernel region is its record — chained from the launch to the return. Every weakly fair execution
  terminates, nothing faulting, and at the end every unscoped buffer holds the fold's last contents: the arguments what
  they were launched with, and the result's array what the classifier's one write-back leaves.
-/
import proofs.«127401_j75110388072633_2_alg».proof.Proof.K.Reg0
import proofs.«127401_j75110388072633_2_alg».proof.Proof.K.Reg1
import proofs.«127401_j75110388072633_2_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (B11 m c) ∗ ∃ r, prngReg c r)

/-- The program's eleven items in order. -/
abbrev hsegs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .host (hseg hostOps1_1 hostOps1_1_sub hostOps1_1_fresh (B5 m)),
    .region (reg1 m),
    .host (hseg hostOps2 hostOps2_sub hostOps2_fresh (B7 m)),
    .host (hseg hostOps2_1 hostOps2_1_sub hostOps2_1_fresh (B8 m)),
    .host (hseg hostOps2_2 hostOps2_2_sub hostOps2_2_fresh (B9 m)),
    .region (reg2 m) ]

/-- The program is the run of its items. -/
theorem main_run (c : Dev nD) : main (F := F) c = Pipeline.Seg.run (hsegs m) := (main_chain c).trans (by chain_rfl)

set_option backward.isDefEq.respectTransparency.types false in
/-- From any memory with zero counters every weakly fair execution of the program terminates, nothing faulting, with
    every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B11 m c b) :=
  Pipeline.θ_run_regions_kit (pcfgs (F := F)) adm (pdats m) () cellOf_inj emb₁ defs₀ 𝒱₀ L lv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (B11 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h c => h c)

/-- At the last boundary's contents every argument array holds what it was launched with. -/
theorem args_kept (c : Dev nD) (s : MemSt nD τ sig (Elt F))
    (h : ∀ b ∈ Pipeline.ucRefs τ sig, s.mem (((c : Thread nD τ)).1, b) = B11 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  ⟨(h _ (mem_uc main_arg0 (by decide))).trans (B11_launch m c main_arg0 (by decide) (by decide) (by decide) (by decide) (by decide) (by decide) (by decide) (by decide) (by decide) (by decide) (by decide)),
   (h _ (mem_uc main_arg1 (by decide))).trans (B11_launch m c main_arg1 (by decide) (by decide) (by decide) (by decide) (by decide) (by decide) (by decide) (by decide) (by decide) (by decide) (by decide)),
   (h _ (mem_uc main_arg2 (by decide))).trans (B11_launch m c main_arg2 (by decide) (by decide) (by decide) (by decide) (by decide) (by decide) (by decide) (by decide) (by decide) (by decide) (by decide)),
   (h _ (mem_uc main_arg3 (by decide))).trans (B11_launch m c main_arg3 (by decide) (by decide) (by decide) (by decide) (by decide) (by decide) (by decide) (by decide) (by decide) (by decide) (by decide)),
   (h _ (mem_uc main_arg4 (by decide))).trans (B11_launch m c main_arg4 (by decide) (by decide) (by decide) (by decide) (by decide) (by decide) (by decide) (by decide) (by decide) (by decide) (by decide)),
   (h _ (mem_uc main_arg5 (by decide))).trans (B11_launch m c main_arg5 (by decide) (by decide) (by decide) (by decide) (by decide) (by decide) (by decide) (by decide) (by decide) (by decide) (by decide)),
   (h _ (mem_uc main_arg6 (by decide))).trans (B11_launch m c main_arg6 (by decide) (by decide) (by decide) (by decide) (by decide) (by decide) (by decide) (by decide) (by decide) (by decide) (by decide)),
   (h _ (mem_uc main_arg7 (by decide))).trans (B11_launch m c main_arg7 (by decide) (by decide) (by decide) (by decide) (by decide) (by decide) (by decide) (by decide) (by decide) (by decide) (by decide))⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m c r.2 (h c)) (run_main m ρ)

/-- The run with the result named: the result's array ends at the last boundary's contents, the arguments as launched. -/
theorem run_result : θ_run defs (onTc (τ := τ) (main (F := F))) ⟨m, fun _ => 0, ρ⟩ (fun r => ∀ c : Dev nD,
      r.2.mem ((c.tc : Thread nD τ).loc main_v67) = B11 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v67 (by decide)), args_kept m c r.2 (h c)⟩) (run_main m ρ)

end Cert.Kernel.Hand

end
-- ==== Proof.KI.R0.lean ====
import proofs.«127401_j75110388072633_2_alg».proof.Proof.Gen.KernelIdeal.Launch
import proofs.«127401_j75110388072633_2_alg».proof.Proof.Gen.KernelIdeal.Skeleton
import proofs.«127401_j75110388072633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: the dense transform `cc0__dense_matmul_kernel` (pipeline 0)

The region's proof data and body obligation at a parameter `V`, the TensorCore's buffer contents when the
region is entered. The grid has 10 points; at point `t` window 0 is row block `t` of the left operand,
window 1 is the whole right operand, and window 2 is row block `t` of the result. The body reads both
input blocks, multiplies them into a zero accumulator and stores the product over the whole output block. -/

-- membership in a rectangle of these extents (`View.cover_of_tiled`) recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 is fetched at the first point only; at a later point its block index has not moved, so its
    staging buffer still holds the block: the same statement, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole left-operand block, -/
abbrev r0_x : Rect S5000x128 := Rect.unit (s := S5000x128) ![0, 0] S5000x128.size inb_S5000x128_S5000x128_0_0
/-- the whole right operand, -/
abbrev r0_w : Rect S128x64 := Rect.unit (s := S128x64) ![0, 0] S128x64.size inb_S128x64_S128x64_0_0
/-- and the whole output block. -/
abbrev r0_out : Rect S5000x64 := Rect.unit (s := S5000x64) ![0, 0] S5000x64.size inb_S5000x64_S5000x64_0_0

/-! ## What the body leaves in the output window's buffer -/

/-- Window 2's staging buffer after the body, from the input windows' blocks: its one store, of the
    product payload over the two blocks read whole. -/
def out0_2 (x0 : Vec F S5000x128 .f32) (x1 : Vec F S128x64 .f32) : Vec F S5000x64 .f32 :=
  View.canon [⟨r0_out, k0_pay1 (View.ld x0 r0_x) (View.ld x1 r0_w)⟩]

/-- The one store is over the whole block, so it covers it. -/
theorem cover0_2 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

/-! ## The body's triple -/

set_option maxHeartbeats 1000000 in
/-- The kernel body on whole staging memrefs, the inputs' at contents `x0`, `x1` and the output's at anything,
    runs to the continuation holding the inputs' as they were and the output's at `out0_2 x0 x1`: the body is
    its skeleton, two loads of the inputs, a load of the output block whose value is not used, and the store. -/
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole) (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies;
    the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«127401_j75110388072633_2_alg».proof.Proof.Gen.KernelIdeal.Launch
import proofs.«127401_j75110388072633_2_alg».proof.Proof.Gen.KernelIdeal.Skeleton
import proofs.«127401_j75110388072633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main: the dense transform `cc1__dense_matmul_kernel` (pipeline 1)

The region's proof data and body obligation at a parameter `V`, the TensorCore's buffer contents when the
region is entered. The grid has 10 points; at point `t` window 0 is row block `t` of the left operand,
window 1 is the whole right operand, and window 2 is row block `t` of the result. The body reads both
input blocks, multiplies them into a zero accumulator and stores the product over the whole output block. -/

-- membership in a rectangle of these extents (`View.cover_of_tiled`) recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 is fetched at the first point only; at a later point its block index has not moved, so its
    staging buffer still holds the block: the same statement, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole left-operand block, -/
abbrev r1_x : Rect S5000x64 := Rect.unit (s := S5000x64) ![0, 0] S5000x64.size inb_S5000x64_S5000x64_0_0
/-- the whole right operand, -/
abbrev r1_w : Rect S64x64 := Rect.unit (s := S64x64) ![0, 0] S64x64.size inb_S64x64_S64x64_0_0
/-- and the whole output block. -/
abbrev r1_out : Rect S5000x64 := Rect.unit (s := S5000x64) ![0, 0] S5000x64.size inb_S5000x64_S5000x64_0_0

/-! ## What the body leaves in the output window's buffer -/

/-- Window 2's staging buffer after the body, from the input windows' blocks: its one store, of the
    product payload over the two blocks read whole. -/
def out1_2 (x0 : Vec F S5000x64 .f32) (x1 : Vec F S64x64 .f32) : Vec F S5000x64 .f32 :=
  View.canon [⟨r1_out, k1_pay1 (View.ld x0 r1_x) (View.ld x1 r1_w)⟩]

/-- The one store is over the whole block, so it covers it. -/
theorem cover1_2 (p0 : Vec F S5000x64 .f32) (y : S5000x64.Idx) :
    ∃ pc ∈ ([⟨r1_out, p0⟩] : List (View.Piece (Elt F) S5000x64 .f32)), y ∈ pc.1.set :=
  View.cover_of_tiled [⟨r1_out, p0⟩] S5000x64.size (by rfl) y

/-! ## The body's triple -/

set_option maxHeartbeats 1000000 in
/-- The kernel body on whole staging memrefs, the inputs' at contents `x0`, `x1` and the output's at anything,
    runs to the continuation holding the inputs' as they were and the output's at `out1_2 x0 x1`: the body is
    its skeleton, two loads of the inputs, a load of the output block whose value is not used, and the store. -/
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and the output's at `out1_2` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies;
    the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Runs.lean ====
/- Region 2 (the classifier): what its three control cases share — the windows' blocks at the
   region-entry contents, the branch conditions in closed form over the grid, where the output
   window is idle, the staging and scratch memrefs, the region invariant with the scratch
   accumulator singled out — and the body's run in the first case. -/
import proofs.«127401_j75110388072633_2_alg».proof.Proof.Gen.KernelIdeal.Launch
import proofs.«127401_j75110388072633_2_alg».proof.Proof.Gen.KernelIdeal.Skeleton
import proofs.«127401_j75110388072633_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not
    (unfetched, the block index has not moved), for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first `scf.if` (the reset of the accumulator), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-- The condition of the body's second `scf.if` (the epilogue: bias, softmax, the output's store). -/
abbrev cond2_1 (i : grid2.Coords) : Prop := k2_cond2 i = 1#1
/-- It holds at the last point only — decided over the grid. -/
theorem hcond2_1 : ∀ t : Fin cfg2.N, cond2_1 (grid2.coords t) ↔ t.val = 249 :=
  (by decide +kernel : ∀ t : Fin grid2.N, cond2_1 (grid2.coords t) ↔ t.val = 249)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the epilogue does not run the output window is idle, and the pipeline does not write its block back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last point it is live. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2_3 : View sig .tc .vmem S1x6 .f32 := (Memref.whole cc2_stg3_0 : Memref sig .tc .vmem S1x6 .f32).view
abbrev ms2_0 (t : Fin cfg2.N) : Memref sig .tc .vmem S1x12800 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S12800x6 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x6 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x6 .f32 := win2_3.stage (cfg2.slots t 3)
abbrev hs2_3 (t : Fin cfg2.N) : (ms2_3 t).IsWhole := hstage2_3 ((cfg2.slots t 3).cast nbuf2_3)
/-- The scratch accumulator: a whole scoped buffer of the kernel's own, carried between points. -/
abbrev scM2_0 : Memref sig .tc .vmem S1x6 .f32 := Memref.whole cc2_scratch0
abbrev VS2_0 : View sig .tc .vmem S1x6 .f32 := scM2_0.view

/-! ## The region invariant with the accumulator singled out -/

/-- The core's scoped buffers that are no staging buffer of this region — the other two regions'
    staging buffers, each at some contents — around a statement `X` of the accumulator. -/
def scoped2 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ X)

/-- The accumulator's statement taken out of the scoped rest, and any other put back in its place. -/
theorem scoped2_swap (c : Dev nD) (X Y : sProp 𝕄) : scoped2 (F := F) c X ⊢ iprop(X ∗ (Y -∗ scoped2 (F := F) c Y)) := by
  unfold scoped2
  iintro ⟨R1, R2, R3, R4, R5, R6, R7, R8, R9, R10, HX⟩
  isplitl [HX]; · iexact HX
  iintro HY
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HY

/-- The class's invariant is the scoped rest with the accumulator at some contents, and the generator register at some state. -/
theorem PhiA2_eq (c : Dev nD) :
    (Pipeline.ΦA spec2 c : sProp 𝕄)
      = iprop(scoped2 (F := F) c iprop(∃ d, owns (c : Thread nD τ) scM2_0 fullShare d) ∗ (∃ r, prngReg c r)) := by
  unfold Pipeline.ΦA scoped2; rw [scopedRest2_eq]; simp only [scM2_0, owns_whole]; try rfl

/-! ## The body on any staging memrefs, case A (the first point) -/

set_option maxHeartbeats 1000000 in
/-- CASE A (the reset taken, the epilogue not): on whole memrefs — the inputs' at their contents, the idle
    output's at contents handed back untouched, the accumulator's at anything — the body runs to the
    continuation holding the inputs' as they were and the accumulator's with its pieces written (last first). -/
noncomputable def kernelRun2_A (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) :
    Σ' (L3 : List (View.Piece (Elt F) S1x6 .f32)), { LS0 : List (View.Piece (Elt F) S1x6 .f32) //
      ∀ (xi3 : Vec F S1x6 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__classifier_kernel i arg1 harg1 arg2 harg2 arg3 harg3 arg4 harg4 arg5 harg5) K } := by
  refine ⟨[], ?_, fun xi3 E K => ?run⟩
  case run =>
    simp only [cc2__classifier_kernel_eq_skeleton]; unfold cc2__classifier_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.R2RunB.lean ====
/- Region 2 (the classifier): the body's run in case B. -/
import proofs.«127401_j75110388072633_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (neither the reset nor the epilogue): on whole memrefs — the inputs' at their contents, the idle output's at contents handed back untouched, the accumulator's at what the point before left — the body runs to the continuation holding the inputs' as they were and the accumulator's with its pieces written (last first). -/
noncomputable def kernelRun2_B (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) :
    Σ' (L3 : List (View.Piece (Elt F) S1x6 .f32)), { LS0 : List (View.Piece (Elt F) S1x6 .f32) //
      ∀ (xi3 : Vec F S1x6 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2__classifier_kernel i arg1 harg1 arg2 harg2 arg3 harg3 arg4 harg4 arg5 harg5) K } := by
  refine ⟨[], ?_, fun xi3 E K => ?run⟩
  case run =>
    simp only [cc2__classifier_kernel_eq_skeleton]; unfold cc2__classifier_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.R2RunC.lean ====
/- Region 2 (the classifier): the body's run in case C. -/
import proofs.«127401_j75110388072633_2_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (the epilogue taken, the reset not): on whole memrefs — the inputs' at their contents, the output's at anything, the accumulator's at what the point before left — the body runs to the continuation holding the inputs' as they were, the output's and the accumulator's with their pieces written (last first). -/
noncomputable def kernelRun2_C (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) :
    Σ' (L3 : List (View.Piece (Elt F) S1x6 .f32)), { LS0 : List (View.Piece (Elt F) S1x6 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2__classifier_kernel i arg1 harg1 arg2 harg2 arg3 harg3 arg4 harg4 arg5 harg5) K } := by
  refine ⟨?_, ?_, fun E K => ?run⟩
  case run =>
    simp only [cc2__classifier_kernel_eq_skeleton]; unfold cc2__classifier_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.R2.lean ====
/- Region 2 (the classifier): what the output's staging buffer and the accumulator hold after each
   point, the region invariant carrying the accumulator, the pipeline's proof data and the body
   obligation at every point. -/
import proofs.«127401_j75110388072633_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## What each case leaves -/

/-- Case A stores nothing into the output (the window is idle at its points and not written back there):
    a placeholder that nothing consults. -/
def out2_A_3 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) : Vec F S1x6 .f32 :=
  VO2_3.read (Elt F) (VO2_3.writes (Elt F) VO2_3.junk (kernelRun2_A c i arg1 harg1 arg2 harg2 arg3 harg3 arg4 harg4 arg5 harg5 hc0 hc1 x0 x1 x2).1)

/-- Case A's stores into the accumulator cover it. -/
theorem scover2_A_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) (y : S1x6.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1x6.size (by sl_kernel_rfl) y

/-- What case A leaves in the accumulator: its pieces read back over junk. -/
def sout2_A_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) : Vec F S1x6 .f32 :=
  VS2_0.read (Elt F) (VS2_0.writes (Elt F) VS2_0.junk (kernelRun2_A c i arg1 harg1 arg2 harg2 arg3 harg3 arg4 harg4 arg5 harg5 hc0 hc1 x0 x1 x2).2.1)

/-- Case B stores nothing into the output (the window is idle at its points and not written back there):
    a placeholder that nothing consults. -/
def out2_B_3 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) : Vec F S1x6 .f32 :=
  VO2_3.read (Elt F) (VO2_3.writes (Elt F) VO2_3.junk (kernelRun2_B c i arg1 harg1 arg2 harg2 arg3 harg3 arg4 harg4 arg5 harg5 hc0 hc1 x0 x1 x2 xs0).1)

/-- Case B's stores into the accumulator cover it. -/
theorem scover2_B_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) (y : S1x6.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1x6.size (by sl_kernel_rfl) y

/-- What case B leaves in the accumulator: its pieces read back over junk. -/
def sout2_B_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) : Vec F S1x6 .f32 :=
  VS2_0.read (Elt F) (VS2_0.writes (Elt F) VS2_0.junk (kernelRun2_B c i arg1 harg1 arg2 harg2 arg3 harg3 arg4 harg4 arg5 harg5 hc0 hc1 x0 x1 x2 xs0).2.1)

/-- Case C's one store into the output covers its block. -/
theorem cover2_C_3 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) (y : S1x6.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1x6.size (by sl_kernel_rfl) y

/-- What case C leaves in the output's staging buffer: its pieces read back over junk. -/
def out2_C_3 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) : Vec F S1x6 .f32 :=
  VO2_3.read (Elt F) (VO2_3.writes (Elt F) VO2_3.junk (kernelRun2_C c i arg1 harg1 arg2 harg2 arg3 harg3 arg4 harg4 arg5 harg5 hc0 hc1 x0 x1 x2 xs0).1)

/-- Case C's stores into the accumulator cover it. -/
theorem scover2_C_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) (y : S1x6.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1x6.size (by sl_kernel_rfl) y

/-- What case C leaves in the accumulator: its pieces read back over junk. -/
def sout2_C_0 (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) : Vec F S1x6 .f32 :=
  VS2_0.read (Elt F) (VS2_0.writes (Elt F) VS2_0.junk (kernelRun2_C c i arg1 harg1 arg2 harg2 arg3 harg3 arg4 harg4 arg5 harg5 hc0 hc1 x0 x1 x2 xs0).2.1)

/-! ## What the buffers hold after each point -/

/-- THE ACCUMULATION. What the output's staging buffer and the accumulator hold after the body at position `n`:
    the case the closed forms select at `n`, run at the point's memrefs and input blocks, over what the point
    before left in the accumulator. -/
def outsAt2 (c : Dev nD) : (n : ℕ) → n < cfg2.N → Vec F S1x6 .f32 × Vec F S1x6 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr rfl) (fun h => absurd ((hcond2_1 ⟨0, hn⟩).mp h) (by decide : ¬ (0 : ℕ) = 249)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr rfl) (fun h => absurd ((hcond2_1 ⟨0, hn⟩).mp h) (by decide : ¬ (0 : ℕ) = 249)) (iblk2 V c 0 ⟨0, hn⟩) (iblk2 V c 1 ⟨0, hn⟩) (iblk2 V c 2 ⟨0, hn⟩))
  | n + 1, hn =>
    if h1 : n + 1 = 249 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at the first point: case A's contents. -/
theorem outsAt2_A (c : Dev nD) (t : Fin cfg2.N) (h0 : t.val = 0) (h1 : ¬t.val = 249) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact absurd h0 (Nat.succ_ne_zero n)

/-- `outsAt2` at a point of case B: that case's contents, over what the point before left. -/
theorem outsAt2_B (c : Dev nD) (t : Fin cfg2.N) (h0 : ¬t.val = 0) (h1 : ¬t.val = 249) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- `outsAt2` at the last point: case C's contents, over what the point before left. -/
theorem outsAt2_C (c : Dev nD) (t : Fin cfg2.N) (h0 : ¬t.val = 0) (h1 : t.val = 249) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- The region invariant before position `n`: before the first point the class's (every scratch at anything);
    afterwards the scoped rest with the accumulator at what the point before left in it, and the generator
    register at some state. -/
def PhiS2 (c : Dev nD) : (n : ℕ) → n ≤ cfg2.N → sProp 𝕄
  | 0, _ => Pipeline.ΦA spec2 c
  | n + 1, hn => iprop(scoped2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scoped2 (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(scoped2 (F := F) c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt2`'s first component; the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulator at what the point before left (at anything at the first point) and
    takes it back at this point's contents; the other scoped buffers and the generator register ride along; the
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 250 := lt_of_lt_of_eq t.isLt (show cfg2.N = 250 from N_2)
  by_cases h0 : t.val = 0
  · have h1 : ¬t.val = 249 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [Dat.leavesExact_idle (dat2 V c) 3 t (idleAt2_3 t (fun h => h1 ((hcond2_1 t).mp h))) (noFlush2_3 t (fun h => h1 ((hcond2_1 t).mp h)))]
    rw [PhiS2_castSucc V c t, PhiS2_zero V c _ _ h0, PhiA2_eq]
    iintro ⟨⟨HS, Hg⟩, Ho, ⟨%d0, H0⟩, ⟨%d1, H1⟩, ⟨%d2, H2⟩, ⟨%d3, H3⟩⟩
    icases (scoped2_swap (F := F) c _ (owns (c : Thread nD τ) scM2_0 fullShare ((outsAt2 V c t.val t.isLt).2))) $$ HS with ⟨HS0, Hback⟩
    iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hback Hg]
    · isplitl [HS0 Hback]
      · iapply Hback
        unfold owns; iexists _; isplitr
        swap; · iexact HS0
        ipureintro
        rw [outsAt2_A V c t h0 h1]
        dsimp only
        unfold sout2_A_0
        exact View.read_writes_of_cover _ _ _ _ _ (scover2_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val = 249
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [PhiS2_castSucc V c t, PhiS2_pos V c _ _ h0]
      iintro ⟨⟨HS, Hg⟩, Ho, ⟨%d0, H0⟩, ⟨%d1, H1⟩, ⟨%d2, H2⟩, ⟨%d3, H3⟩⟩
      icases (scoped2_swap (F := F) c _ (owns (c : Thread nD τ) scM2_0 fullShare ((outsAt2 V c t.val t.isLt).2))) $$ HS with ⟨HS0, Hback⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hback Hg]
      · isplitl [HS0 Hback]
        · iapply Hback
          unfold owns; iexists _; isplitr
          swap; · iexact HS0
          ipureintro
          rw [outsAt2_C V c t h0 h1]
          dsimp only
          unfold sout2_C_0
          exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro
      rw [outsAt2_C V c t h0 h1]
      dsimp only
      unfold out2_C_3
      exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t (fun h => h1 ((hcond2_1 t).mp h)))]
      rw [PhiS2_castSucc V c t, PhiS2_pos V c _ _ h0]
      iintro ⟨⟨HS, Hg⟩, Ho, ⟨%d0, H0⟩, ⟨%d1, H1⟩, ⟨%d2, H2⟩, ⟨%d3, H3⟩⟩
      icases (scoped2_swap (F := F) c _ (owns (c : Thread nD τ) scM2_0 fullShare ((outsAt2 V c t.val t.isLt).2))) $$ HS with ⟨HS0, Hback⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hback Hg]
      · isplitl [HS0 Hback]
        · iapply Hback
          unfold owns; iexists _; isplitr
          swap; · iexact HS0
          ipureintro
          rw [outsAt2_B V c t h0 h1]
          dsimp only
          unfold sout2_B_0
          exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, Hg⟩
  isplitl [HS]
  · icases (scoped2_swap (F := F) c _ iprop(∃ d, owns (c : Thread nD τ) scM2_0 fullShare d)) $$ HS with ⟨HS0, Hback⟩
    iapply Hback
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 250 := N_2; omega)

end Region2

end Cert.KernelIdeal.Hand

end
-- ==== Proof.KI.Data.lean ====
/-
  The buffers' contents at every boundary of the program's eleven items (three stretches of host operations, the first
  dense transform, two stretches, the second dense transform, three stretches, the classifier), as a fold from the launch
  memory: a stretch applies its operations; a kernel region leaves its input arrays as entered and its output array at
  what its write-backs leave. Every argument array reaches the end as launched. Then the three regions' proof data, each
  at its region's entry contents.
-/
import proofs.«127401_j75110388072633_2_alg».proof.Proof.KI.R0
import proofs.«127401_j75110388072633_2_alg».proof.Proof.KI.R1
import proofs.«127401_j75110388072633_2_alg».proof.Proof.KI.R2
import proofs.«127401_j75110388072633_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch. -/
abbrev B0 : Dev nD → Valuation τ sig (Elt F) := fun c b => m ((c : Dev nD), b)
abbrev B1 : Dev nD → Valuation τ sig (Elt F) := fun c => StableHlo.after hostOps0 (B0 m c)
abbrev B2 : Dev nD → Valuation τ sig (Elt F) := fun c => StableHlo.after hostOps0_1 (B1 m c)
/-- What the first dense transform is entered from. -/
abbrev B3 : Dev nD → Valuation τ sig (Elt F) := fun c => StableHlo.after hostOps0_2 (B2 m c)
abbrev T3 : (c : Dev nD) → (b : Ref sig .tc) → Buf (Elt F) ((c : Thread nD τ).loc b) := fun c b => B3 m c b
/-- After the first dense transform: its arrays at what the pipeline leaves, every other buffer as entered. -/
def B4 (c : Dev nD) : Valuation τ sig (Elt F) :=
  Pipeline.withArrays spec0 c (B3 m c) fun w => (dat0 (T3 m) c).arrAt w cfg0.N
abbrev T4 : (c : Dev nD) → (b : Ref sig .tc) → Buf (Elt F) ((c : Thread nD τ).loc b) := fun c b => B4 m c b
abbrev B5 : Dev nD → Valuation τ sig (Elt F) := fun c => StableHlo.after hostOps1 (B4 m c)
/-- What the second dense transform is entered from. -/
abbrev B6 : Dev nD → Valuation τ sig (Elt F) := fun c => StableHlo.after hostOps1_1 (B5 m c)
abbrev T6 : (c : Dev nD) → (b : Ref sig .tc) → Buf (Elt F) ((c : Thread nD τ).loc b) := fun c b => B6 m c b
def B7 (c : Dev nD) : Valuation τ sig (Elt F) :=
  Pipeline.withArrays spec1 c (B6 m c) fun w => (dat1 (T6 m) c).arrAt w cfg1.N
abbrev T7 : (c : Dev nD) → (b : Ref sig .tc) → Buf (Elt F) ((c : Thread nD τ).loc b) := fun c b => B7 m c b
abbrev B8 : Dev nD → Valuation τ sig (Elt F) := fun c => StableHlo.after hostOps2 (B7 m c)
abbrev B9 : Dev nD → Valuation τ sig (Elt F) := fun c => StableHlo.after hostOps2_1 (B8 m c)
/-- What the classifier is entered from. -/
abbrev B10 : Dev nD → Valuation τ sig (Elt F) := fun c => StableHlo.after hostOps2_2 (B9 m c)
abbrev T10 : (c : Dev nD) → (b : Ref sig .tc) → Buf (Elt F) ((c : Thread nD τ).loc b) := fun c b => B10 m c b
/-- At the return. -/
def B11 (c : Dev nD) : Valuation τ sig (Elt F) :=
  Pipeline.withArrays spec2 c (B10 m c) fun w => (dat2 (T10 m) c).arrAt w cfg2.N
abbrev T11 : (c : Dev nD) → (b : Ref sig .tc) → Buf (Elt F) ((c : Thread nD τ).loc b) := fun c b => B11 m c b

/-! ## A region's arrays at its exit, and everything else as entered -/

theorem B4_arr (c : Dev nD) (w : Fin cfg0.W) :
    B4 m c (Proc.devRef .tc (Pipeline.arrRef spec0 w)) = (dat0 (T3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem hF0 (c : Dev nD) (w : Fin cfg0.W) : (dat0 (T3 m) c).arrAt w cfg0.N = T4 m c (Pipeline.arrRef spec0 w) :=
  (B4_arr m c w).symm
theorem hrest0 (c : Dev nD) : ∀ b, b ∉ Finset.univ.image (Pipeline.arrRef spec0) → T4 m c b = T3 m c b :=
  fun b hb => B4_of_ne m c b fun w e => hb (Finset.mem_image.mpr ⟨w, Finset.mem_univ _, e⟩)

theorem B7_arr (c : Dev nD) (w : Fin cfg1.W) :
    B7 m c (Proc.devRef .tc (Pipeline.arrRef spec1 w)) = (dat1 (T6 m) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m c (Proc.devRef .tc b) = B6 m c (Proc.devRef .tc b) := by
  unfold B7; exact Pipeline.withArrays_of_ne spec1 c _ _ b hb
theorem hF1 (c : Dev nD) (w : Fin cfg1.W) : (dat1 (T6 m) c).arrAt w cfg1.N = T7 m c (Pipeline.arrRef spec1 w) :=
  (B7_arr m c w).symm
theorem hrest1 (c : Dev nD) : ∀ b, b ∉ Finset.univ.image (Pipeline.arrRef spec1) → T7 m c b = T6 m c b :=
  fun b hb => B7_of_ne m c b fun w e => hb (Finset.mem_image.mpr ⟨w, Finset.mem_univ _, e⟩)

theorem B11_arr (c : Dev nD) (w : Fin cfg2.W) :
    B11 m c (Proc.devRef .tc (Pipeline.arrRef spec2 w)) = (dat2 (T10 m) c).arrAt w cfg2.N := by
  unfold B11; exact Pipeline.withArrays_arr spec2 launch2.win.arr_inj c _ _ w
theorem B11_of_ne (c : Dev nD) (b : Ref sig .tc) (hb : ∀ w, Pipeline.arrRef spec2 w ≠ b) :
    B11 m c (Proc.devRef .tc b) = B10 m c (Proc.devRef .tc b) := by
  unfold B11; exact Pipeline.withArrays_of_ne spec2 c _ _ b hb
theorem hF2 (c : Dev nD) (w : Fin cfg2.W) : (dat2 (T10 m) c).arrAt w cfg2.N = T11 m c (Pipeline.arrRef spec2 w) :=
  (B11_arr m c w).symm
theorem hrest2 (c : Dev nD) : ∀ b, b ∉ Finset.univ.image (Pipeline.arrRef spec2) → T11 m c b = T10 m c b :=
  fun b hb => B11_of_ne m c b fun w e => hb (Finset.mem_image.mpr ⟨w, Finset.mem_univ _, e⟩)

/-! ## A region changes only its output array -/

/-- The first dense transform changes only its result's array: an input window's array ends as entered. -/
theorem B4_keep (c : Dev nD) (b : Ref sig .tc) (hb : b ≠ main_v31) :
    B4 m c (Proc.devRef .tc b) = B3 m c (Proc.devRef .tc b) := by
  by_cases h : ∃ w, Pipeline.arrRef spec0 w = b
  · obtain ⟨w, rfl⟩ := h
    rw [B4_arr]
    match w with
    | ⟨0, _⟩ => exact ((dat0 (T3 m) c).arrAt_in 0 rfl _).trans (A_eq0 (T3 m) c 0)
    | ⟨1, _⟩ => exact ((dat0 (T3 m) c).arrAt_in 1 rfl _).trans (A_eq0 (T3 m) c 1)
    | ⟨2, _⟩ => exact absurd rfl hb
  · exact B4_of_ne m c b fun w e => h ⟨w, e⟩
theorem B7_keep (c : Dev nD) (b : Ref sig .tc) (hb : b ≠ main_v48) :
    B7 m c (Proc.devRef .tc b) = B6 m c (Proc.devRef .tc b) := by
  by_cases h : ∃ w, Pipeline.arrRef spec1 w = b
  · obtain ⟨w, rfl⟩ := h
    rw [B7_arr]
    match w with
    | ⟨0, _⟩ => exact ((dat1 (T6 m) c).arrAt_in 0 rfl _).trans (A_eq1 (T6 m) c 0)
    | ⟨1, _⟩ => exact ((dat1 (T6 m) c).arrAt_in 1 rfl _).trans (A_eq1 (T6 m) c 1)
    | ⟨2, _⟩ => exact absurd rfl hb
  · exact B7_of_ne m c b fun w e => h ⟨w, e⟩
theorem B11_keep (c : Dev nD) (b : Ref sig .tc) (hb : b ≠ main_v67) :
    B11 m c (Proc.devRef .tc b) = B10 m c (Proc.devRef .tc b) := by
  by_cases h : ∃ w, Pipeline.arrRef spec2 w = b
  · obtain ⟨w, rfl⟩ := h
    rw [B11_arr]
    match w with
    | ⟨0, _⟩ => exact ((dat2 (T10 m) c).arrAt_in 0 rfl _).trans (A_eq2 (T10 m) c 0)
    | ⟨1, _⟩ => exact ((dat2 (T10 m) c).arrAt_in 1 rfl _).trans (A_eq2 (T10 m) c 1)
    | ⟨2, _⟩ => exact ((dat2 (T10 m) c).arrAt_in 2 rfl _).trans (A_eq2 (T10 m) c 2)
    | ⟨3, _⟩ => exact absurd rfl hb
  · exact B11_of_ne m c b fun w e => h ⟨w, e⟩

/-! ## What no item writes ends as launched -/

/-- A buffer that no host operation writes and that is no region's result holds at the return what it held at launch. -/
theorem B11_launch (c : Dev nD) (b : Ref sig .tc)
    (h0 : b ∉ hostOps0_W) (h1 : b ∉ hostOps0_1_W) (h2 : b ∉ hostOps0_2_W) (h4 : b ∉ hostOps1_W) (h5 : b ∉ hostOps1_1_W)
    (h7 : b ∉ hostOps2_W) (h8 : b ∉ hostOps2_1_W) (h9 : b ∉ hostOps2_2_W)
    (hr0 : b ≠ main_v31) (hr1 : b ≠ main_v48) (hr2 : b ≠ main_v67) :
    B11 m c (Proc.devRef .tc b) = m ((c : Thread nD τ).loc b) :=
  (B11_keep m c b hr2).trans <| (StableHlo.after_of_writes_sub hostOps2_2 _ hostOps2_2_writes h9).trans <|
  (StableHlo.after_of_writes_sub hostOps2_1 _ hostOps2_1_writes h8).trans <|
  (StableHlo.after_of_writes_sub hostOps2 _ hostOps2_writes h7).trans <| (B7_keep m c b hr1).trans <|
  (StableHlo.after_of_writes_sub hostOps1_1 _ hostOps1_1_writes h5).trans <|
  (StableHlo.after_of_writes_sub hostOps1 _ hostOps1_writes h4).trans <| (B4_keep m c b hr0).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-! ## The proof data family -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T6 m) c
  | ⟨2, _⟩ => fun c => dat2 (T10 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

end Cert.KernelIdeal.Hand

end
-- ==== Proof.KI.Reg0.lean ====
/-
  The first dense transform (pipeline 0) as a segment of the program's run: entered from the contents after the third
  stretch of host operations, left with its result's array at what the ten write-backs leave.
-/
import proofs.«127401_j75110388072633_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region over the thread state "every unscoped buffer whole at the boundary's contents, the generator register at
    some state, nothing owed": its arrays are split out of the unscoped buffers at the entry and put back at the exit
    contents; the generator register goes into the kernel's invariant and comes back; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  The second dense transform (pipeline 1) as a segment of the program's run: entered from the contents after the first
  layer's host operations, left with its result's array at what the ten write-backs leave.
-/
import proofs.«127401_j75110388072633_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region over the thread state "every unscoped buffer whole at the boundary's contents, the generator register at
    some state, nothing owed": its arrays are split out of the unscoped buffers at the entry and put back at the exit
    contents; the generator register goes into the kernel's invariant and comes back; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T6 m) c).loose
  hwaits := Pipeline.hwaits_of_owed_zero _ _ _ _ L lv 1 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec1 c (T6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T6 m c) (T7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  The classifier (pipeline 2) as a segment of the program's run: entered from the contents after the second layer's host
  operations, left with the result's array at what the one write-back, at the last grid point, leaves. Its invariant
  carries the accumulator between grid points; at the region's ends it is the plain one (the scoped buffers and the
  generator register).
-/
import proofs.«127401_j75110388072633_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region over the thread state "every unscoped buffer whole at the boundary's contents, the generator register at
    some state, nothing owed": its arrays are split out of the unscoped buffers at the entry and put back at the exit
    contents; the generator register goes into the kernel's invariant and comes back; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T10 m) c).loose
  hwaits := Pipeline.hwaits_of_owed_zero _ _ _ _ L lv 2 fun _ _ => rfl
  pre c := iprop(StableHlo.held (c : Thread nD τ) (Pipeline.ucRefs τ sig) (B10 m c) ∗ R c)
  post c := iprop(StableHlo.held (c : Thread nD τ) (Pipeline.ucRefs τ sig) (B11 m c) ∗ R c)
  X c := iprop(∃ r, prngReg c r)
  Y c := iprop(∃ r, prngReg c r)
  Z c := Pipeline.unscopedRest (Ix := Unit) (Name := ℕ) (U := UR sig nD τ) (Lvl := ℕ) spec2 c (T10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (T10 m) c)
    unfold Pipeline.ΦA
    iintro ⟨Hp, -, Hr⟩
    isplitl [Hr]; · iexact Hr
    iexact Hp
  hout c := by
    rw [Pipeline.ownSems0_none]
    refine (hout2 (T10 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T10 m c) (T11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The run of the whole program: its eleven items as segments — a stretch of host operations applies its operations to
  the unscoped buffers, a kernel region is its record — chained from the launch to the return. Every weakly fair execution
  terminates, nothing faulting, and at the end every unscoped buffer holds the fold's last contents: the arguments what
  they were launched with, and the result's array what the classifier's one write-back leaves.
-/
import proofs.«127401_j75110388072633_2_alg».proof.Proof.KI.Reg0
import proofs.«127401_j75110388072633_2_alg».proof.Proof.KI.Reg1
import proofs.«127401_j75110388072633_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (B11 m c) ∗ ∃ r, prngReg c r)

/-- The program's eleven items in order. -/
abbrev hsegs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .host (hseg hostOps1_1 hostOps1_1_sub hostOps1_1_fresh (B5 m)),
    .region (reg1 m),
    .host (hseg hostOps2 hostOps2_sub hostOps2_fresh (B7 m)),
    .host (hseg hostOps2_1 hostOps2_1_sub hostOps2_1_fresh (B8 m)),
    .host (hseg hostOps2_2 hostOps2_2_sub hostOps2_2_fresh (B9 m)),
    .region (reg2 m) ]

/-- The program is the run of its items. -/
theorem main_run (c : Dev nD) : main (F := F) c = Pipeline.Seg.run (hsegs m) := (main_chain c).trans (by chain_rfl)

set_option backward.isDefEq.respectTransparency.types false in
/-- From any memory with zero counters every weakly fair execution of the program terminates, nothing faulting, with
    every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B11 m c b) :=
  Pipeline.θ_run_regions_kit (pcfgs (F := F)) adm (pdats m) () cellOf_inj emb₁ defs₀ 𝒱₀ L lv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (B11 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h c => h c)

/-- At the last boundary's contents every argument array holds what it was launched with. -/
theorem args_kept (c : Dev nD) (s : MemSt nD τ sig (Elt F))
    (h : ∀ b ∈ Pipeline.ucRefs τ sig, s.mem (((c : Thread nD τ)).1, b) = B11 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  ⟨(h _ (mem_uc main_arg0 (by decide))).trans (B11_launch m c main_arg0 (by decide) (by decide) (by decide) (by decide) (by decide) (by decide) (by decide) (by decide) (by decide) (by decide) (by decide)),
   (h _ (mem_uc main_arg1 (by decide))).trans (B11_launch m c main_arg1 (by decide) (by decide) (by decide) (by decide) (by decide) (by decide) (by decide) (by decide) (by decide) (by decide) (by decide)),
   (h _ (mem_uc main_arg2 (by decide))).trans (B11_launch m c main_arg2 (by decide) (by decide) (by decide) (by decide) (by decide) (by decide) (by decide) (by decide) (by decide) (by decide) (by decide)),
   (h _ (mem_uc main_arg3 (by decide))).trans (B11_launch m c main_arg3 (by decide) (by decide) (by decide) (by decide) (by decide) (by decide) (by decide) (by decide) (by decide) (by decide) (by decide)),
   (h _ (mem_uc main_arg4 (by decide))).trans (B11_launch m c main_arg4 (by decide) (by decide) (by decide) (by decide) (by decide) (by decide) (by decide) (by decide) (by decide) (by decide) (by decide)),
   (h _ (mem_uc main_arg5 (by decide))).trans (B11_launch m c main_arg5 (by decide) (by decide) (by decide) (by decide) (by decide) (by decide) (by decide) (by decide) (by decide) (by decide) (by decide)),
   (h _ (mem_uc main_arg6 (by decide))).trans (B11_launch m c main_arg6 (by decide) (by decide) (by decide) (by decide) (by decide) (by decide) (by decide) (by decide) (by decide) (by decide) (by decide)),
   (h _ (mem_uc main_arg7 (by decide))).trans (B11_launch m c main_arg7 (by decide) (by decide) (by decide) (by decide) (by decide) (by decide) (by decide) (by decide) (by decide) (by decide) (by decide))⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m c r.2 (h c)) (run_main m ρ)

/-- The run with the result named: the result's array ends at the last boundary's contents, the arguments as launched. -/
theorem run_result : θ_run defs (onTc (τ := τ) (main (F := F))) ⟨m, fun _ => 0, ρ⟩ (fun r => ∀ c : Dev nD,
      r.2.mem ((c.tc : Thread nD τ).loc main_v67) = B11 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v67 (by decide)), args_kept m c r.2 (h c)⟩) (run_main m ρ)

end Cert.KernelIdeal.Hand

end
-- ==== Proof.RefFrame.lean ====
/-
  The reference's frame claim: it runs, and its eight arguments end unchanged — the reference's run, less what it
  says of the result.
-/
import proofs.«127401_j75110388072633_2_alg».proof.Defs
import proofs.«127401_j75110388072633_2_alg».proof.Proof.RefRunP
import proofs.«127401_j75110388072633_2_alg».proof.Proof.Gen.Pre_finite_inputs

noncomputable section

namespace Cert.ReferenceIdeal.Hand

open Idealize.ShloMosaic Idealize.SL.Sem

/-- Every weakly fair execution of the reference terminates with its arguments unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

end Cert.ReferenceIdeal.Hand

end
-- ==== Proof.KI.HostOps.lean ====
/-
  The host operations between the kernel regions, as functions of what they read.

  Between its kernels the program runs the graph part of each layer on the host: the edges' sources and destinations
  (each followed by the self-loops), the in-degrees, their inverse square roots where positive, each edge's weight,
  and then — given a layer's matrix product `h` — the product's rows gathered at the sources, scaled by the weights,
  summed into the destinations, plus the bias row, clamped below at zero. `layerK h ei b` is that last value; the
  program computes the weights once and uses them in both layers. Below, the contents the first and second dense
  transforms and the classifier are entered from are read off the fold of the host operations as these functions.
-/
import proofs.«127401_j75110388072633_2_alg».proof.Proof.Gen.KernelIdeal.Launch
import Idealize.ShloMosaic.Lib.StableHlo.Run
import Idealize.ShloMosaic.PureOps.Ideal.Laws

set_option maxRecDepth 200000

noncomputable section

namespace Cert.KernelIdeal.Hand

open Cert.KernelIdeal Cert.KernelIdeal.Gen Idealize.ShloMosaic Idealize.ShloMosaic.TcCoe Idealize.SL.Sem Idealize.ShloMosaic.StableHlo

/-! ## One graph-convolution layer after its matrix product -/

/-- The edges' sources followed by the self-loops': row 0 of the edge list, then 0 … 49999. -/
def srcK (ei : (⟨S2x800000, .i32⟩ : BufTy).Contents (Elt Ideal)) : (⟨S850000, .i32⟩ : BufTy).Contents (Elt Ideal) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' destinations followed by the self-loops': row 1 of the edge list, then 0 … 49999. -/
def dstK (ei : (⟨S2x800000, .i32⟩ : BufTy).Contents (Elt Ideal)) : (⟨S850000, .i32⟩ : BufTy).Contents (Elt Ideal) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A gather's index normalisation: a negative index counts from the end. -/
def wrapK (v : (⟨S850000, .i32⟩ : BufTy).Contents (Elt Ideal)) : (⟨S850000, .i32⟩ : BufTy).Contents (Elt Ideal) :=
  select (cmpi .slt v (broadcastInDim S850000 ![] bcast_S_S850000 (constantI S_ 32 0#32))) (addi v (broadcastInDim S850000 ![] bcast_S_S850000 (constantI S_ 32 50000#32))) v

/-- The in-degrees, self-loops included: ones summed into the destinations. -/
def degK (ei : (⟨S2x800000, .i32⟩ : BufTy).Contents (Elt Ideal)) : FVec Ideal S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dstK ei)) (broadcastInDim S850000 ![] bcast_S_S850000 (constant S_ .f32 0x3F800000#32))

/-- The inverse square roots of the positive in-degrees, zero elsewhere. -/
def dinvK (ei : (⟨S2x800000, .i32⟩ : BufTy).Contents (Elt Ideal)) : FVec Ideal S50000 .f32 :=
  select (cmpf .ogt (degK ei) (broadcastInDim S50000 ![] bcast_S_S50000 (constant S_ .f32 0x00000000#32))) (Host.rsqrt (degK ei)) (broadcastInDim S50000 ![] bcast_S_S50000 (id (constant S_ .f32 0x00000000#32)))

/-- Each edge's weight: the product of its two endpoints' factors. -/
def normK (ei : (⟨S2x800000, .i32⟩ : BufTy).Contents (Elt Ideal)) : FVec Ideal S850000 .f32 :=
  mulf (Host.gather gather_S50000_S850000x1_S850000_n_0_n_n_0_1_1 (dinvK ei) (broadcastInDim S850000x1 ![0] bcast_S850000_S850000x1_0 (wrapK (srcK ei)))) (Host.gather gather_S50000_S850000x1_S850000_n_0_n_n_0_1_1 (dinvK ei) (broadcastInDim S850000x1 ![0] bcast_S850000_S850000x1_0 (wrapK (dstK ei))))

/-- One layer after its matrix product `h`: the product's rows gathered at the sources, scaled by the edges' weights,
    summed into the destinations, plus the bias row `b`, clamped below at zero. -/
def layerK (h : FVec Ideal S50000x64 .f32) (ei : (⟨S2x800000, .i32⟩ : BufTy).Contents (Elt Ideal)) (b : FVec Ideal S64 .f32) : FVec Ideal S50000x64 .f32 :=
  maximumf (addf (Host.scatterAdd scatter_S50000x64_S850000x1_S850000x64_1_0_0_1 (broadcastInDim S50000x64 ![] bcast_S_S50000x64 (constant S_ .f32 0x00000000#32)) (broadcastInDim S850000x1 ![0] bcast_S850000_S850000x1_0 (dstK ei)) (mulf (Host.gather gather_S50000x64_S850000x1_S850000x64_1_0_n_n_0_1_164 h (broadcastInDim S850000x1 ![0] bcast_S850000_S850000x1_0 (wrapK (srcK ei)))) (broadcastInDim S850000x64 ![0, 1] bcast_S850000x1_S850000x64_0_1 (broadcastInDim S850000x1 ![0] bcast_S850000_S850000x1_0 (normK ei))))) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- A layer with the sources, the destinations and the column of edge weights given: what the host operations of one
    layer compute from the buffers they read. -/
def layerOf (h : FVec Ideal S50000x64 .f32) (src dst : (⟨S850000, .i32⟩ : BufTy).Contents (Elt Ideal)) (ncol : FVec Ideal S850000x1 .f32)
    (b : FVec Ideal S64 .f32) : FVec Ideal S50000x64 .f32 :=
  maximumf (addf (Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (broadcastInDim S850000x1 ![0] bcast_S850000_S850000x1_0 (wrapK src))) (broadcastInDim S850000x64 ![0, 1] bcast_S850000x1_S850000x64_0_1 ncol))) (broadcastInDim S50000x64 ![0, 1] bcast_S1x64_S50000x64_0_1 (broadcastInDim S1x64 ![1] bcast_S64_S1x64_1 b))) (broadcastInDim S50000x64 ![] bcast_S_S50000x64 (constant S_ .f32 0x00000000#32))

theorem layerK_eq (h : FVec Ideal S50000x64 .f32) (ei : (⟨S2x800000, .i32⟩ : BufTy).Contents (Elt Ideal)) (b : FVec Ideal S64 .f32) :
    layerK h ei b = layerOf h (srcK ei) (dstK ei) (broadcastInDim S850000x1 ![0] bcast_S850000_S850000x1_0 (normK ei)) b := rfl

/-! ## The host stretches, each as a function of the contents it starts from -/

section Stretches

variable (W : Valuation τ sig (Elt Ideal))

/-- A column of fifty thousand zeros. -/
abbrev zcol : FVec Ideal S50000 .f32 := broadcastInDim S50000 ![] bcast_S_S50000 (constant (F := Ideal) S_ .f32 0x00000000#32)

/-- The first stretch: the sources. -/
theorem ops0_src : (StableHlo.after hostOps0 W (Proc.devRef .tc main_v3) : (⟨S850000, .i32⟩ : BufTy).Contents (Elt Ideal))
    = (srcK (W (Proc.devRef .tc main_arg1) : (⟨S2x800000, .i32⟩ : BufTy).Contents (Elt Ideal)) : (⟨S850000, .i32⟩ : BufTy).Contents (Elt Ideal)) := by
  dsimp only [hostOps0]; after_results_simp <;> first | done | rfl
/-- The first stretch: the destinations. -/
theorem ops0_dst : (StableHlo.after hostOps0 W (Proc.devRef .tc main_v6) : (⟨S850000, .i32⟩ : BufTy).Contents (Elt Ideal))
    = (dstK (W (Proc.devRef .tc main_arg1) : (⟨S2x800000, .i32⟩ : BufTy).Contents (Elt Ideal)) : (⟨S850000, .i32⟩ : BufTy).Contents (Elt Ideal)) := by
  dsimp only [hostOps0]; after_results_simp <;> first | done | rfl
/-- The first stretch: where the in-degree is positive. -/
theorem ops0_pos : (StableHlo.after hostOps0 W (Proc.devRef .tc main_v12) : (⟨S50000, .i1⟩ : BufTy).Contents (Elt Ideal))
    = (cmpf .ogt (degK (W (Proc.devRef .tc main_arg1) : (⟨S2x800000, .i32⟩ : BufTy).Contents (Elt Ideal))) zcol : (⟨S50000, .i1⟩ : BufTy).Contents (Elt Ideal)) := by
  dsimp only [hostOps0]; after_results_simp <;> first | done | rfl
/-- The first stretch: the in-degrees' inverse square roots. -/
theorem ops0_rsqrt : (StableHlo.after hostOps0 W (Proc.devRef .tc main_v13) : FVec Ideal S50000 .f32)
    = (Host.rsqrt (F := Ideal) (degK (W (Proc.devRef .tc main_arg1) : (⟨S2x800000, .i32⟩ : BufTy).Contents (Elt Ideal))) : FVec Ideal S50000 .f32) := by
  dsimp only [hostOps0]; after_results_simp <;> first | done | rfl
/-- The first stretch: the zero the second selects. -/
theorem ops0_zero : (StableHlo.after hostOps0 W (Proc.devRef .tc main_cst_2) : FVec Ideal S_ .f32)
    = (constant (F := Ideal) S_ .f32 0x00000000#32 : FVec Ideal S_ .f32) := by
  dsimp only [hostOps0]; after_results_simp <;> first | done | rfl

/-- The second stretch: the factors, zero where the in-degree is not positive. -/
theorem ops0_1_sel : (StableHlo.after hostOps0_1 W (Proc.devRef .tc main_v14) : FVec Ideal S50000 .f32)
    = (select (W (Proc.devRef .tc main_v12) : (⟨S50000, .i1⟩ : BufTy).Contents (Elt Ideal)) (W (Proc.devRef .tc main_v13) : FVec Ideal S50000 .f32) (broadcastInDim S50000 ![] bcast_S_S50000 (id (W (Proc.devRef .tc main_cst_2) : FVec Ideal S_ .f32))) : FVec Ideal S50000 .f32) := by
  dsimp only [hostOps0_1]; after_results_simp <;> first | done | rfl

/-- The third stretch: the column of edge weights. -/
theorem ops0_2_col : (StableHlo.after hostOps0_2 W (Proc.devRef .tc main_v30) : FVec Ideal S850000x1 .f32)
    = (broadcastInDim S850000x1 ![0] bcast_S850000_S850000x1_0
        (mulf (Host.gather gather_S50000_S850000x1_S850000_n_0_n_n_0_1_1 (W (Proc.devRef .tc main_v14) : FVec Ideal S50000 .f32) (broadcastInDim S850000x1 ![0] bcast_S850000_S850000x1_0 (wrapK (W (Proc.devRef .tc main_v3) : (⟨S850000, .i32⟩ : BufTy).Contents (Elt Ideal)))))
          (Host.gather gather_S50000_S850000x1_S850000_n_0_n_n_0_1_1 (W (Proc.devRef .tc main_v14) : FVec Ideal S50000 .f32) (broadcastInDim S850000x1 ![0] bcast_S850000_S850000x1_0 (wrapK (W (Proc.devRef .tc main_v6) : (⟨S850000, .i32⟩ : BufTy).Contents (Elt Ideal)))))) : FVec Ideal S850000x1 .f32) := by
  dsimp only [hostOps0_2]; after_results_simp <;> first | done | rfl

/-- The stretch after the first dense transform: the aggregate plus the bias row. -/
theorem ops1_sum : (StableHlo.after hostOps1 W (Proc.devRef .tc main_v46) : FVec Ideal S50000x64 .f32)
    = (addf (Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 (W (Proc.devRef .tc main_v6) : (⟨S850000, .i32⟩ : BufTy).Contents (Elt Ideal))) (mulf (Host.gather gather_S50000x64_S850000x1_S850000x64_1_0_n_n_0_1_164 (W (Proc.devRef .tc main_v31) : FVec Ideal S50000x64 .f32) (broadcastInDim S850000x1 ![0] bcast_S850000_S850000x1_0 (wrapK (W (Proc.devRef .tc main_v3) : (⟨S850000, .i32⟩ : BufTy).Contents (Elt Ideal))))) (broadcastInDim S850000x64 ![0, 1] bcast_S850000x1_S850000x64_0_1 (W (Proc.devRef .tc main_v30) : FVec Ideal S850000x1 .f32)))) (broadcastInDim S50000x64 ![0, 1] bcast_S1x64_S50000x64_0_1 (broadcastInDim S1x64 ![1] bcast_S64_S1x64_1 (W (Proc.devRef .tc main_arg3) : FVec Ideal S64 .f32))) : FVec Ideal S50000x64 .f32) := by
  dsimp only [hostOps1]; after_results_simp <;> first | done | rfl
/-- … clamped below at zero. -/
theorem ops1_1_relu : (StableHlo.after hostOps1_1 W (Proc.devRef .tc main_v47) : FVec Ideal S50000x64 .f32)
    = (maximumf (W (Proc.devRef .tc main_v46) : FVec Ideal S50000x64 .f32) (broadcastInDim S50000x64 ![] bcast_S_S50000x64 (constant (F := Ideal) S_ .f32 0x00000000#32)) : FVec Ideal S50000x64 .f32) := by
  dsimp only [hostOps1_1]; after_results_simp <;> first | done | rfl

/-- The stretch after the second dense transform: the aggregate plus the bias row. -/
theorem ops2_sum : (StableHlo.after hostOps2 W (Proc.devRef .tc main_v63) : FVec Ideal S50000x64 .f32)
    = (addf (Host.scatterAdd (F := Ideal) scatter_S50000x64_S850000x1_S850000x64_1_0_0_1 (broadcastInDim S50000x64 ![] bcast_S_S50000x64 (constant (F := Ideal) S_ .f32 0x00000000#32)) (broadcastInDim S850000x1 ![0] bcast_S850000_S850000x1_0 (W (Proc.devRef .tc main_v6) : (⟨S850000, .i32⟩ : BufTy).Contents (Elt Ideal))) (mulf (Host.gather gather_S50000x64_S850000x1_S850000x64_1_0_n_n_0_1_164 (W (Proc.devRef .tc main_v48) : FVec Ideal S50000x64 .f32) (broadcastInDim S850000x1 ![0] bcast_S850000_S850000x1_0 (wrapK (W (Proc.devRef .tc main_v3) : (⟨S850000, .i32⟩ : BufTy).Contents (Elt Ideal))))) (broadcastInDim S850000x64 ![0, 1] bcast_S850000x1_S850000x64_0_1 (W (Proc.devRef .tc main_v30) : FVec Ideal S850000x1 .f32)))) (broadcastInDim S50000x64 ![0, 1] bcast_S1x64_S50000x64_0_1 (broadcastInDim S1x64 ![1] bcast_S64_S1x64_1 (W (Proc.devRef .tc main_arg5) : FVec Ideal S64 .f32))) : FVec Ideal S50000x64 .f32) := by
  dsimp only [hostOps2]; after_results_simp <;> first | done | rfl
/-- … clamped below at zero. -/
theorem ops2_1_relu : (StableHlo.after hostOps2_1 W (Proc.devRef .tc main_v64) : FVec Ideal S50000x64 .f32)
    = (maximumf (W (Proc.devRef .tc main_v63) : FVec Ideal S50000x64 .f32) (broadcastInDim S50000x64 ![] bcast_S_S50000x64 (constant (F := Ideal) S_ .f32 0x00000000#32)) : FVec Ideal S50000x64 .f32) := by
  dsimp only [hostOps2_1]; after_results_simp <;> first | done | rfl
/-- The last stretch: the second layer's output as one row. -/
theorem ops2_2_row : (StableHlo.after hostOps2_2 W (Proc.devRef .tc main_v65) : FVec Ideal S1x3200000 .f32)
    = (shapeCast S1x3200000 (W (Proc.devRef .tc main_v64) : FVec Ideal S50000x64 .f32) shapeCasts_S50000x64_S1x3200000 : FVec Ideal S1x3200000 .f32) := by
  dsimp only [hostOps2_2]; after_results_simp <;> first | done | rfl
/-- The last stretch: the classifier's bias as a row. -/
theorem ops2_2_bias : (StableHlo.after hostOps2_2 W (Proc.devRef .tc main_v66) : FVec Ideal S1x6 .f32)
    = (shapeCast S1x6 (W (Proc.devRef .tc main_arg7) : FVec Ideal S6 .f32) shapeCasts_S6_S1x6 : FVec Ideal S1x6 .f32) := by
  dsimp only [hostOps2_2]; after_results_simp <;> first | done | rfl

end Stretches

end Cert.KernelIdeal.Hand

end
-- ==== Proof.KI.HostK.lean ====
/-
  The contents each kernel region is entered from, read off the fold of the host operations: the second dense
  transform's input is the first layer's output, a function of the first transform's result, the edge list and the
  first bias; the classifier's inputs are the second layer's output flattened to one row, and its bias as a row.
-/
import proofs.«127401_j75110388072633_2_alg».proof.Proof.KI.Data
import proofs.«127401_j75110388072633_2_alg».proof.Proof.KI.HostOps

set_option maxRecDepth 200000

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-! ## What a stretch does not write it leaves -/

theorem B1_pass (c : Dev nD) (b : Ref sig .tc) (h : b ∉ hostOps0_W) : B1 m c (Proc.devRef .tc b) = B0 m c (Proc.devRef .tc b) :=
  StableHlo.after_of_writes_sub hostOps0 _ hostOps0_writes h
theorem B2_pass (c : Dev nD) (b : Ref sig .tc) (h : b ∉ hostOps0_1_W) : B2 m c (Proc.devRef .tc b) = B1 m c (Proc.devRef .tc b) :=
  StableHlo.after_of_writes_sub hostOps0_1 _ hostOps0_1_writes h
theorem B3_pass (c : Dev nD) (b : Ref sig .tc) (h : b ∉ hostOps0_2_W) : B3 m c (Proc.devRef .tc b) = B2 m c (Proc.devRef .tc b) :=
  StableHlo.after_of_writes_sub hostOps0_2 _ hostOps0_2_writes h
theorem B5_pass (c : Dev nD) (b : Ref sig .tc) (h : b ∉ hostOps1_W) : B5 m c (Proc.devRef .tc b) = B4 m c (Proc.devRef .tc b) :=
  StableHlo.after_of_writes_sub hostOps1 _ hostOps1_writes h
theorem B6_pass (c : Dev nD) (b : Ref sig .tc) (h : b ∉ hostOps1_1_W) : B6 m c (Proc.devRef .tc b) = B5 m c (Proc.devRef .tc b) :=
  StableHlo.after_of_writes_sub hostOps1_1 _ hostOps1_1_writes h
theorem B8_pass (c : Dev nD) (b : Ref sig .tc) (h : b ∉ hostOps2_W) : B8 m c (Proc.devRef .tc b) = B7 m c (Proc.devRef .tc b) :=
  StableHlo.after_of_writes_sub hostOps2 _ hostOps2_writes h
theorem B9_pass (c : Dev nD) (b : Ref sig .tc) (h : b ∉ hostOps2_1_W) : B9 m c (Proc.devRef .tc b) = B8 m c (Proc.devRef .tc b) :=
  StableHlo.after_of_writes_sub hostOps2_1 _ hostOps2_1_writes h
theorem B10_pass (c : Dev nD) (b : Ref sig .tc) (h : b ∉ hostOps2_2_W) : B10 m c (Proc.devRef .tc b) = B9 m c (Proc.devRef .tc b) :=
  StableHlo.after_of_writes_sub hostOps2_2 _ hostOps2_2_writes h

/-- A buffer that the two stretches after the first dense transform do not write, and that is not the transform's
    result, holds when the second transform is entered what it held when the first was. -/
theorem B6_keep (c : Dev nD) (b : Ref sig .tc) (h4 : b ∉ hostOps1_W) (h5 : b ∉ hostOps1_1_W) (hr0 : b ≠ main_v31) :
    B6 m c (Proc.devRef .tc b) = B3 m c (Proc.devRef .tc b) :=
  (B6_pass m c b h5).trans <| (B5_pass m c b h4).trans (B4_keep m c b hr0)

/-- … and after the second transform, unless it is that transform's result. -/
theorem B7_keep3 (c : Dev nD) (b : Ref sig .tc) (h4 : b ∉ hostOps1_W) (h5 : b ∉ hostOps1_1_W) (hr0 : b ≠ main_v31) (hr1 : b ≠ main_v48) :
    B7 m c (Proc.devRef .tc b) = B3 m c (Proc.devRef .tc b) :=
  (B7_keep m c b hr1).trans (B6_keep m c b h4 h5 hr0)

/-- An argument holds its launch contents when the first dense transform is entered. -/
theorem B3_launch (c : Dev nD) (b : Ref sig .tc) (h0 : b ∉ hostOps0_W) (h1 : b ∉ hostOps0_1_W) (h2 : b ∉ hostOps0_2_W) :
    B3 m c (Proc.devRef .tc b) = m ((c : Thread nD τ).loc b) :=
  (B3_pass m c b h2).trans <| (B2_pass m c b h1).trans <| (B1_pass m c b h0).trans rfl

/-! ## The graph's data when the first dense transform is entered -/

/-- The sources. -/
theorem B3_src (c : Dev nD) : B3 m c (Proc.devRef .tc main_v3) = srcK (m ((c : Thread nD τ).loc main_arg1)) :=
  (B3_pass m c main_v3 (by decide)).trans <| (B2_pass m c main_v3 (by decide)).trans (ops0_src (B0 m c))
/-- The destinations. -/
theorem B3_dst (c : Dev nD) : B3 m c (Proc.devRef .tc main_v6) = dstK (m ((c : Thread nD τ).loc main_arg1)) :=
  (B3_pass m c main_v6 (by decide)).trans <| (B2_pass m c main_v6 (by decide)).trans (ops0_dst (B0 m c))
/-- The factors. -/
theorem B2_factors (c : Dev nD) : B2 m c (Proc.devRef .tc main_v14) = dinvK (m ((c : Thread nD τ).loc main_arg1)) := by
  refine (ops0_1_sel (B1 m c)).trans ?_
  rw [show B1 m c (Proc.devRef .tc main_v12) = _ from ops0_pos (B0 m c), show B1 m c (Proc.devRef .tc main_v13) = _ from ops0_rsqrt (B0 m c),
    show B1 m c (Proc.devRef .tc main_cst_2) = _ from ops0_zero (B0 m c)]
  rfl
/-- The column of edge weights. -/
theorem B3_col (c : Dev nD) : B3 m c (Proc.devRef .tc main_v30)
    = broadcastInDim S850000x1 ![0] bcast_S850000_S850000x1_0 (normK (m ((c : Thread nD τ).loc main_arg1))) := by
  refine (ops0_2_col (B2 m c)).trans ?_
  rw [B2_factors, B2_pass m c main_v3 (by decide), B2_pass m c main_v6 (by decide),
    show B1 m c (Proc.devRef .tc main_v3) = _ from ops0_src (B0 m c), show B1 m c (Proc.devRef .tc main_v6) = _ from ops0_dst (B0 m c)]
  rfl

/-! ## The contents the regions are entered from -/

/-- The second dense transform is entered with the first layer's output: the layer of the first transform's result. -/
theorem B6_layer (c : Dev nD) :
    B6 m c (Proc.devRef .tc main_v47)
      = layerK (B4 m c (Proc.devRef .tc main_v31)) (m ((c : Thread nD τ).loc main_arg1)) (m ((c : Thread nD τ).loc main_arg3)) := by
  refine (ops1_1_relu (B5 m c)).trans ?_
  rw [show B5 m c (Proc.devRef .tc main_v46) = _ from ops1_sum (B4 m c), B4_keep m c main_v3 (by decide), B4_keep m c main_v6 (by decide),
    B4_keep m c main_v30 (by decide), B4_keep m c main_arg3 (by decide),
    B3_src, B3_dst, B3_col, B3_launch m c main_arg3 (by decide) (by decide) (by decide)]
  rfl

/-- The classifier is entered with the second layer's output flattened to one row. -/
theorem B10_row (c : Dev nD) :
    B10 m c (Proc.devRef .tc main_v65)
      = shapeCast S1x3200000 (layerK (B7 m c (Proc.devRef .tc main_v48)) (m ((c : Thread nD τ).loc main_arg1)) (m ((c : Thread nD τ).loc main_arg5))) shapeCasts_S50000x64_S1x3200000 := by
  refine (ops2_2_row (B9 m c)).trans ?_
  rw [show B9 m c (Proc.devRef .tc main_v64) = _ from ops2_1_relu (B8 m c), show B8 m c (Proc.devRef .tc main_v63) = _ from ops2_sum (B7 m c),
    B7_keep3 m c main_v3 (by decide) (by decide) (by decide) (by decide), B7_keep3 m c main_v6 (by decide) (by decide) (by decide) (by decide),
    B7_keep3 m c main_v30 (by decide) (by decide) (by decide) (by decide), B7_keep3 m c main_arg5 (by decide) (by decide) (by decide) (by decide),
    B3_src, B3_dst, B3_col, B3_launch m c main_arg5 (by decide) (by decide) (by decide)]
  rfl

/-- … and with the classifier's bias as a row. -/
theorem B10_bias (c : Dev nD) :
    B10 m c (Proc.devRef .tc main_v66) = shapeCast S1x6 (m ((c : Thread nD τ).loc main_arg7)) shapeCasts_S6_S1x6 := by
  refine (ops2_2_bias (B9 m c)).trans ?_
  rw [B9_pass m c main_arg7 (by decide), B8_pass m c main_arg7 (by decide),
    B7_keep3 m c main_arg7 (by decide) (by decide) (by decide) (by decide), B3_launch m c main_arg7 (by decide) (by decide) (by decide)]

/-- An argument the classifier reads directly holds its launch contents there. -/
theorem B10_launch (c : Dev nD) (b : Ref sig .tc) (h0 : b ∉ hostOps0_W) (h1 : b ∉ hostOps0_1_W) (h2 : b ∉ hostOps0_2_W) (h4 : b ∉ hostOps1_W) (h5 : b ∉ hostOps1_1_W)
    (h7 : b ∉ hostOps2_W) (h8 : b ∉ hostOps2_1_W) (h9 : b ∉ hostOps2_2_W) (hr0 : b ≠ main_v31) (hr1 : b ≠ main_v48) :
    B10 m c (Proc.devRef .tc b) = m ((c : Thread nD τ).loc b) :=
  (B10_pass m c b h9).trans <| (B9_pass m c b h8).trans <| (B8_pass m c b h7).trans <|
  (B7_keep3 m c b h4 h5 hr0 hr1).trans (B3_launch m c b h0 h1 h2)

/-- … and so does one the second dense transform reads. -/
theorem B6_launch (c : Dev nD) (b : Ref sig .tc) (h0 : b ∉ hostOps0_W) (h1 : b ∉ hostOps0_1_W) (h2 : b ∉ hostOps0_2_W) (h4 : b ∉ hostOps1_W) (h5 : b ∉ hostOps1_1_W)
    (hr0 : b ≠ main_v31) : B6 m c (Proc.devRef .tc b) = m ((c : Thread nD τ).loc b) :=
  (B6_keep m c b h4 h5 hr0).trans (B3_launch m c b h0 h1 h2)

end Cert.KernelIdeal.Hand

end
-- ==== Proof.KI.R2Eqs.lean ====
/- Region 2 (the classifier): the contents each case leaves, as values — the accumulator after a point is the
   running sum's step on what the point before left, and at the last point the output's block is the softmax of
   the accumulator plus the bias. -/
import proofs.«127401_j75110388072633_2_alg».proof.Proof.KI.R2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## The cases' values, on any memrefs -/

/-- Case B leaves in the accumulator holding `xs0` the step `k2_pay2` of the two input blocks on it. -/
theorem sout2_B_eq (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : ¬cond2_1 i)
    (x0 : Vec F S1x12800 .f32) (x1 : Vec F S12800x6 .f32) (x2 : Vec F S1x6 .f32) (xs0 : Vec F S1x6 .f32) :
    sout2_B_0 c i arg1 harg1 arg2 harg2 arg3 harg3 arg4 harg4 arg5 harg5 hc0 hc1 x0 x1 x2 xs0 = k2_pay2 x0 x1 xs0 := by
  unfold sout2_B_0
  rw [View.read_writes_eq_canon _ _ _ (scover2_B_0 c i arg1 harg1 arg2 harg2 arg3 harg3 arg4 harg4 arg5 harg5 hc0 hc1 x0 x1 x2 xs0)]
  unfold kernelRun2_B
  dsimp only
  rw [View.canon_unit_zero hz2]
  simp only [View.readAt_eq_ld, harg1.read_unread, harg2.read_unread, harg3.read_unread, harg5.read_unread, View.ld_unit_zero (S := S1x12800) hz2, View.ld_unit_zero (S := S12800x6) hz2, View.ld_unit_zero (S := S1x6) hz2]

/-- Case C leaves the same in the accumulator, -/
theorem sout2_C_eq (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) :
    sout2_C_0 c i arg1 harg1 arg2 harg2 arg3 harg3 arg4 harg4 arg5 harg5 hc0 hc1 x0 x1 x2 xs0 = k2_pay2 x0 x1 xs0 := by
  unfold sout2_C_0
  rw [View.read_writes_eq_canon _ _ _ (scover2_C_0 c i arg1 harg1 arg2 harg2 arg3 harg3 arg4 harg4 arg5 harg5 hc0 hc1 x0 x1 x2 xs0)]
  unfold kernelRun2_C
  dsimp only
  sl_unfold_words
  rw [View.canon_unit_zero hz2]
  simp only [View.readAt_eq_ld, harg1.read_unread, harg2.read_unread, harg3.read_unread, harg5.read_unread, View.ld_unit_zero (S := S1x12800) hz2, View.ld_unit_zero (S := S12800x6) hz2, View.ld_unit_zero (S := S1x6) hz2]

/-- and in the output's block the epilogue `k2_pay3` of that accumulator (read back) and the bias. -/
theorem out2_C_eq (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : ¬cond2_0 i) (hc1 : cond2_1 i)
    (x0 : Vec F S1x12800 .f32) (x1 : Vec F S12800x6 .f32) (x2 : Vec F S1x6 .f32) (xs0 : Vec F S1x6 .f32) :
    out2_C_3 c i arg1 harg1 arg2 harg2 arg3 harg3 arg4 harg4 arg5 harg5 hc0 hc1 x0 x1 x2 xs0 = k2_pay3 (k2_pay2 x0 x1 xs0) x2 := by
  unfold out2_C_3
  rw [View.read_writes_eq_canon _ _ _ (cover2_C_3 c i arg1 harg1 arg2 harg2 arg3 harg3 arg4 harg4 arg5 harg5 hc0 hc1 x0 x1 x2 xs0)]
  unfold kernelRun2_C
  dsimp only
  sl_unfold_words
  rw [View.canon_unit_zero hz2, View.readCov_unit_zero (S := S1x6) _ hz2]
  simp only [View.readAt_eq_ld, harg1.read_unread, harg2.read_unread, harg3.read_unread, harg5.read_unread, View.ld_unit_zero (S := S1x12800) hz2, View.ld_unit_zero (S := S12800x6) hz2, View.ld_unit_zero (S := S1x6) hz2]

/-- Case A stores the zero block `k2_pay1`, reads it back, and leaves the step on it. -/
theorem sout2_A_eq (c : Dev nD) (i : grid2.Coords) (arg1 : Memref sig .tc .vmem S1x12800 .f32) (harg1 : arg1.IsWhole) (arg2 : Memref sig .tc .vmem S12800x6 .f32) (harg2 : arg2.IsWhole) (arg3 : Memref sig .tc .vmem S1x6 .f32) (harg3 : arg3.IsWhole) (arg4 : Memref sig .tc .vmem S1x6 .f32) (harg4 : arg4.IsWhole) (arg5 : Memref sig .tc .vmem S1x6 .f32) (harg5 : arg5.IsWhole) (hc0 : cond2_0 i) (hc1 : ¬cond2_1 i)
    (x0 : Vec F S1x12800 .f32) (x1 : Vec F S12800x6 .f32) (x2 : Vec F S1x6 .f32) :
    sout2_A_0 c i arg1 harg1 arg2 harg2 arg3 harg3 arg4 harg4 arg5 harg5 hc0 hc1 x0 x1 x2 = k2_pay2 x0 x1 k2_pay1 := by
  unfold sout2_A_0
  rw [View.read_writes_eq_canon _ _ _ (scover2_A_0 c i arg1 harg1 arg2 harg2 arg3 harg3 arg4 harg4 arg5 harg5 hc0 hc1 x0 x1 x2)]
  unfold kernelRun2_A
  dsimp only
  sl_unfold_words
  rw [View.canon_cons_unit_zero (S := S1x6) hz2, View.readCov_unit_zero (S := S1x6) _ hz2]
  simp only [View.readAt_eq_ld, harg1.read_unread, harg2.read_unread, harg3.read_unread, harg5.read_unread, View.ld_unit_zero (S := S1x12800) hz2, View.ld_unit_zero (S := S12800x6) hz2, View.ld_unit_zero (S := S1x6) hz2]

section Region2
variable (V : (c : Dev nD) → (b : Ref sig .tc) → Buf (Elt F) ((c : Thread nD τ).loc b))

/-! ## The accumulator point by point -/

/-- After the first point: the step on the zero block. -/
theorem acc2_zero (c : Dev nD) (hn : 0 < cfg2.N) :
    (outsAt2 V c 0 hn).2 = k2_pay2 (iblk2 V c 0 ⟨0, hn⟩) (iblk2 V c 1 ⟨0, hn⟩) k2_pay1 := by
  rw [outsAt2_A V c ⟨0, hn⟩ rfl (by decide : ¬ (0 : ℕ) = 249)]
  dsimp only
  exact sout2_A_eq ..

/-- After a later point: the step on what the point before left. -/
theorem acc2_succ (c : Dev nD) (n : ℕ) (hn : n + 1 < cfg2.N) :
    (outsAt2 V c (n + 1) hn).2 = k2_pay2 (iblk2 V c 0 ⟨n + 1, hn⟩) (iblk2 V c 1 ⟨n + 1, hn⟩) (outsAt2 V c n (Nat.lt_of_succ_lt hn)).2 := by
  by_cases h1 : n + 1 = 249
  · rw [outsAt2_C V c ⟨n + 1, hn⟩ (Nat.succ_ne_zero n) h1]
    dsimp only
    exact sout2_C_eq ..
  · rw [outsAt2_B V c ⟨n + 1, hn⟩ (Nat.succ_ne_zero n) h1]
    dsimp only
    exact sout2_B_eq ..

/-- After the last point the output's block: the epilogue of the accumulator there and the bias. -/
theorem out2_last (c : Dev nD) (hn : 249 < cfg2.N) :
    (outsAt2 V c 249 hn).1 = k2_pay3 (outsAt2 V c 249 hn).2 (iblk2 V c 2 ⟨249, hn⟩) := by
  rw [outsAt2_C V c ⟨249, hn⟩ (by decide : ¬ (249 : ℕ) = 0) rfl]
  dsimp only
  rw [out2_C_eq, sout2_C_eq]

end Region2

end Cert.KernelIdeal.Hand

end
-- ==== Proof.LibBlockSum.lean ====
/-
  Two general facts used to put a blocked contraction back together.

  A sum over nb · bs consecutive naturals is the sum, over the nb blocks, of the bs terms of each block; stated with
  the terms of a block indexed by Fin bs and the whole range by Fin (nb · bs), as matrix products come. And a
  rank-2 array extended by zero to all pairs of naturals, so that offsets computed in ℕ need no bound proofs while
  they are being rearranged: inside the extents the extension is the array.
-/
import Mathlib.Algebra.BigOperators.Fin
import Mathlib.Algebra.BigOperators.Intervals
import Idealize.ShloMosaic.Lib.ValueIdx

noncomputable section

open scoped BigOperators

namespace Cert.LibBlockSum

open Idealize.ShloMosaic Idealize.ShloMosaic.ValueIdx

/-- Block by block over ranges: Σ_{s < nb} Σ_{kk < bs} g (bs · s + kk) = Σ_{k < nb · bs} g k. -/
theorem sum_range_blocks {β : Type*} [AddCommMonoid β] (g : ℕ → β) (bs : ℕ) :
    ∀ nb : ℕ, ∑ s ∈ Finset.range nb, ∑ kk ∈ Finset.range bs, g (bs * s + kk) = ∑ k ∈ Finset.range (nb * bs), g k
  | 0 => by simp
  | nb + 1 => by
    rw [Finset.sum_range_succ, sum_range_blocks g bs nb, Nat.succ_mul, Finset.sum_range_add, Nat.mul_comm bs nb]

/-- The same with each block's terms indexed by Fin bs and the whole by Fin (nb · bs). -/
theorem sum_fin_blocks {β : Type*} [AddCommMonoid β] (g : ℕ → β) (nb bs : ℕ) :
    ∑ s ∈ Finset.range nb, ∑ kk : Fin bs, g (bs * s + kk.val) = ∑ k : Fin (nb * bs), g k.val := by
  rw [Fin.sum_univ_eq_sum_range g (nb * bs), ← sum_range_blocks g bs nb]
  exact Finset.sum_congr rfl fun s _ => Fin.sum_univ_eq_sum_range (fun kk => g (bs * s + kk)) bs

/-- The same with the total count named: n = nb · bs. -/
theorem sum_fin_blocks_eq {β : Type*} [AddCommMonoid β] (g : ℕ → β) (nb bs n : ℕ) (hn : nb * bs = n) :
    ∑ s ∈ Finset.range nb, ∑ kk : Fin bs, g (bs * s + kk.val) = ∑ k : Fin n, g k.val := by
  subst hn
  exact sum_fin_blocks g nb bs

/-- A rank-2 array extended by zero to all of ℕ × ℕ. -/
def ext2 {α : Type*} [Zero α] {n0 n1 : ℕ} (A : (⟨2, ![n0, n1]⟩ : Shape).Idx → α) (r k : ℕ) : α :=
  if h : r < n0 ∧ k < n1 then A (ix2 ⟨r, h.1⟩ ⟨k, h.2⟩) else 0

/-- Inside the extents the extension is the array. -/
theorem ext2_of_lt {α : Type*} [Zero α] {n0 n1 : ℕ} (A : (⟨2, ![n0, n1]⟩ : Shape).Idx → α) {r k : ℕ}
    (hr : r < n0) (hk : k < n1) : ext2 A r k = A (ix2 ⟨r, hr⟩ ⟨k, hk⟩) := dif_pos ⟨hr, hk⟩

/-- At the coordinates of an index the extension is the array at that index. -/
theorem ext2_ix {α : Type*} [Zero α] {n0 n1 : ℕ} (A : (⟨2, ![n0, n1]⟩ : Shape).Idx → α) (p : Fin n0) (k : Fin n1) :
    ext2 A p.val k.val = A (ix2 p k) := ext2_of_lt A p.isLt k.isLt

end Cert.LibBlockSum

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibAccum.lean ====
/-
  A matrix product accumulated block by block over the contracted range, put back together on the extended reals.

  A blocked product keeps, for each output entry (r, q), a running sum to which the j-th step adds the products of
  the j-th block of bs contraction positions: row r of the first matrix against column q of the second, positions
  bs · j, …, bs · j + bs - 1. Below, that running sum after j steps is a definition over the two matrices extended
  by zero to all pairs of naturals (so that offsets are plain arithmetic in ℕ); it starts at 0, a step adds one
  block's products, and after nb steps with nb · bs the contracted extent it is the whole product's entry
  ∑ₖ A (r, k) · B (k, q). Addition on the extended reals is commutative and associative, so nothing about the
  finiteness of the entries is needed. One step of the accumulation as a vector unit computes it — the running sum
  plus a matrix product, into a zero accumulator, of the two operands rounded to a narrower format, which on the
  extended reals is no rounding at all — is read at an entry as that sum.
-/
import proofs.«127401_j75110388072633_2_alg».proof.Proof.LibBlockSum
import proofs.«127401_j75110388072633_2_alg».proof.Proof.LibPlainDot
import Idealize.ShloMosaic.Lib.ValueIdx
import Idealize.ShloMosaic.PureOps.Ideal.Laws

noncomputable section

open scoped BigOperators

namespace Cert.LibAccum

open Idealize.ShloMosaic Idealize.ShloMosaic.ValueIdx Cert.LibBlockSum

/-- Row `r` of `A` against column `q` of `B` over the first `j` blocks of `bs` contraction positions:
    Σ_{s < j} Σ_{kk < bs} A (r, bs · s + kk) · B (bs · s + kk, q), the matrices extended by zero. -/
def partialDot {n K M : ℕ} (A : (⟨2, ![n, K]⟩ : Shape).Idx → EReal) (B : (⟨2, ![K, M]⟩ : Shape).Idx → EReal)
    (bs r q j : ℕ) : EReal :=
  ∑ s ∈ Finset.range j, ∑ kk : Fin bs, ext2 A r (bs * s + kk.val) * ext2 B (bs * s + kk.val) q

/-- Over no blocks the sum is 0. -/
theorem partialDot_zero {n K M : ℕ} (A : (⟨2, ![n, K]⟩ : Shape).Idx → EReal) (B : (⟨2, ![K, M]⟩ : Shape).Idx → EReal)
    (bs r q : ℕ) : partialDot A B bs r q 0 = 0 := Finset.sum_range_zero _

/-- One more block adds that block's products. -/
theorem partialDot_succ {n K M : ℕ} (A : (⟨2, ![n, K]⟩ : Shape).Idx → EReal) (B : (⟨2, ![K, M]⟩ : Shape).Idx → EReal)
    (bs r q j : ℕ) :
    partialDot A B bs r q (j + 1)
      = partialDot A B bs r q j + ∑ kk : Fin bs, ext2 A r (bs * j + kk.val) * ext2 B (bs * j + kk.val) q :=
  Finset.sum_range_succ _ _

/-- The first block alone, added to zero. -/
theorem partialDot_one {n K M : ℕ} (A : (⟨2, ![n, K]⟩ : Shape).Idx → EReal) (B : (⟨2, ![K, M]⟩ : Shape).Idx → EReal)
    (bs r q : ℕ) :
    partialDot A B bs r q 1 = 0 + ∑ kk : Fin bs, ext2 A r (bs * 0 + kk.val) * ext2 B (bs * 0 + kk.val) q := by
  rw [partialDot_succ, partialDot_zero]

/-- Over all `nb` blocks, `nb · bs` the contracted extent, the sum is the product's entry. -/
theorem partialDot_full {n K M : ℕ} (A : (⟨2, ![n, K]⟩ : Shape).Idx → EReal) (B : (⟨2, ![K, M]⟩ : Shape).Idx → EReal)
    (bs nb : ℕ) (hK : nb * bs = K) (r : Fin n) (q : Fin M) :
    partialDot A B bs r.val q.val nb = ∑ k : Fin K, A (ix2 r k) * B (ix2 k q) :=
  (sum_fin_blocks_eq (fun k => ext2 A r.val k * ext2 B k q.val) nb bs K hK).trans
    (Finset.sum_congr rfl fun k _ => by
      show ext2 A r.val k.val * ext2 B k.val q.val = _
      rw [ext2_ix, ext2_ix])

/-- One step of a vector unit's accumulation at entry (p, c): the running sum plus the product, into a zero
    accumulator, of the operands rounded to a narrower format (no rounding on the extended reals) is
    acc (p, c) + ∑ₖ x0 (p, k) · x1 (k, c). -/
theorem acc_matmul_apply {n K M : ℕ} {ψ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (hb : ψ.bits < FTy.f32.bits)
    (x0 : FVec Ideal (⟨2, ![n, K]⟩ : Shape) .f32) (x1 : FVec Ideal (⟨2, ![K, M]⟩ : Shape) .f32)
    (acc : FVec Ideal (⟨2, ![n, M]⟩ : Shape) .f32) (p : Fin n) (c : Fin M) :
    addf acc (matmul D prec (truncf ψ x0 hb) (truncf ψ x1 hb) (constant (⟨2, ![n, M]⟩ : Shape) .f32 0x00000000#32)) (ix2 p c)
      = (acc (ix2 p c) : EReal) + ∑ k : Fin K, (x0 (ix2 p k) : EReal) * (x1 (ix2 k c) : EReal) := by
  rw [addf_apply]
  simp only [matmul]
  rw [Cert.PlainDot.matmul_zero_apply D hr hs l0 l1 r0 r1]
  rfl

end Cert.LibAccum

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibRowSoftmax.lean ====
/-
  A row softmax as a vector unit spells it, read at an index — general in the extents.

  For an `n × m` matrix `a` over the extended reals: take each row's maximum (a fold of `max` from the accumulator's
  value), recast it as a column and spread it back over the row, subtract, exponentiate, sum each row, recast and spread
  the sums the same way, and divide.  At `(p, k)` the result is the softmax weight of column `k` in row `p`:
  `exp (a(p,k) − M) / Σₑ exp (a(p,e) − M)` with `M` the fold of `max` over row `p`.  (Needs the column recasts and the
  row sum of LibColumns, and the row maximum of LibRowMax, beside it.)
-/
import proofs.«127401_j75110388072633_2_alg».proof.Proof.LibColumns
import proofs.«127401_j75110388072633_2_alg».proof.Proof.LibRowMax
import Idealize.ShloMosaic.Lib.ValueIdx
import Idealize.ShloMosaic.PureOps.Ideal.Laws

noncomputable section

open scoped BigOperators

namespace Cert.LibRowSoftmax

open Idealize.ShloMosaic Idealize.ShloMosaic.ValueIdx

/-- The softmax weight of column `d` in a row of scores `s`, shifted by the fold of `max` over the row from `init`. -/
def weight {m : ℕ} (init : EReal) (s : Fin m → EReal) (d : Fin m) : EReal :=
  Ideal.div (Ideal.exp (s d - (Finset.univ : Finset (Fin m)).fold max init s))
    (∑ e : Fin m, Ideal.exp (s e - (Finset.univ : Finset (Fin m)).fold max init s))

/-- The row maximum of an `n × m` matrix, recast as a column and spread back over the row, reads at `(p, e)` the fold
    of `max` over row `p`. -/
theorem rowPeak_apply {n m : ℕ} {φ : FTy} (a : FVec Ideal ⟨2, ![n, m]⟩ φ) (accMax : BitVec φ.bits)
    (hred : (⟨2, ![n, m]⟩ : Shape).Reduces [1] ⟨1, ![n]⟩) (hφ : FKind.Formats φ)
    (hmax : accMax = FKind.maximumf.neutral φ hφ)
    (hcast : (⟨1, ![n]⟩ : Shape).ShapeCasts ⟨2, ![n, 1]⟩) (hbc : (⟨2, ![n, 1]⟩ : Shape).Broadcasts ⟨2, ![n, m]⟩)
    (p : Fin n) (e : Fin m) :
    broadcastTo ⟨2, ![n, m]⟩ (shapeCast ⟨2, ![n, 1]⟩ (multiReduction (F := Ideal) .maximumf [1] ⟨1, ![n]⟩ a accMax hred hφ hmax) hcast) hbc (ix2 p e)
      = (Finset.univ : Finset (Fin m)).fold max (Ideal.ofBits φ accMax) (fun k => a (ix2 p k)) :=
  (Cert.LibColumns.broadcastTo_a1_ab_apply _ hbc p e).trans
    ((Cert.LibColumns.shapeCast_a_a1_apply _ hcast p 0).trans (Cert.LibRowMax.rowMax_apply a accMax hred hφ hmax p))

/-- The row softmax — subtract the spread row maximum, exponentiate, divide by the spread row sum — reads, at `(p, k)`,
    the softmax weight of column `k` in row `p`. -/
theorem rowSoftmax_apply {n m : ℕ} {φ : FTy} (a : FVec Ideal ⟨2, ![n, m]⟩ φ) (accMax accSum : BitVec φ.bits)
    (hred : (⟨2, ![n, m]⟩ : Shape).Reduces [1] ⟨1, ![n]⟩) (hφ : FKind.Formats φ)
    (hmax : accMax = FKind.maximumf.neutral φ hφ) (hsum : accSum = FKind.add.neutral φ hφ)
    (hcast : (⟨1, ![n]⟩ : Shape).ShapeCasts ⟨2, ![n, 1]⟩) (hbc : (⟨2, ![n, 1]⟩ : Shape).Broadcasts ⟨2, ![n, m]⟩)
    (p : Fin n) (k : Fin m) :
    divf (exp (subf a (broadcastTo ⟨2, ![n, m]⟩ (shapeCast ⟨2, ![n, 1]⟩ (multiReduction (F := Ideal) .maximumf [1] ⟨1, ![n]⟩ a accMax hred hφ hmax) hcast) hbc)))
        (broadcastTo ⟨2, ![n, m]⟩ (shapeCast ⟨2, ![n, 1]⟩ (multiReduction (F := Ideal) .add [1] ⟨1, ![n]⟩
            (exp (subf a (broadcastTo ⟨2, ![n, m]⟩ (shapeCast ⟨2, ![n, 1]⟩ (multiReduction (F := Ideal) .maximumf [1] ⟨1, ![n]⟩ a accMax hred hφ hmax) hcast) hbc)))
            accSum hred hφ hsum) hcast) hbc) (ix2 p k)
      = weight (Ideal.ofBits φ accMax) (fun e => a (ix2 p e)) k := by
  have hw : ∀ e : Fin m, exp (subf a (broadcastTo ⟨2, ![n, m]⟩ (shapeCast ⟨2, ![n, 1]⟩ (multiReduction (F := Ideal) .maximumf [1] ⟨1, ![n]⟩ a accMax hred hφ hmax) hcast) hbc)) (ix2 p e)
      = Ideal.exp (a (ix2 p e) - (Finset.univ : Finset (Fin m)).fold max (Ideal.ofBits φ accMax) (fun k => a (ix2 p k))) :=
    fun e => congrArg (fun z => Ideal.exp (a (ix2 p e) - z)) (rowPeak_apply a accMax hred hφ hmax hcast hbc p e)
  refine congrArg₂ Ideal.div (hw k) ?_
  refine (Cert.LibColumns.broadcastTo_a1_ab_apply _ hbc p k).trans ?_
  refine (Cert.LibColumns.shapeCast_a_a1_apply _ hcast p 0).trans ?_
  refine (Cert.LibColumns.rowSum_apply _ accSum hred hφ hsum p).trans ?_
  exact Finset.sum_congr rfl fun e _ => hw e

end Cert.LibRowSoftmax

end
-- ==== Proof.Spec.lean ====
/-
  The last step of the classifier, as one function of a row of six scores on the extended reals.

  Both programs end with a softmax over a row of six logits: subtract the row's peak (the larger of −∞ and the
  fold of `max` from −∞ over the row, which is how both spell it), exponentiate, and divide by the sum of the six
  exponentials. `softRow z d` is entry `d` of that row.
-/
import Idealize.ShloMosaic.PureOps.Ideal
import Idealize.ShloMosaic.Lib.ValueIdx

noncomputable section

open scoped BigOperators

namespace Cert.Spec

open Idealize.ShloMosaic

/-- −∞, as the float word both programs start their maximum from. -/
def negInf : EReal := Ideal.ofBits .f32 0xFF800000#32

/-- The peak of a row of six scores: the larger of −∞ and the fold of `max` from −∞ over the row. -/
def peak (z : Fin 6 → EReal) : EReal := max negInf ((Finset.univ : Finset (Fin 6)).fold max negInf z)

/-- Entry `d` of the softmax of a row of six scores. -/
def softRow (z : Fin 6 → EReal) (d : Fin 6) : EReal :=
  Ideal.div (Ideal.exp (z d - peak z)) (∑ e : Fin 6, Ideal.exp (z e - peak z))

end Cert.Spec

end
-- ==== Proof.KI.R2ValA.lean ====
/- Region 2 (the classifier) on the extended reals, point by point: the accumulation's step, the epilogue and the
   windows' blocks read at an entry, and the accumulator after point t — entry by entry, the products of the
   first t + 1 blocks of 12800 contraction positions. -/
import proofs.«127401_j75110388072633_2_alg».proof.Proof.KI.R2Eqs
import proofs.«127401_j75110388072633_2_alg».proof.Proof.LibAccum
import proofs.«127401_j75110388072633_2_alg».proof.Proof.LibRowSoftmax
import proofs.«127401_j75110388072633_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.LibBlockSum Cert.LibAccum
open scoped BigOperators

/-! ## The accumulation's step read at an entry -/

/-- One step of the accumulation read at an entry. -/
theorem k2_pay2_apply (x0 : Vec Ideal S1x12800 .f32) (x1 : Vec Ideal S12800x6 .f32) (acc : Vec Ideal S1x6 .f32) (q : Fin 6) :
    (k2_pay2 x0 x1 acc : S1x6.Idx → EReal) (ix2 0 q)
      = (acc (ix2 0 q) : EReal) + ∑ k : Fin 12800, (x0 (ix2 0 k) : EReal) * (x1 (ix2 k q) : EReal) := by
  unfold k2_pay2
  simp only [shapeCast_self]
  exact Cert.LibAccum.acc_matmul_apply (n := 1) (K := 12800) (M := 6) dot_S1x12800_S12800x6_S1x6_1_0_0_1_n_n rfl rfl
    (fun _ _ => rfl) (fun _ _ => rfl) (fun _ _ => rfl) (fun _ _ => rfl) none bitsLt_bf16_f32 x0 x1 acc 0 q

theorem k2_pay1_apply (i : S1x6.Idx) : (k2_pay1 (F := Ideal) : S1x6.Idx → EReal) i = 0 := by
  unfold k2_pay1
  simp only [shapeCast_self]
  exact Ideal.ofBits_zero_f32

/-! ## The epilogue read at an entry -/

/-- The row's peak, spread back over the row. -/
def pk6 (z : FVec Ideal S1x6 .f32) : FVec Ideal S1x6 .f32 :=
  broadcastTo S1x6 (shapeCast S1x1 (maximumf (broadcast S1 (Scalar.ofBits .f32 0xFF800000#32)) (multiReduction .maximumf [1] S1 z 0xFF800000#32 reduces_S1x6_S1 (.inl rfl) rfl)) shapeCasts_S1_S1x1) broadcasts_S1x1_S1x6

theorem pk6_apply (z : FVec Ideal S1x6 .f32) (e : Fin 6) :
    (pk6 z : S1x6.Idx → EReal) (ix2 0 e) = Cert.Spec.peak (fun k => z (ix2 0 k)) :=
  (Cert.LibColumns.broadcastTo_a1_ab_apply _ broadcasts_S1x1_S1x6 0 e).trans
    ((Cert.LibColumns.shapeCast_a_a1_apply _ shapeCasts_S1_S1x1 0 0).trans
      (congrArg (max (Ideal.ofBits .f32 0xFF800000#32)) (Cert.LibRowMax.rowMax_apply z 0xFF800000#32 reduces_S1x6_S1 (.inl rfl) rfl 0)))

/-- The shifted exponentials. -/
def ex6 (z : FVec Ideal S1x6 .f32) : FVec Ideal S1x6 .f32 := exp (subf z (pk6 z))

theorem ex6_apply (z : FVec Ideal S1x6 .f32) (e : Fin 6) :
    (ex6 z : S1x6.Idx → EReal) (ix2 0 e) = Ideal.exp (z (ix2 0 e) - Cert.Spec.peak (fun k => z (ix2 0 k))) :=
  congrArg (fun w => Ideal.exp (z (ix2 0 e) - w)) (pk6_apply z e)

/-- The softmax of a row of six as the vector unit spells it. -/
def sm6 (z : FVec Ideal S1x6 .f32) : FVec Ideal S1x6 .f32 :=
  divf (ex6 z) (broadcastTo S1x6 (shapeCast S1x1 (multiReduction .add [1] S1 (ex6 z) 0x00000000#32 reduces_S1x6_S1 (.inl rfl) rfl) shapeCasts_S1_S1x1) broadcasts_S1x1_S1x6)

theorem sm6_apply (z : FVec Ideal S1x6 .f32) (q : Fin 6) :
    (sm6 z : S1x6.Idx → EReal) (ix2 0 q) = Cert.Spec.softRow (fun e => z (ix2 0 e)) q := by
  unfold sm6 Cert.Spec.softRow
  rw [divf_apply]
  refine congrArg₂ Ideal.div (ex6_apply z q) ?_
  refine (Cert.LibColumns.broadcastTo_a1_ab_apply _ broadcasts_S1x1_S1x6 0 q).trans ?_
  refine (Cert.LibColumns.shapeCast_a_a1_apply _ shapeCasts_S1_S1x1 0 0).trans ?_
  refine (Cert.LibColumns.rowSum_apply _ 0x00000000#32 reduces_S1x6_S1 (.inl rfl) rfl 0).trans ?_
  exact Finset.sum_congr rfl fun e _ => ex6_apply z e

theorem k2_pay3_eq (v17 v18 : Vec Ideal S1x6 .f32) : k2_pay3 v17 v18 = sm6 (addf v17 v18) := by
  unfold k2_pay3
  simp only [shapeCast_self]
  rfl

/-- The epilogue at an entry: the softmax of the accumulator plus the bias. -/
theorem k2_pay3_apply (v17 v18 : Vec Ideal S1x6 .f32) (q : Fin 6) :
    (k2_pay3 v17 v18 : S1x6.Idx → EReal) (ix2 0 q)
      = Cert.Spec.softRow (fun e => (v17 (ix2 0 e) : EReal) + (v18 (ix2 0 e) : EReal)) q := by
  rw [k2_pay3_eq]
  exact sm6_apply (addf v17 v18) q

/-! ## The windows' blocks at an entry -/

section Region2
variable (V : (c : Dev nD) → (b : Ref sig .tc) → Buf (Elt Ideal) ((c : Thread nD τ).loc b))

/-- The activations, the weights and the bias as the region finds them, as arrays of extended reals. -/
abbrev hArr2 (c : Dev nD) : (⟨2, ![1, 3200000]⟩ : Shape).Idx → EReal := V c main_v65
abbrev wArr2 (c : Dev nD) : (⟨2, ![3200000, 6]⟩ : Shape).Idx → EReal := V c main_arg6
abbrev bArr2 (c : Dev nD) : (⟨2, ![1, 6]⟩ : Shape).Idx → EReal := V c main_v66

theorem idx2_0 : ∀ t : Fin grid2.N, win2_0.index t 0 = 0 ∧ win2_0.index t 1 = t.val := by decide +kernel
theorem idx2_1 : ∀ t : Fin grid2.N, win2_1.index t 0 = t.val ∧ win2_1.index t 1 = 0 := by decide +kernel
theorem idx2_2 : ∀ t : Fin grid2.N, win2_2.index t 0 = 0 ∧ win2_2.index t 1 = 0 := by decide +kernel

/-- Entry `kk` of the activations' block at point `t` is the array's at position 12800 · t + kk. -/
theorem iblk2_0_apply (c : Dev nD) (t : Fin cfg2.N) (kk : Fin 12800) :
    (iblk2 V c 0 t : S1x12800.Idx → EReal) (ix2 0 kk)
      = ext2 (hArr2 V c) 0 (12800 * t.val + kk.val) := by
  have hi := idx2_0 t
  have ht : t.val < 250 := lt_of_lt_of_eq t.isLt (show cfg2.N = 250 from N_2)
  have hk := kk.isLt
  rw [ext2_of_lt (hArr2 V c) (by omega) (by omega)]
  unfold iblk2
  rw [View.read_apply]
  show (V c main_v65 : S1x3200000.Idx → EReal) _ = _
  congr 1
  funext a
  apply Fin.ext
  match a with
  | ⟨0, _⟩ => show win2_0.index t 0 * 1 + 1 * 0 = 0; rw [hi.1]
  | ⟨1, _⟩ => show win2_0.index t 1 * 12800 + 1 * kk.val = 12800 * t.val + kk.val; rw [hi.2]; omega

/-- Entry (kk, q) of the weights' block at point `t` is the array's at row 12800 · t + kk. -/
theorem iblk2_1_apply (c : Dev nD) (t : Fin cfg2.N) (kk : Fin 12800) (q : Fin 6) :
    (iblk2 V c 1 t : S12800x6.Idx → EReal) (ix2 kk q)
      = ext2 (wArr2 V c) (12800 * t.val + kk.val) q.val := by
  have hi := idx2_1 t
  have ht : t.val < 250 := lt_of_lt_of_eq t.isLt (show cfg2.N = 250 from N_2)
  have hk := kk.isLt
  rw [ext2_of_lt (wArr2 V c) (by omega) q.isLt]
  unfold iblk2
  rw [View.read_apply]
  show (V c main_arg6 : S3200000x6.Idx → EReal) _ = _
  congr 1
  funext a
  apply Fin.ext
  match a with
  | ⟨0, _⟩ => show win2_1.index t 0 * 12800 + 1 * kk.val = 12800 * t.val + kk.val; rw [hi.1]; omega
  | ⟨1, _⟩ => show win2_1.index t 1 * 6 + 1 * q.val = q.val; rw [hi.2]; omega

/-- The bias block is the whole array. -/
theorem iblk2_2_apply (c : Dev nD) (t : Fin cfg2.N) (e : Fin 6) :
    (iblk2 V c 2 t : S1x6.Idx → EReal) (ix2 0 e) = (V c main_v66 : S1x6.Idx → EReal) (ix2 0 e) := by
  have hi := idx2_2 t
  unfold iblk2
  rw [View.read_apply]
  show (V c main_v66 : S1x6.Idx → EReal) _ = _
  congr 1
  funext a
  apply Fin.ext
  match a with
  | ⟨0, _⟩ => show win2_2.index t 0 * 1 + 1 * 0 = 0; rw [hi.1]
  | ⟨1, _⟩ => show win2_2.index t 1 * 6 + 1 * e.val = e.val; rw [hi.2]; omega

/-! ## The accumulator point by point -/

/-- The accumulator after point `n`, entry by entry: the products over the first `n + 1` blocks. -/
theorem acc2_apply (c : Dev nD) (q : Fin 6) : ∀ (n : ℕ) (hn : n < cfg2.N),
    ((outsAt2 V c n hn).2 : S1x6.Idx → EReal) (ix2 0 q) = partialDot (hArr2 V c) (wArr2 V c) 12800 0 q.val (n + 1)
  | 0, hn => by
    rw [acc2_zero, k2_pay2_apply, k2_pay1_apply, partialDot_one]
    refine congrArg (0 + ·) (Finset.sum_congr rfl fun kk _ => ?_)
    rw [iblk2_0_apply, iblk2_1_apply]
  | n + 1, hn => by
    rw [acc2_succ, k2_pay2_apply, acc2_apply c q n]
    rw [partialDot_succ (hArr2 V c) (wArr2 V c) 12800 0 q.val (n + 1)]
    refine congrArg (fun z : EReal => partialDot (hArr2 V c) (wArr2 V c) 12800 0 q.val (n + 1) + z) (Finset.sum_congr rfl fun kk _ => ?_)
    rw [iblk2_0_apply, iblk2_1_apply]

end Region2

end Cert.KernelIdeal.Hand

end
-- ==== Proof.KI.R2Value.lean ====
/- Region 2 (the classifier) on the extended reals: what its result array ends holding. After all 250 blocks
   the accumulator is the whole product's entry; the last point adds the bias, takes the row's softmax and stores
   it, and that one block is the whole result array. -/
import proofs.«127401_j75110388072633_2_alg».proof.Proof.KI.R2ValA

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.LibBlockSum Cert.LibAccum
open scoped BigOperators

-- the contents after a point enter only through their equations
attribute [local irreducible] outsAt2 dat2

section Region2
variable (V : (c : Dev nD) → (b : Ref sig .tc) → Buf (Elt Ideal) ((c : Thread nD τ).loc b))

/-! ## The last point -/

/-- At the point at position 249 the output's block holds the epilogue of the accumulator there and the bias. -/
theorem out2_at_last (c : Dev nD) (t : Fin cfg2.N) (h : t.val = 249) :
    (outsAt2 V c t.val t.isLt).1 = k2_pay3 (outsAt2 V c t.val t.isLt).2 (iblk2 V c 2 t) := by
  rw [outsAt2_C V c t (by omega) h]
  dsimp only
  rw [out2_C_eq, sout2_C_eq]

/-- So there, entry by entry, it holds the softmax of the whole product's row plus the bias. -/
theorem after2_3_apply (c : Dev nD) (t : Fin cfg2.N) (h : t.val = 249) (q : Fin 6) :
    ((dat2 V c).after 3 t : S1x6.Idx → EReal) (ValueIdx.ix2 0 q)
      = Cert.Spec.softRow (fun e : Fin 6 => (∑ k : Fin 3200000, hArr2 V c (ix2 0 k) * wArr2 V c (ix2 k e)) + bArr2 V c (ix2 0 e)) q := by
  rw [after2_3, out2_at_last V c t h, k2_pay3_apply]
  refine congrArg (fun f => Cert.Spec.softRow f q) (funext fun e => ?_)
  rw [acc2_apply V c e t.val t.isLt, iblk2_2_apply, h]
  have hfull := partialDot_full (hArr2 V c) (wArr2 V c) 12800 250 (by norm_num) (0 : Fin 1) e
  exact congrArg (fun z : EReal => z + bArr2 V c (ix2 0 e)) hfull

/-! ## The result array -/

/-- The last point. -/
abbrev t2_last : Fin cfg2.N := ⟨249, by rw [show cfg2.N = 250 from N_2]; decide⟩

/-- What the last point leaves in the output's block, as contents of the result array (its one block is the array). -/
abbrev result2 (c : Dev nD) : Buf (Elt Ideal) ((c : Thread nD τ).loc main_v67) := (dat2 V c).after 3 t2_last

theorem idx2_3 : ∀ t : Fin grid2.N, win2_3.index t 0 = 0 ∧ win2_3.index t 1 = 0 := by decide +kernel

/-- Block (0, 0) of the [1,6] result array, read through zero offsets, is the array — at any point `t` and for
    any contents `X`. -/
theorem cut2_3_eq (c : Dev nD) (t : Fin cfg2.N) (X : Vec Ideal S1x6 .f32) :
    (cfg2.win 3).cut (grid2.coords t) X
      = ((cfg2.win 3).blk t).view.read (Elt Ideal) (X : Buf (Elt Ideal) ((c : Thread nD τ).loc main_v67)) := by
  have hi := idx2_3 t
  have hz' : (fun a => win2_3.index t a * main_v67.ty.shape.size a) = fun _ => 0 := funext fun a => by
    match a with
    | ⟨0, _⟩ => show win2_3.index t 0 * 1 = 0; rw [hi.1]
    | ⟨1, _⟩ => show win2_3.index t 1 * 6 = 0; rw [hi.2]
  exact (Memref.read_access_unit_zero (Elt Ideal) main_v67 hz' (fun a => by rw [congrFun hz' a]; simp) X).symm

/-- The one write-back, at the last point, writes what that point stored. -/
theorem flushed2_eq (c : Dev nD) (t : Fin cfg2.N) (hf : (cfg2.win 3).flush t = true) :
    (dat2 V c).flushed 3 t = ((cfg2.win 3).blk t).view.read (Elt Ideal) (result2 V c) := by
  have h3 : t.val = 249 := by
    have h := (flush2_3 t).mp hf
    have hlt : t.val < 250 := lt_of_lt_of_eq t.isLt (show cfg2.N = 250 from N_2)
    clear hf
    omega
  obtain rfl : t = t2_last := Fin.ext h3
  exact cut2_3_eq c t2_last _

/-- So the result array ends holding what the last point stored. -/
theorem final2 (c : Dev nD) : (dat2 V c).arrAt 3 cfg2.N = result2 V c :=
  (dat2 V c).arrAt_eq_of_cover 3 (result2 V c) (flushed2_eq V c) fun i =>
    ⟨t2_last, (flush2_3 t2_last).mpr rfl, by
      show i ∈ ((View.whole main_v67).slice (win2_3.rect t2_last)).set
      rw [View.set_slice_whole, Rect.mem_set_unit]
      intro a
      have h0 : (i 0 : Nat) < 1 := (i 0).isLt
      have h1 : (i 1 : Nat) < 6 := (i 1).isLt
      match a with
      | ⟨0, _⟩ => show win2_3.index t2_last 0 * win2_3.size 0 ≤ (i 0 : Nat) ∧ (i 0 : Nat) < win2_3.index t2_last 0 * win2_3.size 0 + win2_3.xsize (grid2.coords t2_last) 0
                  rw [show win2_3.index t2_last 0 * win2_3.size 0 = 0 from by decide +kernel, show win2_3.xsize (grid2.coords t2_last) 0 = 1 from by decide +kernel]; omega
      | ⟨1, _⟩ => show win2_3.index t2_last 1 * win2_3.size 1 ≤ (i 1 : Nat) ∧ (i 1 : Nat) < win2_3.index t2_last 1 * win2_3.size 1 + win2_3.xsize (grid2.coords t2_last) 1
                  rw [show win2_3.index t2_last 1 * win2_3.size 1 = 0 from by decide +kernel, show win2_3.xsize (grid2.coords t2_last) 1 = 6 from by decide +kernel]; omega⟩

end Region2

/-- THE VALUE of region 2: entry `q` of its result array is the softmax, over the row of six, of the whole
    product's entries plus the bias. -/
theorem arr2_apply (V : (c : Dev nD) → (b : Ref sig .tc) → Buf (Elt Ideal) ((c : Thread nD τ).loc b)) (c : Dev nD) (q : Fin 6) :
    ((dat2 (F := Ideal) V c).arrAt 3 cfg2.N : S1x6.Idx → EReal) (ValueIdx.ix2 0 q)
      = Cert.Spec.softRow (fun e : Fin 6 => (∑ k : Fin 3200000, hArr2 V c (ix2 0 k) * wArr2 V c (ix2 k e)) + bArr2 V c (ix2 0 e)) q := by
  rw [final2]
  exact after2_3_apply V c t2_last rfl q

/-- The same with the three arrays named as functions on the extended reals (each is the region-entry contents of its
    buffer, by `rfl`). -/
theorem arr2_apply_of (V : (c : Dev nD) → (b : Ref sig .tc) → Buf (Elt Ideal) ((c : Thread nD τ).loc b)) (c : Dev nD) (q : Fin 6)
    (h : S1x3200000.Idx → EReal) (w : S3200000x6.Idx → EReal) (b : S1x6.Idx → EReal)
    (hh : h = V c main_v65) (hw : w = V c main_arg6) (hb : b = V c main_v66) :
    ((dat2 (F := Ideal) V c).arrAt 3 cfg2.N : S1x6.Idx → EReal) (ValueIdx.ix2 0 q)
      = Cert.Spec.softRow (fun e : Fin 6 => (∑ k : Fin 3200000, h (ValueIdx.ix2 0 k) * w (ValueIdx.ix2 k e)) + b (ValueIdx.ix2 0 e)) q := by
  subst hh hw hb
  exact arr2_apply V c q

end Cert.KernelIdeal.Hand

end
-- ==== Proof.KI.R0Value.lean ====
import proofs.«127401_j75110388072633_2_alg».proof.Proof.KI.R0
import proofs.«127401_j75110388072633_2_alg».proof.Proof.LibPlainDot
import Idealize.ShloMosaic.Lib.Pipeline.Value
import Idealize.ShloMosaic.Lib.ValueIdx
import Idealize.ShloMosaic.PureOps.Ideal.Laws

/-! # Region 0's result array on the extended reals

After region 0 the result array holds, at entry (p, q), the sum over the contracted coordinate of the left
operand's row p against the right operand's column q: each grid point writes back the product of its row block
with the whole right operand, which is the same rows of the whole product, and the ten row blocks cover the array. -/

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The zero offset of a whole-buffer access. -/
theorem hz0 : (![0, 0] : Fin 2 → Nat) = fun _ => 0 := funext fun a => by fin_cases a <;> rfl

/-- The whole product: entry `i` is row `i 0` of the left operand against column `i 1` of the right one. -/
def G0 (a0 : S50000x128.Idx → EReal) (a2 : S128x64.Idx → EReal) : S50000x64.Idx → EReal :=
  fun i => ∑ k : Fin 128, a0 (ix2 (i 0) k) * a2 (ix2 k (i 1))

/-- The body's one store, over the whole output block, of blocks read whole, leaves the payload of the blocks. -/
theorem out0_2_eq {F : FTy → Type} [FloatOps F] (x0 : Vec F S5000x128 .f32) (x1 : Vec F S128x64 .f32) :
    out0_2 x0 x1 = k0_pay1 x0 x1 := by
  unfold out0_2
  rw [View.canon_unit_zero hz0]
  simp only [View.ld_unit_zero (S := S5000x128) hz0, View.ld_unit_zero (S := S128x64) hz0]

/-- The payload at an entry: rounding to the narrower format is the identity on the extended reals, and the product
    into the zero accumulator is the sum over the contracted coordinate. -/
theorem pay0_apply (x0 : Vec Ideal S5000x128 .f32) (x1 : Vec Ideal S128x64 .f32) (p : Fin 5000) (q : Fin 64) :
    (k0_pay1 x0 x1 : S5000x64.Idx → EReal) (ix2 p q) = ∑ k : Fin 128, (x0 (ix2 p k) : EReal) * (x1 (ix2 k q) : EReal) := by
  unfold k0_pay1
  exact Cert.PlainDot.matmul_zero_apply dot_S5000x128_S128x64_S5000x64_1_0_0_1_n_n rfl rfl
    (fun _ _ => rfl) (fun _ _ => rfl) (fun _ _ => rfl) (fun _ _ => rfl) none _ _ p q

/-- A row block's product is the same rows of the whole product: when `x0` is rows `n · 5000 …` of `a0` (read
    through `e0`) and `x1` is all of `a2` (read through `e1`), the payload at block entry `j` is the whole product at
    the array entry `i` that `j` sits at. -/
theorem pay0_block (x0 : Vec Ideal S5000x128 .f32) (x1 : Vec Ideal S128x64 .f32)
    (a0 : S50000x128.Idx → EReal) (a2 : S128x64.Idx → EReal)
    (e0 : S5000x128.Idx → S50000x128.Idx) (e1 : S128x64.Idx → S128x64.Idx)
    (hx0 : ∀ y, x0 y = a0 (e0 y)) (hx1 : ∀ y, x1 y = a2 (e1 y)) (n : ℕ)
    (h00 : ∀ y, (e0 y 0).val = n * 5000 + (y 0).val) (h01 : ∀ y, (e0 y 1).val = (y 1).val)
    (h10 : ∀ y, (e1 y 0).val = (y 0).val) (h11 : ∀ y, (e1 y 1).val = (y 1).val)
    (j : S5000x64.Idx) (i : S50000x64.Idx) (hi0 : (i 0).val = n * 5000 + (j 0).val) (hi1 : (i 1).val = (j 1).val) :
    (k0_pay1 x0 x1 : S5000x64.Idx → EReal) j = G0 a0 a2 i := by
  obtain ⟨p, q, rfl⟩ : ∃ (p : Fin 5000) (q : Fin 64), j = ix2 p q := ⟨j 0, j 1, eq_ix2 j⟩
  rw [pay0_apply]
  unfold G0
  refine Finset.sum_congr rfl fun k _ => ?_
  rw [hx0, hx1]
  have E0 : e0 (ix2 p k) = ix2 (i 0) k := funext fun a => Fin.ext (by
    match a with
    | ⟨0, _⟩ => exact (h00 _).trans hi0.symm
    | ⟨1, _⟩ => exact h01 _)
  have E1 : e1 (ix2 k q) = ix2 k (i 1) := funext fun a => Fin.ext (by
    match a with
    | ⟨0, _⟩ => exact h10 _
    | ⟨1, _⟩ => exact (h11 _).trans hi1.symm)
  rw [E0, E1]
  rfl

/-- The printed index maps over the grid: at point `t` the left operand's and the result's windows are at row block
    `t`, column block 0; the right operand's window is at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the operand arrays as the region finds them. -/
theorem flushed0_eq (c : Dev nD) (t : Fin cfg0.N) :
    (dat0 (F := Ideal) V c).flushed 2 t
      = ((cfg0.win 2).blk t).view.read (Elt Ideal) (G0 (V c main_arg0) (V c main_arg2)) := by
  show (cfg0.win 2).cut (grid0.coords t) ((dat0 V c).after 2 t) = _
  rw [after0_2, out0_2_eq]
  obtain ⟨f00, f01, f10, f11, f20, f21⟩ := idx_facts0 t
  funext j
  refine pay0_block (iblk0 V c 0 t) (iblk0 V c 1 t) (V c main_arg0) (V c main_arg2)
    (fun y => ((cfg0.win 0).blk t).view.emb y) (fun y => ((cfg0.win 1).blk t).view.emb y)
    (fun _ => rfl) (fun _ => rfl) t.val ?_ ?_ ?_ ?_ j (((cfg0.win 2).blk t).view.emb j) ?_ ?_
  · intro y; show win0_0.index t (0 : Fin 2) * 5000 + 1 * (y 0).val = _; rw [f00]; omega
  · intro y; show win0_0.index t (1 : Fin 2) * 128 + 1 * (y 1).val = _; rw [f01]; omega
  · intro y; show win0_1.index t (0 : Fin 2) * 128 + 1 * (y 0).val = _; rw [f10]; omega
  · intro y; show win0_1.index t (1 : Fin 2) * 64 + 1 * (y 1).val = _; rw [f11]; omega
  · show win0_2.index t (0 : Fin 2) * 5000 + 1 * (j 0).val = _; rw [f20]; omega
  · show win0_2.index t (1 : Fin 2) * 64 + 1 * (j 1).val = _; rw [f21]; omega

/-- An entry of the array is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Row `r` of the array is in the block of point `r / 5000`, which is written back. -/
theorem cover0 (i : S50000x64.Idx) :
    ∃ t : Fin cfg0.N, (cfg0.win 2).flush t = true ∧ i ∈ ((cfg0.win 2).blk t).view.set := by
  have hi0 : (i 0).val < 50000 := idx2_lt0 i
  have hi1 : (i 1).val < 64 := idx2_lt1 i
  have hN : cfg0.N = 10 := N_0
  have ht : (i 0).val / 5000 < cfg0.N := by rw [hN]; omega
  refine ⟨⟨(i 0).val / 5000, ht⟩, flush0_2 _, ?_⟩
  rw [mem_blk0]
  obtain ⟨-, -, -, -, f20, f21⟩ := idx_facts0 ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [f20]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [f21]; omega

/-- The result array after the region is the whole product of the operand arrays as the region finds them. -/
theorem arr0_eq (c : Dev nD) : (dat0 (F := Ideal) V c).arrAt 2 cfg0.N = G0 (V c main_arg0) (V c main_arg2) :=
  (dat0 (F := Ideal) V c).arrAt_eq_of_cover 2 (G0 (V c main_arg0) (V c main_arg2)) (fun t _ => flushed0_eq V c t) cover0

/-- Entry (p, q) of the result array after the region, over any names `a0`, `a2` for the operand arrays as the
    region finds them. -/
theorem arr0_apply_of (c : Dev nD) (a0 : S50000x128.Idx → EReal) (a2 : S128x64.Idx → EReal)
    (h0 : V c main_arg0 = a0) (h2 : V c main_arg2 = a2) (p : Fin 50000) (q : Fin 64) :
    ((dat0 (F := Ideal) V c).arrAt 2 cfg0.N : S50000x64.Idx → EReal) (ix2 p q)
      = ∑ k : Fin 128, a0 (ix2 p k) * a2 (ix2 k q) := by
  subst h0 h2
  exact congrFun (arr0_eq V c) (ix2 p q)

/-- Entry (p, q) of the result array after the region: row p of the left operand against column q of the right
    operand, both as the region finds them. -/
theorem arr0_apply (c : Dev nD) (p : Fin 50000) (q : Fin 64) :
    ((dat0 (F := Ideal) V c).arrAt 2 cfg0.N : S50000x64.Idx → EReal) (ix2 p q)
      = Finset.sum (M := EReal) Finset.univ fun k : Fin 128 =>
          HMul.hMul (α := EReal) (β := EReal) (γ := EReal) (V c main_arg0 (ix2 p k)) (V c main_arg2 (ix2 k q)) :=
  arr0_apply_of V c _ _ rfl rfl p q

end Cert.KernelIdeal.Hand

end
-- ==== Proof.KI.R1Value.lean ====
import proofs.«127401_j75110388072633_2_alg».proof.Proof.KI.R1
import proofs.«127401_j75110388072633_2_alg».proof.Proof.LibPlainDot
import Idealize.ShloMosaic.Lib.Pipeline.Value
import Idealize.ShloMosaic.Lib.ValueIdx
import Idealize.ShloMosaic.PureOps.Ideal.Laws

/-! # Region 1's result array on the extended reals

After region 1 the result array holds, at entry (p, q), the sum over the contracted coordinate of the left
operand's row p against the right operand's column q: each grid point writes back the product of its row block
with the whole right operand, which is the same rows of the whole product, and the ten row blocks cover the array. -/

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The zero offset of a whole-buffer access. -/
theorem hz1 : (![0, 0] : Fin 2 → Nat) = fun _ => 0 := funext fun a => by fin_cases a <;> rfl

/-- The whole product: entry `i` is row `i 0` of the left operand against column `i 1` of the right one. -/
def G1 (a0 : S50000x64.Idx → EReal) (a2 : S64x64.Idx → EReal) : S50000x64.Idx → EReal :=
  fun i => ∑ k : Fin 64, a0 (ix2 (i 0) k) * a2 (ix2 k (i 1))

/-- The body's one store, over the whole output block, of blocks read whole, leaves the payload of the blocks. -/
theorem out1_2_eq {F : FTy → Type} [FloatOps F] (x0 : Vec F S5000x64 .f32) (x1 : Vec F S64x64 .f32) :
    out1_2 x0 x1 = k1_pay1 x0 x1 := by
  unfold out1_2
  rw [View.canon_unit_zero hz1]
  simp only [View.ld_unit_zero (S := S5000x64) hz1, View.ld_unit_zero (S := S64x64) hz1]

/-- The payload at an entry: the cast to the same shape is the identity, rounding to the narrower format is the
    identity on the extended reals, and the product
    into the zero accumulator is the sum over the contracted coordinate. -/
theorem pay1_apply (x0 : Vec Ideal S5000x64 .f32) (x1 : Vec Ideal S64x64 .f32) (p : Fin 5000) (q : Fin 64) :
    (k1_pay1 x0 x1 : S5000x64.Idx → EReal) (ix2 p q) = ∑ k : Fin 64, (x0 (ix2 p k) : EReal) * (x1 (ix2 k q) : EReal) := by
  unfold k1_pay1
  rw [shapeCast_self]
  exact Cert.PlainDot.matmul_zero_apply dot_S5000x64_S64x64_S5000x64_1_0_0_1_n_n rfl rfl
    (fun _ _ => rfl) (fun _ _ => rfl) (fun _ _ => rfl) (fun _ _ => rfl) none _ _ p q

/-- A row block's product is the same rows of the whole product: when `x0` is rows `n · 5000 …` of `a0` (read
    through `e0`) and `x1` is all of `a2` (read through `e1`), the payload at block entry `j` is the whole product at
    the array entry `i` that `j` sits at. -/
theorem pay1_block (x0 : Vec Ideal S5000x64 .f32) (x1 : Vec Ideal S64x64 .f32)
    (a0 : S50000x64.Idx → EReal) (a2 : S64x64.Idx → EReal)
    (e0 : S5000x64.Idx → S50000x64.Idx) (e1 : S64x64.Idx → S64x64.Idx)
    (hx0 : ∀ y, x0 y = a0 (e0 y)) (hx1 : ∀ y, x1 y = a2 (e1 y)) (n : ℕ)
    (h00 : ∀ y, (e0 y 0).val = n * 5000 + (y 0).val) (h01 : ∀ y, (e0 y 1).val = (y 1).val)
    (h10 : ∀ y, (e1 y 0).val = (y 0).val) (h11 : ∀ y, (e1 y 1).val = (y 1).val)
    (j : S5000x64.Idx) (i : S50000x64.Idx) (hi0 : (i 0).val = n * 5000 + (j 0).val) (hi1 : (i 1).val = (j 1).val) :
    (k1_pay1 x0 x1 : S5000x64.Idx → EReal) j = G1 a0 a2 i := by
  obtain ⟨p, q, rfl⟩ : ∃ (p : Fin 5000) (q : Fin 64), j = ix2 p q := ⟨j 0, j 1, eq_ix2 j⟩
  rw [pay1_apply]
  unfold G1
  refine Finset.sum_congr rfl fun k _ => ?_
  rw [hx0, hx1]
  have E0 : e0 (ix2 p k) = ix2 (i 0) k := funext fun a => Fin.ext (by
    match a with
    | ⟨0, _⟩ => exact (h00 _).trans hi0.symm
    | ⟨1, _⟩ => exact h01 _)
  have E1 : e1 (ix2 k q) = ix2 k (i 1) := funext fun a => Fin.ext (by
    match a with
    | ⟨0, _⟩ => exact h10 _
    | ⟨1, _⟩ => exact (h11 _).trans hi1.symm)
  rw [E0, E1]
  rfl

/-- The printed index maps over the grid: at point `t` the left operand's and the result's windows are at row block
    `t`, column block 0; the right operand's window is at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole product of the operand arrays as the region finds them. -/
theorem flushed1_eq (c : Dev nD) (t : Fin cfg1.N) :
    (dat1 (F := Ideal) V c).flushed 2 t
      = ((cfg1.win 2).blk t).view.read (Elt Ideal) (G1 (V c main_v47) (V c main_arg4)) := by
  show (cfg1.win 2).cut (grid1.coords t) ((dat1 V c).after 2 t) = _
  rw [after1_2, out1_2_eq]
  obtain ⟨f00, f01, f10, f11, f20, f21⟩ := idx_facts1 t
  funext j
  refine pay1_block (iblk1 V c 0 t) (iblk1 V c 1 t) (V c main_v47) (V c main_arg4)
    (fun y => ((cfg1.win 0).blk t).view.emb y) (fun y => ((cfg1.win 1).blk t).view.emb y)
    (fun _ => rfl) (fun _ => rfl) t.val ?_ ?_ ?_ ?_ j (((cfg1.win 2).blk t).view.emb j) ?_ ?_
  · intro y; show win1_0.index t (0 : Fin 2) * 5000 + 1 * (y 0).val = _; rw [f00]; omega
  · intro y; show win1_0.index t (1 : Fin 2) * 64 + 1 * (y 1).val = _; rw [f01]; omega
  · intro y; show win1_1.index t (0 : Fin 2) * 64 + 1 * (y 0).val = _; rw [f10]; omega
  · intro y; show win1_1.index t (1 : Fin 2) * 64 + 1 * (y 1).val = _; rw [f11]; omega
  · show win1_2.index t (0 : Fin 2) * 5000 + 1 * (j 0).val = _; rw [f20]; omega
  · show win1_2.index t (1 : Fin 2) * 64 + 1 * (j 1).val = _; rw [f21]; omega

/-- An entry of the array is in point `t`'s block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Row `r` of the array is in the block of point `r / 5000`, which is written back. -/
theorem cover1 (i : S50000x64.Idx) :
    ∃ t : Fin cfg1.N, (cfg1.win 2).flush t = true ∧ i ∈ ((cfg1.win 2).blk t).view.set := by
  have hi0 : (i 0).val < 50000 := idx2_lt0 i
  have hi1 : (i 1).val < 64 := idx2_lt1 i
  have hN : cfg1.N = 10 := N_1
  have ht : (i 0).val / 5000 < cfg1.N := by rw [hN]; omega
  refine ⟨⟨(i 0).val / 5000, ht⟩, flush1_2 _, ?_⟩
  rw [mem_blk1]
  obtain ⟨-, -, -, -, f20, f21⟩ := idx_facts1 ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [f20]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [f21]; omega

/-- The result array after the region is the whole product of the operand arrays as the region finds them. -/
theorem arr1_eq (c : Dev nD) : (dat1 (F := Ideal) V c).arrAt 2 cfg1.N = G1 (V c main_v47) (V c main_arg4) :=
  (dat1 (F := Ideal) V c).arrAt_eq_of_cover 2 (G1 (V c main_v47) (V c main_arg4)) (fun t _ => flushed1_eq V c t) cover1

/-- Entry (p, q) of the result array after the region, over any names `a0`, `a2` for the operand arrays as the
    region finds them. -/
theorem arr1_apply_of (c : Dev nD) (a0 : S50000x64.Idx → EReal) (a2 : S64x64.Idx → EReal)
    (h0 : V c main_v47 = a0) (h2 : V c main_arg4 = a2) (p : Fin 50000) (q : Fin 64) :
    ((dat1 (F := Ideal) V c).arrAt 2 cfg1.N : S50000x64.Idx → EReal) (ix2 p q)
      = ∑ k : Fin 64, a0 (ix2 p k) * a2 (ix2 k q) := by
  subst h0 h2
  exact congrFun (arr1_eq V c) (ix2 p q)

/-- Entry (p, q) of the result array after the region: row p of the left operand against column q of the right
    operand, both as the region finds them. -/
theorem arr1_apply (c : Dev nD) (p : Fin 50000) (q : Fin 64) :
    ((dat1 (F := Ideal) V c).arrAt 2 cfg1.N : S50000x64.Idx → EReal) (ix2 p q)
      = Finset.sum (M := EReal) Finset.univ fun k : Fin 64 =>
          HMul.hMul (α := EReal) (β := EReal) (γ := EReal) (V c main_v47 (ix2 p k)) (V c main_arg4 (ix2 k q)) :=
  arr1_apply_of V c _ _ rfl rfl p q

end Cert.KernelIdeal.Hand

end
-- ==== Proof.LibHostRowMax.lean ====
/-
  The host's largest entry of each row of a matrix, read at an index — general in the extents.

  A one-operand reduction with a maximum body along the second axis of an `n × m` matrix reads, at `p`, the fold of
  `max`, from the initial value, over the entries `(p, k)` of row `p`: over the extended reals `max` is commutative and
  associative, so the order of the fold does not matter.  (The host-side twin of the vector unit's row maximum.)
-/
import Idealize.ShloMosaic.Lib.ValueIdx
import Idealize.ShloMosaic.PureOps.Ideal.Laws

noncomputable section

namespace Cert.LibHostRowMax

open Idealize.ShloMosaic Idealize.ShloMosaic.ValueIdx

/-- Over the extended reals the host's reduction by `max` of an `n × m` matrix along its second axis reads, at `p`, the
    fold of `max` from the initial value over `k` of the entries `(p, k)`. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩)
    (hu : 0 < u.numel) (p : Fin n) :
    Host.reduce FloatOps.maximumf x init h' hu (ix1 p)
      = (Finset.univ : Finset (Fin m)).fold max (init (Shape.Idx.first hu)) (fun k : Fin m => x (ix2 p k)) := by
  refine (Host.reduce_eq_fold_single FloatOps.maximumf x init h' h hu (ix1 p)).trans ?_
  have hf : (x ∘ h.lift (ix1 p)) = fun k : Fin m => x (ix2 p k) := funext fun k => congrArg x
    (funext fun c => Fin.ext (by match c with | ⟨0, _⟩ => rfl | ⟨1, _⟩ => rfl))
  exact congrArg (fun f => Finset.fold max (init (Shape.Idx.first hu)) f (Finset.univ : Finset (Fin m))) hf

end Cert.LibHostRowMax

end
-- ==== Proof.RefValue.lean ====
/-
  The reference's side of the value claim, at the extended reals: its parts, named and read at an entry.

  The reference computes two graph-convolution layers, a classifier and a softmax. This module names the parts of
  that computation as functions of their operands — `layerR`, one layer after its matrix product (through the pieces
  `srcR`, `dstR`, `wrapR`, `degR`, `dinvR`, `normR`), and `tailR`, the softmax of the row of six logits (through
  `peakR`, `expR`) — each spelt with the host operations the reference's text uses, and reads the parts that are plain
  arithmetic at an entry: the three matrix products as sums over the contracted axis, the classifier's bias row, and
  the softmax tail as `Cert.Spec.softRow`. That the reference's result is the composition of these parts is
  `ref_term_eq` in the module RefTerm beside this one.
-/
import proofs.«127401_j75110388072633_2_alg».proof.Proof.Gen.ReferenceIdeal
import Idealize.ShloMosaic.Lib.Pipeline.Value
import Idealize.ShloMosaic.Lib.ValueIdx
import Idealize.ShloMosaic.PureOps.Ideal.Laws
import proofs.«127401_j75110388072633_2_alg».proof.Proof.LibPlainDot
import proofs.«127401_j75110388072633_2_alg».proof.Proof.LibHostRowMax
import proofs.«127401_j75110388072633_2_alg».proof.Proof.Spec

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo

/-! ## The softmax tail -/

/-- The row's peak, spread back over the row: the larger of −∞ and the fold of `max` from −∞ over the six logits. -/
def peakR (z : FVec Ideal S1x6 .f32) : FVec Ideal S1x6 .f32 :=
  broadcastInDim S1x6 ![0, 1] bcast_S1x1_S1x6_0_1 (broadcastInDim S1x1 ![0] bcast_S1_S1x1_0 (maximumf (broadcastInDim S1 ![] bcast_S_S1 (constant S_ .f32 0xFF800000#32)) (Host.reduce FloatOps.maximumf z (constant S_ .f32 0xFF800000#32) reducesTo_S1x6_S1_d1 h_S_)))

/-- The exponentials of the logits less their peak. -/
def expR (z : FVec Ideal S1x6 .f32) : FVec Ideal S1x6 .f32 :=
  Host.exp (subf z (peakR z))

/-- The softmax tail, as one function of the row of six logits: subtract the row's peak, exponentiate, divide by the
    sum of the six exponentials. -/
def tailR (z : FVec Ideal S1x6 .f32) : FVec Ideal S1x6 .f32 :=
  Host.divf (expR z) (broadcastInDim S1x6 ![0, 1] bcast_S1x1_S1x6_0_1 (broadcastInDim S1x1 ![0] bcast_S1_S1x1_0 (Host.reduceAdd (expR z) (constant S_ .f32 0x00000000#32) reducesTo_S1x6_S1_d1 h_S_)))

/-! ## One graph-convolution layer after its matrix product -/

/-- The edges' sources followed by the self-loops': row 0 of the edge list, then 0 … 49999. -/
def srcR (ei : (⟨S2x800000, .i32⟩ : BufTy).Contents (Elt Ideal)) : (⟨S850000, .i32⟩ : BufTy).Contents (Elt Ideal) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' destinations followed by the self-loops': row 1 of the edge list, then 0 … 49999. -/
def dstR (ei : (⟨S2x800000, .i32⟩ : BufTy).Contents (Elt Ideal)) : (⟨S850000, .i32⟩ : BufTy).Contents (Elt Ideal) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A gather's index normalisation: a negative index counts from the end. -/
def wrapR (v : (⟨S850000, .i32⟩ : BufTy).Contents (Elt Ideal)) : (⟨S850000, .i32⟩ : BufTy).Contents (Elt Ideal) :=
  select (cmpi .slt v (broadcastInDim S850000 ![] bcast_S_S850000 (constantI S_ 32 0#32))) (addi v (broadcastInDim S850000 ![] bcast_S_S850000 (constantI S_ 32 50000#32))) v

/-- The in-degrees, self-loops included: ones summed into the destinations. -/
def degR (ei : (⟨S2x800000, .i32⟩ : BufTy).Contents (Elt Ideal)) : FVec Ideal S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (dstR ei)) (broadcastInDim S850000 ![] bcast_S_S850000 (constant S_ .f32 0x3F800000#32))

/-- The inverse square roots of the positive in-degrees, zero elsewhere. -/
def dinvR (ei : (⟨S2x800000, .i32⟩ : BufTy).Contents (Elt Ideal)) : FVec Ideal S50000 .f32 :=
  select (cmpf .ogt (degR ei) (broadcastInDim S50000 ![] bcast_S_S50000 (constant S_ .f32 0x00000000#32))) (Host.rsqrt (degR ei)) (broadcastInDim S50000 ![] bcast_S_S50000 (id (constant S_ .f32 0x00000000#32)))

/-- Each edge's weight: the product of its two endpoints' factors. -/
def normR (ei : (⟨S2x800000, .i32⟩ : BufTy).Contents (Elt Ideal)) : FVec Ideal S850000 .f32 :=
  mulf (Host.gather gather_S50000_S850000x1_S850000_n_0_n_n_0_1_1 (dinvR ei) (broadcastInDim S850000x1 ![0] bcast_S850000_S850000x1_0 (wrapR (srcR ei)))) (Host.gather gather_S50000_S850000x1_S850000_n_0_n_n_0_1_1 (dinvR ei) (broadcastInDim S850000x1 ![0] bcast_S850000_S850000x1_0 (wrapR (dstR ei))))

/-- One layer after its matrix product `h`: the product's rows gathered at the sources, scaled by the edges' weights,
    summed into the destinations, plus the bias row `b`, clamped below at zero. -/
def layerR (h : FVec Ideal S50000x64 .f32) (ei : (⟨S2x800000, .i32⟩ : BufTy).Contents (Elt Ideal)) (b : FVec Ideal S64 .f32) : FVec Ideal S50000x64 .f32 :=
  maximumf (addf (Host.scatterAdd scatter_S50000x64_S850000x1_S850000x64_1_0_0_1 (broadcastInDim S50000x64 ![] bcast_S_S50000x64 (constant S_ .f32 0x00000000#32)) (broadcastInDim S850000x1 ![0] bcast_S850000_S850000x1_0 (dstR ei)) (mulf (Host.gather gather_S50000x64_S850000x1_S850000x64_1_0_n_n_0_1_164 h (broadcastInDim S850000x1 ![0] bcast_S850000_S850000x1_0 (wrapR (srcR ei)))) (broadcastInDim S850000x64 ![0, 1] bcast_S850000x1_S850000x64_0_1 (broadcastInDim S850000x1 ![0] bcast_S850000_S850000x1_0 (normR ei))))) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-! ## The three matrix products, read at an entry

Each product contracts the left operand's columns against the right operand's rows: at output entry `i` and
contraction position `q` the left index is `(i 0, q)` and the right index is `(q, i 1)` — four coordinate facts the
literal dimension numbers decide. -/

theorem dotR0_l0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem dotR0_l1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem dotR0_r0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem dotR0_r1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The first layer's product at entry (p, q): the sum over the 128 input features. -/
theorem dotR0_apply (x : FVec Ideal S50000x128 .f32) (w : FVec Ideal S128x64 .f32) (p : Fin 50000) (q : Fin 64) :
    Host.dotGeneral (F := Ideal) dot_S50000x128_S128x64_S50000x64_1_0_0_1_n_n none x w (ValueIdx.ix2 p q)
      = ∑ k : Fin 128, (x (ValueIdx.ix2 p k) : EReal) * (w (ValueIdx.ix2 k q) : EReal) :=
  Cert.PlainDot.dotGeneral_apply dot_S50000x128_S128x64_S50000x64_1_0_0_1_n_n rfl rfl dotR0_l0 dotR0_l1 dotR0_r0 dotR0_r1 none _ x w p q

theorem dotR1_l0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dotR1_l1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem dotR1_r0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem dotR1_r1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The second layer's product at entry (p, q): the sum over the 64 hidden features. -/
theorem dotR1_apply (x : FVec Ideal S50000x64 .f32) (w : FVec Ideal S64x64 .f32) (p : Fin 50000) (q : Fin 64) :
    Host.dotGeneral (F := Ideal) dot_S50000x64_S64x64_S50000x64_1_0_0_1_n_n none x w (ValueIdx.ix2 p q)
      = ∑ k : Fin 64, (x (ValueIdx.ix2 p k) : EReal) * (w (ValueIdx.ix2 k q) : EReal) :=
  Cert.PlainDot.dotGeneral_apply dot_S50000x64_S64x64_S50000x64_1_0_0_1_n_n rfl rfl dotR1_l0 dotR1_l1 dotR1_r0 dotR1_r1 none _ x w p q

theorem dotR2_l0 (i : S1x6.Idx) (q : dot_S1x3200000_S3200000x6_S1x6_1_0_0_1_n_n.contr.Idx) : (dot_S1x3200000_S3200000x6_S1x6_1_0_0_1_n_n.lhsIdx i q 0).val = (i 0).val := by
  unfold DotDims.lhsIdx
  rw [dif_neg (show ¬(0 : Fin S1x3200000.rank) ∈ dot_S1x3200000_S3200000x6_S1x6_1_0_0_1_n_n.lhsBatch by decide), dif_pos (show (0 : Fin S1x3200000.rank) ∈ dot_S1x3200000_S3200000x6_S1x6_1_0_0_1_n_n.lhsNonContracting by decide)]
  rfl
theorem dotR2_l1 (i : S1x6.Idx) (q : dot_S1x3200000_S3200000x6_S1x6_1_0_0_1_n_n.contr.Idx) : (dot_S1x3200000_S3200000x6_S1x6_1_0_0_1_n_n.lhsIdx i q 1).val = (q ⟨0, by decide⟩).val :=
  dot_S1x3200000_S3200000x6_S1x6_1_0_0_1_n_n.lhsIdx_val_of_single rfl i q
theorem dotR2_r0 (i : S1x6.Idx) (q : dot_S1x3200000_S3200000x6_S1x6_1_0_0_1_n_n.contr.Idx) : (dot_S1x3200000_S3200000x6_S1x6_1_0_0_1_n_n.rhsIdx i q 0).val = (q ⟨0, by decide⟩).val :=
  dot_S1x3200000_S3200000x6_S1x6_1_0_0_1_n_n.rhsIdx_val_of_single rfl i q
theorem dotR2_r1 (i : S1x6.Idx) (q : dot_S1x3200000_S3200000x6_S1x6_1_0_0_1_n_n.contr.Idx) : (dot_S1x3200000_S3200000x6_S1x6_1_0_0_1_n_n.rhsIdx i q 1).val = (i 1).val := by
  unfold DotDims.rhsIdx
  rw [dif_neg (show ¬(1 : Fin S3200000x6.rank) ∈ dot_S1x3200000_S3200000x6_S1x6_1_0_0_1_n_n.rhsBatch by decide), dif_pos (show (1 : Fin S3200000x6.rank) ∈ dot_S1x3200000_S3200000x6_S1x6_1_0_0_1_n_n.rhsNonContracting by decide)]
  rfl

/-- The classifier's product at entry (p, q): the sum over the 3200000 flattened features. -/
theorem dotR2_apply (x : FVec Ideal S1x3200000 .f32) (w : FVec Ideal S3200000x6 .f32) (p : Fin 1) (q : Fin 6) :
    Host.dotGeneral (F := Ideal) dot_S1x3200000_S3200000x6_S1x6_1_0_0_1_n_n none x w (ValueIdx.ix2 p q)
      = ∑ k : Fin 3200000, (x (ValueIdx.ix2 p k) : EReal) * (w (ValueIdx.ix2 k q) : EReal) :=
  Cert.PlainDot.dotGeneral_apply dot_S1x3200000_S3200000x6_S1x6_1_0_0_1_n_n rfl rfl dotR2_l0 dotR2_l1 dotR2_r0 dotR2_r1 none _ x w p q

/-! ## The classifier's bias row, read at an entry -/

/-- The bias vector spread to a row of six reads, at (0, q), the vector's entry q. -/
theorem biasR_apply (a7 : FVec Ideal S6 .f32) (q : Fin 6) :
    broadcastInDim S1x6 ![1] bcast_S6_S1x6_1 a7 (ValueIdx.ix2 0 q) = a7 (ValueIdx.ix1 q) :=
  broadcastInDim_apply _ bcast_S6_S1x6_1 a7 (ValueIdx.ix2 0 q) (ValueIdx.ix1 q) (fun a => match a with
    | ⟨0, _⟩ => by show q.val = if (6 : Nat) = 1 then 0 else q.val; rw [if_neg (by decide)])

/-! ## The softmax tail, read at an entry -/

/-- A 1 × 1 matrix spread over a row of six reads its one entry everywhere. -/
theorem bc_1x1_1x6 {α : Type} (y : S1x1.Idx → α) (i : S1x6.Idx) :
    broadcastInDim S1x6 ![0, 1] bcast_S1x1_S1x6_0_1 y i = y (ValueIdx.ix2 0 0) :=
  broadcastInDim_apply _ bcast_S1x1_S1x6_0_1 y i (ValueIdx.ix2 0 0) (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-- A vector of one entry recast as a 1 × 1 matrix reads that entry. -/
theorem bc_1_1x1 {α : Type} (y : S1.Idx → α) (i : S1x1.Idx) :
    broadcastInDim S1x1 ![0] bcast_S1_S1x1_0 y i = y (ValueIdx.ix1 0) :=
  broadcastInDim_apply _ bcast_S1_S1x1_0 y i (ValueIdx.ix1 0) (fun a => match a with
    | ⟨0, _⟩ => by show 0 = if (1 : Nat) = 1 then 0 else (i 0).val; rw [if_pos rfl])

/-- A scalar spread to a vector of one entry reads the scalar. -/
theorem bc_0_1 {α : Type} (y : S_.Idx → α) (i : S1.Idx) :
    broadcastInDim S1 ![] bcast_S_S1 y i = y ValueIdx.ix0 :=
  broadcastInDim_apply _ bcast_S_S1 y i ValueIdx.ix0 (fun a => a.elim0)

/-- The spread peak is, at every entry, the peak of the row of six logits. -/
theorem peakR_apply (z : FVec Ideal S1x6 .f32) (i : S1x6.Idx) :
    peakR z i = Cert.Spec.peak (fun e : Fin 6 => (z (ValueIdx.ix2 0 e) : EReal)) := by
  unfold peakR
  rw [bc_1x1_1x6, bc_1_1x1]
  show max (broadcastInDim S1 ![] bcast_S_S1 (constant (F := Ideal) S_ .f32 0xFF800000#32) (ValueIdx.ix1 0))
      (Host.reduce FloatOps.maximumf z (constant (F := Ideal) S_ .f32 0xFF800000#32) reducesTo_S1x6_S1_d1 h_S_ (ValueIdx.ix1 0)) = _
  rw [bc_0_1, Cert.LibHostRowMax.hostRowMax_apply z _ reducesTo_S1x6_S1_d1 (by decide) h_S_ 0]
  rfl

/-- The exponentials, at an entry. -/
theorem expR_apply (z : FVec Ideal S1x6 .f32) (i : S1x6.Idx) :
    expR z i = Ideal.exp ((z i : EReal) - Cert.Spec.peak (fun e : Fin 6 => (z (ValueIdx.ix2 0 e) : EReal))) := by
  show Ideal.exp ((z i : EReal) - peakR z i) = _
  rw [peakR_apply]

/-- The host's sum of a row of six, spread back over the row: the plain sum of the six entries. -/
theorem sumR_apply (y : FVec Ideal S1x6 .f32) (i : S1x6.Idx) :
    broadcastInDim S1x6 ![0, 1] bcast_S1x1_S1x6_0_1 (broadcastInDim S1x1 ![0] bcast_S1_S1x1_0
        (Host.reduceAdd y (constant (F := Ideal) S_ .f32 0x00000000#32) reducesTo_S1x6_S1_d1 h_S_)) i
      = ∑ k : Fin 6, (y (ValueIdx.ix2 0 k) : EReal) := by
  rw [bc_1x1_1x6, bc_1_1x1]
  simp only [Host.reduceAdd, Ideal.hostReduceAdd_def]
  rw [Ideal.hostReduceAdd_single reducesTo_S1x6_S1_d1 (by decide)]
  refine (congrArg₂ (· + ·) Ideal.ofBits_zero_f32 (Finset.sum_congr rfl fun k _ => ?_)).trans (zero_add _)
  exact congrArg y (funext fun a => Fin.ext (by match a with | ⟨0, _⟩ => rfl | ⟨1, _⟩ => rfl))

/-- The tail at entry (0, q) is the softmax of the row of six logits. -/
theorem tailR_apply (z : FVec Ideal S1x6 .f32) (q : Fin 6) :
    tailR z (ValueIdx.ix2 0 q) = Cert.Spec.softRow (fun e : Fin 6 => (z (ValueIdx.ix2 0 e) : EReal)) q := by
  unfold tailR
  show Ideal.div (expR z (ValueIdx.ix2 0 q)) (broadcastInDim S1x6 ![0, 1] bcast_S1x1_S1x6_0_1 (broadcastInDim S1x1 ![0] bcast_S1_S1x1_0
        (Host.reduceAdd (expR z) (constant (F := Ideal) S_ .f32 0x00000000#32) reducesTo_S1x6_S1_d1 h_S_)) (ValueIdx.ix2 0 q)) = _
  rw [sumR_apply, expR_apply]
  simp only [expR_apply]
  rfl

end Cert.ReferenceIdeal.Hand

end
-- ==== Proof.BridgeMM.lean ====
import proofs.«127401_j75110388072633_2_alg».proof.Proof.KI.R0Value
import proofs.«127401_j75110388072633_2_alg».proof.Proof.KI.R1Value
import proofs.«127401_j75110388072633_2_alg».proof.Proof.KI.Data
import proofs.«127401_j75110388072633_2_alg».proof.Proof.RefValue

/-! # The two dense transforms against the reference's matrix products

Each dense transform's result array, after its region, is the reference's `dot_general` of the two operand arrays
the region is entered with, as whole arrays: entry (p, q) of both is the sum over the contracted coordinate of the
left operand's row p against the right operand's column q. -/

noncomputable section

open scoped BigOperators

namespace Cert.Proof.Bridge

open Idealize.ShloMosaic Idealize.ShloMosaic.TcCoe Idealize.SL.Sem Idealize.ShloMosaic.ValueIdx

/-- The first dense transform's result is the product of the node features with the first weight matrix. -/
theorem mm0_eq (m : (ℓ : Loc Cert.KernelIdeal.nD Cert.KernelIdeal.τ Cert.KernelIdeal.sig) → Buf (Elt Ideal) ℓ)
    (c : Dev Cert.KernelIdeal.nD)
    (a0 : FVec Ideal Cert.ReferenceIdeal.S50000x128 .f32) (a2 : FVec Ideal Cert.ReferenceIdeal.S128x64 .f32)
    (h0 : Cert.KernelIdeal.Hand.B3 m c (Proc.devRef .tc Cert.KernelIdeal.main_arg0) = a0)
    (h2 : Cert.KernelIdeal.Hand.B3 m c (Proc.devRef .tc Cert.KernelIdeal.main_arg2) = a2) :
    Cert.KernelIdeal.Hand.B4 m c (Proc.devRef .tc Cert.KernelIdeal.main_v31)
      = Host.dotGeneral (F := Ideal) (φ₁ := .f32) (φ₂ := .f32)
          Cert.ReferenceIdeal.dot_S50000x128_S128x64_S50000x64_1_0_0_1_n_n none a0 a2 := by
  refine funext fun (i : Cert.ReferenceIdeal.S50000x64.Idx) => ?_
  obtain ⟨p, q, rfl⟩ : ∃ (p : Fin 50000) (q : Fin 64), i = ix2 p q := ⟨i 0, i 1, eq_ix2 i⟩
  refine ((congrFun (Cert.KernelIdeal.Hand.B4_arr m c 2) (ix2 p q)).trans ?_).trans
    (Cert.ReferenceIdeal.Hand.dotR0_apply a0 a2 p q).symm
  exact Cert.KernelIdeal.Hand.arr0_apply_of (Cert.KernelIdeal.Hand.T3 m) c a0 a2 h0 h2 p q

/-- The second dense transform's result is the product of the first layer's output with the second weight matrix. -/
theorem mm1_eq (m : (ℓ : Loc Cert.KernelIdeal.nD Cert.KernelIdeal.τ Cert.KernelIdeal.sig) → Buf (Elt Ideal) ℓ)
    (c : Dev Cert.KernelIdeal.nD)
    (a0 : FVec Ideal Cert.ReferenceIdeal.S50000x64 .f32) (a2 : FVec Ideal Cert.ReferenceIdeal.S64x64 .f32)
    (h0 : Cert.KernelIdeal.Hand.B6 m c (Proc.devRef .tc Cert.KernelIdeal.main_v47) = a0)
    (h2 : Cert.KernelIdeal.Hand.B6 m c (Proc.devRef .tc Cert.KernelIdeal.main_arg4) = a2) :
    Cert.KernelIdeal.Hand.B7 m c (Proc.devRef .tc Cert.KernelIdeal.main_v48)
      = Host.dotGeneral (F := Ideal) (φ₁ := .f32) (φ₂ := .f32)
          Cert.ReferenceIdeal.dot_S50000x64_S64x64_S50000x64_1_0_0_1_n_n none a0 a2 := by
  refine funext fun (i : Cert.ReferenceIdeal.S50000x64.Idx) => ?_
  obtain ⟨p, q, rfl⟩ : ∃ (p : Fin 50000) (q : Fin 64), i = ix2 p q := ⟨i 0, i 1, eq_ix2 i⟩
  refine ((congrFun (Cert.KernelIdeal.Hand.B7_arr m c 2) (ix2 p q)).trans ?_).trans
    (Cert.ReferenceIdeal.Hand.dotR1_apply a0 a2 p q).symm
  exact Cert.KernelIdeal.Hand.arr1_apply_of (Cert.KernelIdeal.Hand.T6 m) c a0 a2 h0 h2 p q

end Cert.Proof.Bridge

end
-- ==== Proof.RefTerm.lean ====
/-
  The reference's result is the composition of its named parts.

  The run of the reference states its result as one tree of host operations over the eight arguments. Both layers
  spell the same operations (over their own product and bias), and the softmax reads the logits four times; so the
  tree is `tailR` of the logits, the logits being the second layer's output, flattened to one row, times the
  classifier's matrix, plus its bias row, and each layer `layerR` of a matrix product. Both sides unfold to the same
  term.
-/
import proofs.«127401_j75110388072633_2_alg».proof.Proof.RefRunP
import proofs.«127401_j75110388072633_2_alg».proof.Proof.RefValue

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 100000 in
/-- The reference's result, as its run states it, is the tail of the logits of the two layers. -/
theorem ref_term_eq (m : (ℓ : Loc nD τ sig) → Buf (Elt Ideal) ℓ) (c : Dev nD) :
    Cert.ReferenceIdeal.ValueP.res_main_v103 (F := Ideal) m c
      = tailR (addf (Host.dotGeneral (F := Ideal) (φ₁ := .f32) (φ₂ := .f32) dot_S1x3200000_S3200000x6_S1x6_1_0_0_1_n_n none
        (shapeCast S1x3200000 (layerR (Host.dotGeneral (F := Ideal) (φ₁ := .f32) (φ₂ := .f32) dot_S50000x64_S64x64_S50000x64_1_0_0_1_n_n none
            (layerR (Host.dotGeneral (F := Ideal) (φ₁ := .f32) (φ₂ := .f32) dot_S50000x128_S128x64_S50000x64_1_0_0_1_n_n none (m ((c.tc : Thread nD τ).loc main_arg0)) (m ((c.tc : Thread nD τ).loc main_arg2))) (m ((c.tc : Thread nD τ).loc main_arg1)) (m ((c.tc : Thread nD τ).loc main_arg3)))
            (m ((c.tc : Thread nD τ).loc main_arg4))) (m ((c.tc : Thread nD τ).loc main_arg1)) (m ((c.tc : Thread nD τ).loc main_arg5))) shapeCasts_S50000x64_S1x3200000)
        (m ((c.tc : Thread nD τ).loc main_arg6))) (broadcastInDim S1x6 ![1] bcast_S6_S1x6_1 (m ((c.tc : Thread nD τ).loc main_arg7)))) := by
  unfold Cert.ReferenceIdeal.ValueP.res_main_v103
  rfl

end Cert.ReferenceIdeal.Hand

end
-- ==== Proof.Bridge.lean ====
/-
  The two programs' results are one array.

  The reference's result is the softmax tail of the logits: the second layer's output, flattened to one row, times the
  classifier's matrix, plus the bias; each layer is the graph aggregation of a matrix product. The kernel program
  computes the same composition: its two dense transforms leave the matrix products (the blocks of rows put together),
  the host operations between them are the same graph aggregation, and its classifier accumulates the last product
  block by block over the contracted axis — a regrouping of one sum on the extended reals — before the same softmax.
  So, entry by entry, both results are `Cert.Spec.softRow` of the same row of six logits.
-/
import proofs.«127401_j75110388072633_2_alg».proof.Proof.KI.Run
import proofs.«127401_j75110388072633_2_alg».proof.Proof.KI.HostK
import proofs.«127401_j75110388072633_2_alg».proof.Proof.KI.R2Value
import proofs.«127401_j75110388072633_2_alg».proof.Proof.BridgeMM
import proofs.«127401_j75110388072633_2_alg».proof.Proof.RefValue
import proofs.«127401_j75110388072633_2_alg».proof.Proof.RefTerm
import Idealize.ShloMosaic.Lib.ValueLayout

set_option maxRecDepth 200000

noncomputable section

open scoped BigOperators

namespace Cert.Proof.Bridge

open Idealize.ShloMosaic Idealize.ShloMosaic.TcCoe Idealize.SL.Sem Idealize.ShloMosaic.StableHlo Idealize.ShloMosaic.ValueIdx
open Cert.KernelIdeal.Hand Cert.ReferenceIdeal.Hand

/-- The graph aggregation of a layer is spelt by the same operations in both programs. -/
theorem layer_eq (h : FVec Ideal Cert.KernelIdeal.S50000x64 .f32) (ei : (⟨Cert.KernelIdeal.S2x800000, .i32⟩ : BufTy).Contents (Elt Ideal)) (b : FVec Ideal Cert.KernelIdeal.S64 .f32) :
    layerK h ei b = layerR h ei b := rfl

variable (m : (ℓ : Loc Cert.KernelIdeal.nD Cert.KernelIdeal.τ Cert.KernelIdeal.sig) → Buf (Elt Ideal) ℓ)

/-- The row the classifier contracts: the second layer's output as the reference composes it, over the kernel
    program's arguments. -/
theorem row_eq (c : Dev Cert.KernelIdeal.nD) :
    B10 m c (Proc.devRef .tc Cert.KernelIdeal.main_v65)
      = shapeCast Cert.ReferenceIdeal.S1x3200000 (layerR (Host.dotGeneral (F := Ideal) (φ₁ := .f32) (φ₂ := .f32) Cert.ReferenceIdeal.dot_S50000x64_S64x64_S50000x64_1_0_0_1_n_n none
          (layerR (Host.dotGeneral (F := Ideal) (φ₁ := .f32) (φ₂ := .f32) Cert.ReferenceIdeal.dot_S50000x128_S128x64_S50000x64_1_0_0_1_n_n none (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
          (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg5))) Cert.ReferenceIdeal.Gen.shapeCasts_S50000x64_S1x3200000 := by
  rw [B10_row, mm1_eq m c _ _ rfl (B6_launch m c Cert.KernelIdeal.main_arg4 (by decide) (by decide) (by decide) (by decide) (by decide) (by decide)), B6_layer,
    mm0_eq m c _ _ (B3_launch m c Cert.KernelIdeal.main_arg0 (by decide) (by decide) (by decide)) (B3_launch m c Cert.KernelIdeal.main_arg2 (by decide) (by decide) (by decide)), layer_eq, layer_eq]

/-- THE VALUE: from memories agreeing on the eight arguments, the reference's result term is what the kernel program
    leaves in its result's array. -/
theorem result_eq (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ValueP.res_main_v103 (F := Ideal) m' c = B11 m c (Proc.devRef .tc Cert.KernelIdeal.main_v67) := by
  rw [ref_term_eq, h0, h1, h2, h3, h4, h5, h6, h7, ← row_eq m c]
  funext i
  obtain ⟨p, q, rfl⟩ : ∃ (p : Fin 1) (q : Fin 6), i = ValueIdx.ix2 p q := ⟨i 0, i 1, ValueIdx.eq_ix2 i⟩
  obtain rfl : p = 0 := Subsingleton.elim _ _
  rw [tailR_apply]
  refine Eq.trans ?_ (congrFun (B11_arr m c 3).symm (ValueIdx.ix2 0 q))
  refine Eq.trans ?_ (arr2_apply_of (T10 m) c q (B10 m c (Proc.devRef .tc Cert.KernelIdeal.main_v65)) (m ((c.tc : Thread Cert.KernelIdeal.nD Cert.KernelIdeal.τ).loc Cert.KernelIdeal.main_arg6))
    (shapeCast Cert.KernelIdeal.S1x6 (m ((c.tc : Thread Cert.KernelIdeal.nD Cert.KernelIdeal.τ).loc Cert.KernelIdeal.main_arg7)) Cert.KernelIdeal.Gen.shapeCasts_S6_S1x6) rfl
    (B10_launch m c Cert.KernelIdeal.main_arg6 (by decide) (by decide) (by decide) (by decide) (by decide) (by decide) (by decide) (by decide) (by decide) (by decide)).symm (B10_bias m c).symm).symm
  refine congrArg (fun f => Cert.Spec.softRow f q) (funext fun e => ?_)
  rw [addf_apply, dotR2_apply, biasR_apply, shapeCast_a_1a_apply]

end Cert.Proof.Bridge

end
-- ==== Proof.lean ====
/-
  A three-kernel graph network against its plain reference, equal on the extended reals.

  The program computes two graph-convolution layers and a classifier over 50000 nodes: each layer's dense transform
  (x · W, rows in blocks of 5000) is a kernel; the graph aggregation between them (degrees, edge weights, gather,
  scatter-add, bias, clamp at zero) runs on the host exactly as the reference spells it; the classifier kernel
  contracts the flattened 3200000 features against a 3200000 × 6 matrix in 250 blocks of 12800, keeping a running
  sum in a scratch row, and at the last block adds the bias and takes the softmax of the six logits. The reference
  computes each product whole. On the extended reals a change of float format is the identity and addition is
  commutative and associative, so the blocked sum is the whole sum and the two results agree entry by entry; no
  finiteness of the inputs is needed. The frames: every item of the program terminates and writes no argument array
  (each kernel region's record — its body run at every grid point, the accumulator carried in the classifier's
  invariant — chained with the stretches of host operations); the ideal pass rewrote nothing.
-/
import proofs.«127401_j75110388072633_2_alg».proof.Defs
import proofs.«127401_j75110388072633_2_alg».proof.Proof.Gen.Kernel
import proofs.«127401_j75110388072633_2_alg».proof.Proof.Gen.KernelIdeal
import proofs.«127401_j75110388072633_2_alg».proof.Proof.Gen.ReferenceIdeal
import proofs.«127401_j75110388072633_2_alg».proof.Proof.Gen.Pre_finite_inputs
import proofs.«127401_j75110388072633_2_alg».proof.Proof.K.Run
import proofs.«127401_j75110388072633_2_alg».proof.Proof.KI.Run
import proofs.«127401_j75110388072633_2_alg».proof.Proof.RefFrame
import proofs.«127401_j75110388072633_2_alg».proof.Proof.Bridge
import Idealize.ShloMosaic.Adequacy
import Idealize.ShloMosaic.Init

noncomputable section

namespace Cert.Proof

open Idealize.ShloMosaic Idealize.SL.Sem

/-- From memories agreeing on the arguments both idealized programs run to the end, the kernel program's result array
    at the last boundary's contents and the reference's at its composed term, which are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.B11 m c (Proc.devRef .tc Cert.KernelIdeal.main_v67), Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Proof.Bridge.result_eq m m' c (hagree c).1 (hagree c).2.1 (hagree c).2.2.1 (hagree c).2.2.2.1 (hagree c).2.2.2.2.1 (hagree c).2.2.2.2.2.1 (hagree c).2.2.2.2.2.2.1 (hagree c).2.2.2.2.2.2.2

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.Hand.frame_ri,
  trivial,
  algebraic⟩

end Cert.Proof

end
